-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64 .f32) (main_arg9 : FVec F S64 .f32) (main_arg10 : FVec F S64 .f32) (main_arg11 : FVec F S64 .f32) (main_arg12 : FVec F S64x1 .f32) (main_arg13 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x1 .f32) (main_arg13 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S64 .f32) (main_arg12 : FVec F S64x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 160
  | .vmem => 59
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000, .i32⟩
  | 19 => ⟨S850000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .f32⟩
  | 58 => ⟨S64, .f32⟩
  | 59 => ⟨S1x64, .f32⟩
  | 60 => ⟨S50000x64, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x64, .f32⟩
  | 70 => ⟨S850000x1, .f32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S1x64, .f32⟩
  | 78 => ⟨S50000x64, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S1x64, .f32⟩
  | 93 => ⟨S1x64, .f32⟩
  | 94 => ⟨S1x64, .f32⟩
  | 95 => ⟨S50000x64, .f32⟩
  | 96 => ⟨S_, .f32⟩
  | 97 => ⟨S64, .f32⟩
  | 98 => ⟨S1x64, .f32⟩
  | 99 => ⟨S50000x64, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x64, .f32⟩
  | 109 => ⟨S850000x1, .f32⟩
  | 110 => ⟨S850000x64, .f32⟩
  | 111 => ⟨S850000x64, .f32⟩
  | 112 => ⟨S_, .f32⟩
  | 113 => ⟨S50000x64, .f32⟩
  | 114 => ⟨S850000x1, .i32⟩
  | 115 => ⟨S50000x64, .f32⟩
  | 116 => ⟨S1x64, .f32⟩
  | 117 => ⟨S50000x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S_, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S50000x64, .f32⟩
  | 7 => ⟨S_, .f32⟩
  | 8 => ⟨S64, .f32⟩
  | 9 => ⟨S1x64, .f32⟩
  | 10 => ⟨S50000x64, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x64, .f32⟩
  | 20 => ⟨S850000x1, .f32⟩
  | 21 => ⟨S850000x64, .f32⟩
  | 22 => ⟨S850000x64, .f32⟩
  | 23 => ⟨S_, .f32⟩
  | 24 => ⟨S50000x64, .f32⟩
  | 25 => ⟨S850000x1, .i32⟩
  | 26 => ⟨S50000x64, .f32⟩
  | 27 => ⟨S1x64, .f32⟩
  | 28 => ⟨S50000x64, .f32⟩
  | 29 => ⟨S1x1, .f32⟩
  | 30 => ⟨S50000x1, .f32⟩
  | 31 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S64x1, .f32⟩
  | .local _ .vmem, ⟨56, _⟩ => ⟨S1x1, .f32⟩
  | .local _ .vmem, ⟨57, _⟩ => ⟨S5000x1, .f32⟩
  | .local _ .vmem, ⟨58, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_c_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79_0 : Ref sig .tc := ⟨.hbm, 117, rfl⟩
abbrev main_v79_1 : Ref sig .tc := ⟨.hbm, 118, rfl⟩
abbrev main_v79_2 : Ref sig .tc := ⟨.hbm, 119, rfl⟩
abbrev main_cst_18 : Ref sig .tc := ⟨.hbm, 120, rfl⟩
abbrev main_v80 : Ref sig .tc := ⟨.hbm, 121, rfl⟩
abbrev main_v81 : Ref sig .tc := ⟨.hbm, 122, rfl⟩
abbrev main_cst_19 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_20 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_21 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_c_22 : Ref sig .tc := ⟨.hbm, 139, rfl⟩
abbrev main_v95 : Ref sig .tc := ⟨.hbm, 140, rfl⟩
abbrev main_v96 : Ref sig .tc := ⟨.hbm, 141, rfl⟩
abbrev main_c_23 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_24 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg3_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem3_0 : DmaSem sig := 57
abbrev cc8_sem3_1 : DmaSem sig := 58

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x1.size a ≤ S64x1.size a
  hwx8_1 : ∀ i : grid8.Coords, EltTy.bits .f32 = 32 ∨ (Rect.block (s := S64x1) S64x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S50000x1.size a
  hwx8_3 : ∀ i : grid8.Coords, EltTy.bits .f32 = 32 ∨ (Rect.block (s := S50000x1) S5000x1.size (cc8_transform_3 i) (hinb8_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S5000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79_0) S5000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v79_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v91) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v107) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v109) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v111) S5000x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S64, .f32⟩
  | 12 => ⟨S64x1, .f32⟩
  | 13 => ⟨S1, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S50000x64, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x64, .f32⟩
  | 67 => ⟨S850000x1, .f32⟩
  | 68 => ⟨S850000x64, .f32⟩
  | 69 => ⟨S850000x64, .f32⟩
  | 70 => ⟨S_, .f32⟩
  | 71 => ⟨S50000x64, .f32⟩
  | 72 => ⟨S850000x1, .i32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S50000x64, .f32⟩
  | 84 => ⟨S50000x64, .f32⟩
  | 85 => ⟨S50000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S_, .f32⟩
  | 95 => ⟨S64, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S50000x64, .f32⟩
  | 9 => ⟨S50000x64, .f32⟩
  | 10 => ⟨S50000x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S50000x64, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x64, .f32⟩
  | 45 => ⟨S850000x1, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x1, .f32⟩
  | 59 => ⟨S1x1, .f32⟩
  | 60 => ⟨S50000x1, .f32⟩
  | 61 => ⟨S50000x1, .f32⟩
  | 62 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call1_cst : Ref sig .tc := ⟨.hbm, 107, rfl⟩
abbrev main_call1_v0 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_cst_21 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call2_cst : Ref sig .tc := ⟨.hbm, 160, rfl⟩
abbrev main_call2_v0 : Ref sig .tc := ⟨.hbm, 161, rfl⟩
abbrev main_v117 : Ref sig .tc := ⟨.hbm, 162, rfl⟩
abbrev main_v118 : Ref sig .tc := ⟨.hbm, 163, rfl⟩
abbrev main_c_23 : Ref sig .tc := ⟨.hbm, 164, rfl⟩
abbrev main_v119 : Ref sig .tc := ⟨.hbm, 165, rfl⟩
abbrev main_v120 : Ref sig .tc := ⟨.hbm, 166, rfl⟩
abbrev main_c_24 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_call3_cst : Ref sig .tc := ⟨.hbm, 183, rfl⟩
abbrev main_call3_v0 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The idealized kernel's run, with the result buffer read.

  The program is nine tiled regions among stretches of host operations. Every weakly fair execution terminates,
  nothing faults, the fourteen argument arrays end as launched, and the result buffer ends at the contents the last
  segment boundary holds for it: the fold `W21` of the host stretches' results and the regions' write-backs, taken
  from the launch memory. Which function of the arguments that is, is the business of the modules that follow.
-/
import proofs.«127809_j47837345743091_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of the nine regions and the host stretches between them: the result buffer ends at the last boundary's
    contents, every argument array as launched. -/
theorem run_result : θ_run defs (onTc (τ := τ) (main (F := F))) ⟨m, fun _ => 0, ρ⟩ (fun r => ∀ c : Dev nD,
      r.2.mem ((c.tc : Thread nD τ).loc main_v112) = W21 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v112 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KernelIdeal.KRun

end
-- ==== Proof.Finite.lean ====
/-
  From the precondition to real entries.

  The precondition says, of every float argument, that the absolute value of each entry is below +∞: it
  is one conjunction, over the arguments, of "all entries satisfy |x| < +∞". On the extended reals
  |x| = max x (−x), which is +∞ exactly at the two infinities, so |x| < +∞ says that x is the image of
  a real number. This module reads that off: when the precondition's function is constantly true, every
  entry of every float argument is a real number.
-/
import proofs.«127809_j47837345743091_1_alg».proof.Pre_finite_inputs
import Idealize.ShloMosaic.Lib.ReduceAll
import Idealize.ShloMosaic.Lib.ValueIdx
import Idealize.ShloMosaic.PureOps.Ideal.Laws
import Mathlib.Tactic

noncomputable section

namespace Cert.Finite

open Idealize.ShloMosaic Cert.Pre_finite_inputs

/- "IsReal a": the extended real a is the image of some real number. -/
local notation "IsReal " a:max => ∃ r : ℝ, a = ((r : ℝ) : EReal)

/-- The word 0x7F800000 is +∞. -/
theorem inf_lit : Ideal.ofBits .f32 0x7F800000#32 = (⊤ : EReal) := by
  simp [Ideal.ofBits, Ideal.ieee]

/-- An extended real whose absolute value max x (−x) is below +∞ is a real number: at −∞ and at +∞ the
    maximum is +∞. -/
theorem real_of_abs_lt (x : EReal)
    (h : Ideal.cmp .olt (max x (-x)) (Ideal.ofBits .f32 0x7F800000#32) = 1#1) : IsReal x := by
  rw [inf_lit] at h
  induction x using EReal.rec with
  | bot => simp [Ideal.cmp] at h
  | coe r => exact ⟨r, rfl⟩
  | top => simp [Ideal.cmp] at h

/-- The shape with no axes has one index. -/
theorem subsingleton_scalar : Subsingleton S_.Idx := ⟨fun a b => funext fun d => d.elim0⟩

/-- One argument's conjunct: if "all entries of |a| are below +∞" came out true, every entry of the
    array is a real number. -/
theorem all_real {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant (F := Ideal) S_ .f32 0x7F800000#32)))
          (constantI S_ 1 1#1) hr hu j = 1#1) (i : s.Idx) : IsReal (a i) := by
  haveI := subsingleton_scalar
  have h1 := Host.reduce_andi_all _ _ hr hu j e i
  have h2 : Ideal.cmp .olt (max (a i) (-(a i))) (Ideal.ofBits .f32 0x7F800000#32) = 1#1 := h1
  exact real_of_abs_lt _ h2

/-- The precondition, split: the conjunct of every float argument holds. (The second argument is the
    integer edge list; the precondition says nothing of it.) -/
theorem conjuncts [Facts]
    (a0 : FVec Ideal S50000x128 .f32) (a1 : IVec S2x800000 32) (a2 : FVec Ideal S128x64 .f32)
    (a3 : FVec Ideal S64 .f32) (a4 : FVec Ideal S64x64 .f32) (a5 : FVec Ideal S64 .f32)
    (a6 : FVec Ideal S64x64 .f32) (a7 a8 a9 a10 a11 : FVec Ideal S64 .f32)
    (a12 : FVec Ideal S64x1 .f32) (a13 : FVec Ideal S1 .f32)
    (h : fn (F := Ideal) a0 a1 a2 a3 a4 a5 a6 a7 a8 a9 a10 a11 a12 a13 = fun _ => 1#1) :
    ((∀ i, IsReal (a0 i)) ∧ (∀ i, IsReal (a2 i)) ∧ (∀ i, IsReal (a3 i)) ∧ (∀ i, IsReal (a4 i)) ∧
      (∀ i, IsReal (a5 i)) ∧ (∀ i, IsReal (a8 i)) ∧ (∀ i, IsReal (a9 i))) ∧
    ((∀ i, IsReal (a6 i)) ∧ (∀ i, IsReal (a7 i)) ∧ (∀ i, IsReal (a10 i)) ∧ (∀ i, IsReal (a11 i)) ∧
      (∀ i, IsReal (a12 i)) ∧ (∀ i, IsReal (a13 i))) := by
  have h0 := congrFun h ValueIdx.ix0
  dsimp only [fn, fn_part1, fn_part2, fn_part3, andi] at h0
  simp only [IntOp.andi_eq_one] at h0
  obtain ⟨⟨⟨⟨⟨⟨⟨⟨⟨⟨⟨⟨e0, e2⟩, e3⟩, e4⟩, e5⟩, e6⟩, e7⟩, e8⟩, e9⟩, e10⟩, e11⟩, e12⟩, e13⟩ := h0
  exact ⟨⟨all_real a0 _ _ _ _ e0, all_real a2 _ _ _ _ e2, all_real a3 _ _ _ _ e3, all_real a4 _ _ _ _ e4,
      all_real a5 _ _ _ _ e5, all_real a8 _ _ _ _ e8, all_real a9 _ _ _ _ e9⟩,
    ⟨all_real a6 _ _ _ _ e6, all_real a7 _ _ _ _ e7, all_real a10 _ _ _ _ e10, all_real a11 _ _ _ _ e11,
      all_real a12 _ _ _ _ e12, all_real a13 _ _ _ _ e13⟩⟩

/-- Under the precondition, every entry of the node features, of the first two layers' weights and biases
    and of the first batch norm's scale and shift is a real number. -/
theorem args_real [Facts]
    (a0 : FVec Ideal S50000x128 .f32) (a1 : IVec S2x800000 32) (a2 : FVec Ideal S128x64 .f32)
    (a3 : FVec Ideal S64 .f32) (a4 : FVec Ideal S64x64 .f32) (a5 : FVec Ideal S64 .f32)
    (a6 : FVec Ideal S64x64 .f32) (a7 a8 a9 a10 a11 : FVec Ideal S64 .f32)
    (a12 : FVec Ideal S64x1 .f32) (a13 : FVec Ideal S1 .f32)
    (h : fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧
    (∀ i, IsReal (a5 i)) ∧ (∀ i, IsReal (a8 i)) ∧ (∀ i, IsReal (a9 i)) :=
  (conjuncts a0 a1 a2 a3 a4 a5 a6 a7 a8 a9 a10 a11 a12 a13 h).1

/-- The same for the remaining float arguments. -/
theorem args_real_rest [Facts]
    (a0 : FVec Ideal S50000x128 .f32) (a1 : IVec S2x800000 32) (a2 : FVec Ideal S128x64 .f32)
    (a3 : FVec Ideal S64 .f32) (a4 : FVec Ideal S64x64 .f32) (a5 : FVec Ideal S64 .f32)
    (a6 : FVec Ideal S64x64 .f32) (a7 a8 a9 a10 a11 : FVec Ideal S64 .f32)
    (a12 : FVec Ideal S64x1 .f32) (a13 : FVec Ideal S1 .f32)
    (h : fn (F := Ideal) a0 a1 a2 a3 a4 a5 a6 a7 a8 a9 a10 a11 a12 a13 = fun _ => 1#1) :
    (∀ i, IsReal (a6 i)) ∧ (∀ i, IsReal (a7 i)) ∧ (∀ i, IsReal (a10 i)) ∧ (∀ i, IsReal (a11 i)) ∧
    (∀ i, IsReal (a12 i)) ∧ (∀ i, IsReal (a13 i)) :=
  (conjuncts a0 a1 a2 a3 a4 a5 a6 a7 a8 a9 a10 a11 a12 a13 h).2

end Cert.Finite

end
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.RefReal.lean ====
/-
  The inputs of the two batch-normalised layers of the reference are arrays of real numbers.

  The reference is a three-layer graph convolution. With d the degree vector (a count of edge ends, so a
  finite sum of ones), the edge weight is w(e) = s(src e) · s(dst e) where s = 1/√max(d, 1) where d > 0 and 0
  elsewhere; a layer maps h to  segment_sum over dst of (h·W)[src] · w  plus the bias; the first two layers
  are followed by a batch norm over the 50000 rows — mean μ, variance v = mean of (h − μ)², then
  (h − μ) · (1/√(v + ε)) · γ + β — and a relu.

  On the extended reals the variance law the certificate uses holds for real numbers only, so this module
  proves that every entry of each batch norm's input is a real number when every float argument is. The
  argument follows the program: a gather picks an entry of its operand whatever the indices are; a
  scatter-add is the operand plus a finite sum of updates; sums, differences, products and maxima of reals
  are reals; max(d, 1) ≥ 1 > 0, so its reciprocal square root is a real; a mean of squares of reals is a
  nonnegative real, so the variance plus ε is a positive real and its reciprocal square root is a real;
  the quotient by 50000 is a quotient by a nonzero real. The integer edge list is unconstrained.
-/
import proofs.«127809_j47837345743091_1_alg».proof.Proof.ReadP
import proofs.«127809_j47837345743091_1_alg».proof.Proof.LibRealSums

noncomputable section

namespace Cert.RefReal

open Cert.ReferenceIdeal Cert.ReferenceIdeal.ReadP Idealize.ShloMosaic Cert.RealSums

/- "IsReal a": the extended real a is the image of some real number. -/
local notation "IsReal " a:max => ∃ r : ℝ, a = ((r : ℝ) : EReal)

/-! ## The float literals of the program -/

/-- The word 0x3F800000 is 1. -/
theorem one_lit : Ideal.ofBits .f32 0x3F800000#32 = ((1 : ℝ) : EReal) := by
  simp [Ideal.ofBits, Ideal.ieee, -EReal.coe_mul]; norm_num

/-- The word 0x00000000 is 0. -/
theorem zero_lit : Ideal.ofBits .f32 0x00000000#32 = ((0 : ℝ) : EReal) := by
  simp [Ideal.ofBits, Ideal.ieee, -EReal.coe_mul]

/-- The word 0x47435000 is 50000, the number of rows. -/
theorem n_lit : Ideal.ofBits .f32 0x47435000#32 = ((50000 : ℝ) : EReal) := by
  simp [Ideal.ofBits, Ideal.ieee, -EReal.coe_mul]; norm_num

/-- The word 0x3727C5AC, the batch norm's ε, is a positive real. -/
theorem eps_lit : ∃ e : ℝ, 0 < e ∧ Ideal.ofBits .f32 0x3727C5AC#32 = (e : EReal) := by
  refine ⟨_, ?_, by simp [Ideal.ofBits, Ideal.ieee, -EReal.coe_mul]; rfl⟩
  norm_num

/-! ## The two data-dependent operations -/

/-- A gather of an array of reals is an array of reals: each result entry is some entry of the operand. -/
theorem gather_real {s si t : Shape} {w : Nat} (d : GatherDims s si t) (x : s.Idx → EReal) (idx : IVec si w)
    (hx : ∀ i, IsReal (x i)) (j : t.Idx) : IsReal (Host.gather d x idx j) := hx _

/-- A scatter-add of reals into reals is an array of reals: each result entry is the operand's entry plus
    a finite sum of update entries. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd (F := Ideal) d x idx upd i) := by
  show IsReal (x i + Finset.sum _ _)
  exact isReal_add (hx i) (isReal_sum _ hu)

/-! ## The degree and the edge weights (functions of the edge list alone) -/

theorem v7_eq (i : S850000.Idx) : val_main_v7 (F := Ideal) i = ((1 : ℝ) : EReal) := by
  rw [val_main_v7_apply, val_main_cst_apply]; exact one_lit

theorem v8_eq (i : S50000.Idx) : val_main_v8 (F := Ideal) i = ((0 : ℝ) : EReal) := by
  rw [val_main_v8_apply, val_main_cst_0_apply]; exact zero_lit

/-- The degree: ones scattered into zeros, a finite sum of ones. -/
theorem v10_real (x1 : (⟨S2x800000, .i32⟩ : BufTy).Contents (Elt Ideal)) (i : S50000.Idx) :
    IsReal (val_main_v10 (F := Ideal) x1 i) := by
  unfold val_main_v10
  exact scatterAdd_real _ _ _ _ (fun i => ⟨0, v8_eq i⟩) (fun j => ⟨1, v7_eq j⟩) i

theorem v13_eq (i : S50000.Idx) : val_main_v13 (F := Ideal) i = ((1 : ℝ) : EReal) := by
  rw [val_main_v13_apply, val_main_cst_2_apply]; exact one_lit

/-- max(degree, 1) is a real that is at least 1, hence positive. -/
theorem v14_pos (x1 : (⟨S2x800000, .i32⟩ : BufTy).Contents (Elt Ideal)) (i : S50000.Idx) :
    ∃ r : ℝ, 0 < r ∧ val_main_v14 (F := Ideal) x1 i = (r : EReal) := by
  obtain ⟨d, hd⟩ := v10_real x1 i
  rw [val_main_v14_apply, Ideal.maximumf_def, hd, v13_eq]
  exact ⟨max d 1, lt_of_lt_of_le one_pos (le_max_right d 1), coe_max d 1⟩

theorem v15_real (x1 : (⟨S2x800000, .i32⟩ : BufTy).Contents (Elt Ideal)) (i : S50000.Idx) :
    IsReal (val_main_v15 (F := Ideal) x1 i) := by
  rw [val_main_v15_apply, Ideal.hostUnary_rsqrt_def]
  exact isReal_rsqrt (v14_pos x1 i)

theorem call0_v1_eq (i : S50000.Idx) : val_main_call0_v1 (F := Ideal) i = ((0 : ℝ) : EReal) := by
  rw [val_main_call0_v1_apply, val_main_call0_v0_apply, val_main_cst_3_apply]; exact zero_lit

/-- The normaliser: the reciprocal square root where the degree is positive, zero elsewhere. -/
theorem v16_real (x1 : (⟨S2x800000, .i32⟩ : BufTy).Contents (Elt Ideal)) (i : S50000.Idx) :
    IsReal (val_main_v16 (F := Ideal) x1 i) := by
  rw [val_main_v16_apply]
  unfold Scalar.select
  split
  · exact v15_real x1 i
  · exact ⟨0, call0_v1_eq i⟩

theorem v23_real (x1 : (⟨S2x800000, .i32⟩ : BufTy).Contents (Elt Ideal)) (i : S850000.Idx) :
    IsReal (val_main_v23 (F := Ideal) x1 i) := by
  unfold val_main_v23
  exact gather_real _ _ _ (v16_real x1) i

theorem v30_real (x1 : (⟨S2x800000, .i32⟩ : BufTy).Contents (Elt Ideal)) (i : S850000.Idx) :
    IsReal (val_main_v30 (F := Ideal) x1 i) := by
  unfold val_main_v30
  exact gather_real _ _ _ (v16_real x1) i

/-- The edge weights. -/
theorem v31_real (x1 : (⟨S2x800000, .i32⟩ : BufTy).Contents (Elt Ideal)) (i : S850000.Idx) :
    IsReal (val_main_v31 (F := Ideal) x1 i) := by
  rw [val_main_v31_apply, Ideal.mulf_def]
  exact isReal_mul (v23_real x1 i) (v30_real x1 i)

theorem v40_real (x1 : (⟨S2x800000, .i32⟩ : BufTy).Contents (Elt Ideal)) (i : S850000x1.Idx) :
    IsReal (val_main_v40 (F := Ideal) x1 i) := by
  rw [val_main_v40_apply]
  exact v31_real x1 _

theorem v41_real (x1 : (⟨S2x800000, .i32⟩ : BufTy).Contents (Elt Ideal)) (i : S850000x64.Idx) :
    IsReal (val_main_v41 (F := Ideal) x1 i) := by
  rw [val_main_v41_apply]
  exact v40_real x1 _

theorem v83_real (x1 : (⟨S2x800000, .i32⟩ : BufTy).Contents (Elt Ideal)) (i : S850000x1.Idx) :
    IsReal (val_main_v83 (F := Ideal) x1 i) := by
  rw [val_main_v83_apply]
  exact v31_real x1 _

theorem v84_real (x1 : (⟨S2x800000, .i32⟩ : BufTy).Contents (Elt Ideal)) (i : S850000x64.Idx) :
    IsReal (val_main_v84 (F := Ideal) x1 i) := by
  rw [val_main_v84_apply]
  exact v83_real x1 _

/-! ## The first convolution -/

/-- x · W0: a finite sum of products. -/
theorem v32_real (x0 : (⟨S50000x128, .f32⟩ : BufTy).Contents (Elt Ideal)) (x2 : (⟨S128x64, .f32⟩ : BufTy).Contents (Elt Ideal))
    (h0 : ∀ i, IsReal (x0 i)) (h2 : ∀ i, IsReal (x2 i)) (i : S50000x64.Idx) :
    IsReal (val_main_v32 (F := Ideal) x0 x2 i) := by
  rw [val_main_v32_apply]
  exact isReal_sum _ (fun k => isReal_mul (h0 _) (h2 _))

theorem v39_real (x0 : (⟨S50000x128, .f32⟩ : BufTy).Contents (Elt Ideal)) (x1 : (⟨S2x800000, .i32⟩ : BufTy).Contents (Elt Ideal)) (x2 : (⟨S128x64, .f32⟩ : BufTy).Contents (Elt Ideal))
    (h0 : ∀ i, IsReal (x0 i)) (h2 : ∀ i, IsReal (x2 i)) (i : S850000x64.Idx) :
    IsReal (val_main_v39 (F := Ideal) x0 x1 x2 i) := by
  unfold val_main_v39
  exact gather_real _ _ _ (v32_real x0 x2 h0 h2) i

theorem v42_real (x0 : (⟨S50000x128, .f32⟩ : BufTy).Contents (Elt Ideal)) (x1 : (⟨S2x800000, .i32⟩ : BufTy).Contents (Elt Ideal)) (x2 : (⟨S128x64, .f32⟩ : BufTy).Contents (Elt Ideal))
    (h0 : ∀ i, IsReal (x0 i)) (h2 : ∀ i, IsReal (x2 i)) (i : S850000x64.Idx) :
    IsReal (val_main_v42 (F := Ideal) x0 x1 x2 i) := by
  rw [val_main_v42_apply, Ideal.mulf_def]
  exact isReal_mul (v39_real x0 x1 x2 h0 h2 i) (v41_real x1 i)

theorem v43_eq (i : S50000x64.Idx) : val_main_v43 (F := Ideal) i = ((0 : ℝ) : EReal) := by
  rw [val_main_v43_apply, val_main_cst_9_apply]; exact zero_lit

theorem v45_real (x0 : (⟨S50000x128, .f32⟩ : BufTy).Contents (Elt Ideal)) (x1 : (⟨S2x800000, .i32⟩ : BufTy).Contents (Elt Ideal)) (x2 : (⟨S128x64, .f32⟩ : BufTy).Contents (Elt Ideal))
    (h0 : ∀ i, IsReal (x0 i)) (h2 : ∀ i, IsReal (x2 i)) (i : S50000x64.Idx) :
    IsReal (val_main_v45 (F := Ideal) x0 x1 x2 i) := by
  unfold val_main_v45
  exact scatterAdd_real _ _ _ _ (fun i => ⟨0, v43_eq i⟩) (v42_real x0 x1 x2 h0 h2) i

theorem v46_real (x3 : (⟨S64, .f32⟩ : BufTy).Contents (Elt Ideal))
    (h3 : ∀ i, IsReal (x3 i)) (i : S1x64.Idx) :
    IsReal (val_main_v46 (F := Ideal) x3 i) := by
  rw [val_main_v46_apply]
  exact h3 _

theorem v47_real (x3 : (⟨S64, .f32⟩ : BufTy).Contents (Elt Ideal))
    (h3 : ∀ i, IsReal (x3 i)) (i : S50000x64.Idx) :
    IsReal (val_main_v47 (F := Ideal) x3 i) := by
  rw [val_main_v47_apply]
  exact v46_real x3 h3 _

theorem v48_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v48 (F := Ideal) x0 x1 x2 x3 i) := by
  rw [val_main_v48_apply, Ideal.addf_def]
  exact isReal_add (v45_real x0 x1 x2 h0 h2 i) (v47_real x3 h3 i)

/-- Every entry of the first batch norm's input is a real number. -/
theorem conv0_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) :
    ∀ i, IsReal (val_main_v48 (F := Ideal) x0 x1 x2 x3 i) :=
  fun i => v48_real x0 x1 x2 x3 h0 h2 h3 i

/-! ## The first batch norm and relu -/

theorem v49_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    IsReal (val_main_v49 (F := Ideal) x0 x1 x2 x3 i) := by
  rw [val_main_v49_apply, val_main_cst_10_apply]
  exact isReal_add ⟨0, zero_lit⟩ (isReal_sum _ (fun k => v48_real x0 x1 x2 x3 h0 h2 h3 _))

theorem v50_eq (i : S64.Idx) : val_main_v50 (F := Ideal) i = ((50000 : ℝ) : EReal) := by
  rw [val_main_v50_apply, val_main_cst_11_apply]; exact n_lit

/-- The column means. -/
theorem v51_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    IsReal (val_main_v51 (F := Ideal) x0 x1 x2 x3 i) := by
  rw [val_main_v51_apply, Ideal.hostDivf_def, v50_eq]
  exact isReal_div (v49_real x0 x1 x2 x3 h0 h2 h3 i) (by norm_num)

theorem v52_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S1x64.Idx) :
    IsReal (val_main_v52 (F := Ideal) x0 x1 x2 x3 i) := by
  rw [val_main_v52_apply]
  exact v51_real x0 x1 x2 x3 h0 h2 h3 _

theorem v53_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v53 (F := Ideal) x0 x1 x2 x3 i) := by
  rw [val_main_v53_apply]
  exact v52_real x0 x1 x2 x3 h0 h2 h3 _

theorem v54_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v54 (F := Ideal) x0 x1 x2 x3 i) := by
  rw [val_main_v54_apply, Ideal.subf_def]
  exact isReal_sub (v48_real x0 x1 x2 x3 h0 h2 h3 i) (v53_real x0 x1 x2 x3 h0 h2 h3 i)

/-- A squared deviation is a nonnegative real. -/
theorem v55_nn (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    ∃ r : ℝ, 0 ≤ r ∧ val_main_v55 (F := Ideal) x0 x1 x2 x3 i = (r : EReal) := by
  obtain ⟨d, hd⟩ := v54_real x0 x1 x2 x3 h0 h2 h3 i
  rw [val_main_v55_apply, Ideal.mulf_def, hd]
  exact ⟨d * d, mul_self_nonneg d, (EReal.coe_mul d d).symm⟩

/-- A column's sum of squared deviations is a nonnegative real. -/
theorem v56_nn (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    ∃ r : ℝ, 0 ≤ r ∧ val_main_v56 (F := Ideal) x0 x1 x2 x3 i = (r : EReal) := by
  rw [val_main_v56_apply, val_main_cst_12_apply]
  choose g hg0 hg using fun k : Fin 50000 => v55_nn x0 x1 x2 x3 h0 h2 h3 (idx_main_v56 i k)
  refine ⟨∑ k, g k, Finset.sum_nonneg (fun k _ => hg0 k), ?_⟩
  rw [Ideal.ofBits_def, zero_lit, EReal.coe_zero, zero_add, ← coe_finset_sum]
  exact Finset.sum_congr rfl (fun k _ => hg k)

theorem v57_eq (i : S64.Idx) : val_main_v57 (F := Ideal) i = ((50000 : ℝ) : EReal) := by
  rw [val_main_v57_apply, val_main_cst_13_apply]; exact n_lit

/-- The column variances are nonnegative reals. -/
theorem v58_nn (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    ∃ r : ℝ, 0 ≤ r ∧ val_main_v58 (F := Ideal) x0 x1 x2 x3 i = (r : EReal) := by
  obtain ⟨s, hs0, hs⟩ := v56_nn x0 x1 x2 x3 h0 h2 h3 i
  rw [val_main_v58_apply, Ideal.hostDivf_def, hs, v57_eq]
  exact ⟨s / 50000, div_nonneg hs0 (by norm_num), div_coe_coe s (by norm_num)⟩

theorem v62_pos (i : S64.Idx) : ∃ e : ℝ, 0 < e ∧ val_main_v62 (F := Ideal) i = (e : EReal) := by
  rw [val_main_v62_apply, val_main_cst_14_apply]; exact eps_lit

/-- Variance plus ε is a positive real. -/
theorem v63_pos (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    ∃ r : ℝ, 0 < r ∧ val_main_v63 (F := Ideal) x0 x1 x2 x3 i = (r : EReal) := by
  obtain ⟨v, hv0, hv⟩ := v58_nn x0 x1 x2 x3 h0 h2 h3 i
  obtain ⟨e, he0, he⟩ := v62_pos i
  rw [val_main_v63_apply, Ideal.addf_def, hv, he]
  exact ⟨v + e, by linarith, (EReal.coe_add v e).symm⟩

theorem v64_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S64.Idx) :
    IsReal (val_main_v64 (F := Ideal) x0 x1 x2 x3 i) := by
  rw [val_main_v64_apply, Ideal.hostUnary_rsqrt_def]
  exact isReal_rsqrt (v63_pos x0 x1 x2 x3 h0 h2 h3 i)

theorem v65_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S1x64.Idx) :
    IsReal (val_main_v65 (F := Ideal) x0 x1 x2 x3 i) := by
  rw [val_main_v65_apply]
  exact v64_real x0 x1 x2 x3 h0 h2 h3 _

theorem v66_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v66 (F := Ideal) x0 x1 x2 x3 i) := by
  rw [val_main_v66_apply]
  exact v65_real x0 x1 x2 x3 h0 h2 h3 _

theorem v59_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S1x64.Idx) :
    IsReal (val_main_v59 (F := Ideal) x0 x1 x2 x3 i) := by
  rw [val_main_v59_apply]
  exact v51_real x0 x1 x2 x3 h0 h2 h3 _

theorem v60_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v60 (F := Ideal) x0 x1 x2 x3 i) := by
  rw [val_main_v60_apply]
  exact v59_real x0 x1 x2 x3 h0 h2 h3 _

theorem v61_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v61 (F := Ideal) x0 x1 x2 x3 i) := by
  rw [val_main_v61_apply, Ideal.subf_def]
  exact isReal_sub (v48_real x0 x1 x2 x3 h0 h2 h3 i) (v60_real x0 x1 x2 x3 h0 h2 h3 i)

theorem v67_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (i : S50000x64.Idx) :
    IsReal (val_main_v67 (F := Ideal) x0 x1 x2 x3 i) := by
  rw [val_main_v67_apply, Ideal.mulf_def]
  exact isReal_mul (v61_real x0 x1 x2 x3 h0 h2 h3 i) (v66_real x0 x1 x2 x3 h0 h2 h3 i)

theorem v68_real (x8 : (⟨S64, .f32⟩ : BufTy).Contents (Elt Ideal))
    (h8 : ∀ i, IsReal (x8 i)) (i : S1x64.Idx) :
    IsReal (val_main_v68 (F := Ideal) x8 i) := by
  rw [val_main_v68_apply]
  exact h8 _

theorem v69_real (x8 : (⟨S64, .f32⟩ : BufTy).Contents (Elt Ideal))
    (h8 : ∀ i, IsReal (x8 i)) (i : S50000x64.Idx) :
    IsReal (val_main_v69 (F := Ideal) x8 i) := by
  rw [val_main_v69_apply]
  exact v68_real x8 h8 _

theorem v70_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x8 : (⟨S64, .f32⟩ : BufTy).Contents (Elt Ideal))
    (h0 : ∀ i, IsReal (x0 i)) (h2 : ∀ i, IsReal (x2 i)) (h3 : ∀ i, IsReal (x3 i)) (h8 : ∀ i, IsReal (x8 i)) (i : S50000x64.Idx) :
    IsReal (val_main_v70 (F := Ideal) x0 x1 x2 x3 x8 i) := by
  rw [val_main_v70_apply, Ideal.mulf_def]
  exact isReal_mul (v67_real x0 x1 x2 x3 h0 h2 h3 i) (v69_real x8 h8 i)

theorem v71_real (x9 : (⟨S64, .f32⟩ : BufTy).Contents (Elt Ideal))
    (h9 : ∀ i, IsReal (x9 i)) (i : S1x64.Idx) :
    IsReal (val_main_v71 (F := Ideal) x9 i) := by
  rw [val_main_v71_apply]
  exact h9 _

theorem v72_real (x9 : (⟨S64, .f32⟩ : BufTy).Contents (Elt Ideal))
    (h9 : ∀ i, IsReal (x9 i)) (i : S50000x64.Idx) :
    IsReal (val_main_v72 (F := Ideal) x9 i) := by
  rw [val_main_v72_apply]
  exact v71_real x9 h9 _

theorem v73_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h8 : ∀ i, IsReal (x8 i)) (h9 : ∀ i, IsReal (x9 i)) (i : S50000x64.Idx) :
    IsReal (val_main_v73 (F := Ideal) x0 x1 x2 x3 x8 x9 i) := by
  rw [val_main_v73_apply, Ideal.addf_def]
  exact isReal_add (v70_real x0 x1 x2 x3 x8 h0 h2 h3 h8 i) (v72_real x9 h9 i)

theorem call1_v0_eq (i : S50000x64.Idx) : val_main_call1_v0 (F := Ideal) i = ((0 : ℝ) : EReal) := by
  rw [val_main_call1_v0_apply, val_main_call1_cst_apply]; exact zero_lit

/-- The first layer's output, relu of the batch norm. -/
theorem v74_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h8 : ∀ i, IsReal (x8 i)) (h9 : ∀ i, IsReal (x9 i)) (i : S50000x64.Idx) :
    IsReal (val_main_v74 (F := Ideal) x0 x1 x2 x3 x8 x9 i) := by
  rw [val_main_v74_apply, Ideal.maximumf_def]
  exact isReal_max (v73_real x0 x1 x2 x3 x8 x9 h0 h2 h3 h8 h9 i) ⟨0, call1_v0_eq i⟩

/-! ## The second convolution -/

/-- h · W1: a finite sum of products. -/
theorem v75_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h8 : ∀ i, IsReal (x8 i)) (h9 : ∀ i, IsReal (x9 i)) (i : S50000x64.Idx) :
    IsReal (val_main_v75 (F := Ideal) x0 x1 x2 x3 x4 x8 x9 i) := by
  rw [val_main_v75_apply]
  exact isReal_sum _ (fun k => isReal_mul (v74_real x0 x1 x2 x3 x8 x9 h0 h2 h3 h8 h9 _) (h4 _))

theorem v82_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h8 : ∀ i, IsReal (x8 i)) (h9 : ∀ i, IsReal (x9 i)) (i : S850000x64.Idx) :
    IsReal (val_main_v82 (F := Ideal) x0 x1 x2 x3 x4 x8 x9 i) := by
  unfold val_main_v82
  exact gather_real _ _ _ (v75_real x0 x1 x2 x3 x4 x8 x9 h0 h2 h3 h4 h8 h9) i

theorem v85_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h8 : ∀ i, IsReal (x8 i)) (h9 : ∀ i, IsReal (x9 i)) (i : S850000x64.Idx) :
    IsReal (val_main_v85 (F := Ideal) x0 x1 x2 x3 x4 x8 x9 i) := by
  rw [val_main_v85_apply, Ideal.mulf_def]
  exact isReal_mul (v82_real x0 x1 x2 x3 x4 x8 x9 h0 h2 h3 h4 h8 h9 i) (v84_real x1 i)

theorem v86_eq (i : S50000x64.Idx) : val_main_v86 (F := Ideal) i = ((0 : ℝ) : EReal) := by
  rw [val_main_v86_apply, val_main_cst_17_apply]; exact zero_lit

theorem v88_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h8 : ∀ i, IsReal (x8 i)) (h9 : ∀ i, IsReal (x9 i)) (i : S50000x64.Idx) :
    IsReal (val_main_v88 (F := Ideal) x0 x1 x2 x3 x4 x8 x9 i) := by
  unfold val_main_v88
  exact scatterAdd_real _ _ _ _ (fun i => ⟨0, v86_eq i⟩) (v85_real x0 x1 x2 x3 x4 x8 x9 h0 h2 h3 h4 h8 h9) i

theorem v89_real (x5 : (⟨S64, .f32⟩ : BufTy).Contents (Elt Ideal))
    (h5 : ∀ i, IsReal (x5 i)) (i : S1x64.Idx) :
    IsReal (val_main_v89 (F := Ideal) x5 i) := by
  rw [val_main_v89_apply]
  exact h5 _

theorem v90_real (x5 : (⟨S64, .f32⟩ : BufTy).Contents (Elt Ideal))
    (h5 : ∀ i, IsReal (x5 i)) (i : S50000x64.Idx) :
    IsReal (val_main_v90 (F := Ideal) x5 i) := by
  rw [val_main_v90_apply]
  exact v89_real x5 h5 _

theorem v91_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) (i : S50000x64.Idx) :
    IsReal (val_main_v91 (F := Ideal) x0 x1 x2 x3 x4 x5 x8 x9 i) := by
  rw [val_main_v91_apply, Ideal.addf_def]
  exact isReal_add (v88_real x0 x1 x2 x3 x4 x8 x9 h0 h2 h3 h4 h8 h9 i) (v90_real x5 h5 i)

/-- Every entry of the second batch norm's input is a real number. -/
theorem conv1_real (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) (h8 : ∀ i, IsReal (x8 i)) (h9 : ∀ i, IsReal (x9 i)) :
    ∀ i, IsReal (val_main_v91 (F := Ideal) x0 x1 x2 x3 x4 x5 x8 x9 i) :=
  fun i => v91_real x0 x1 x2 x3 x4 x5 x8 x9 h0 h2 h3 h4 h5 h8 h9 i

end Cert.RefReal

end
-- ==== Proof.Assemble.lean ====
import proofs.«127809_j47837345743091_1_alg».proof.Defs
import proofs.«127809_j47837345743091_1_alg».proof.Proof.Gen.Kernel.Frame
import proofs.«127809_j47837345743091_1_alg».proof.Proof.Gen.KernelIdeal.Frame
import proofs.«127809_j47837345743091_1_alg».proof.Proof.Gen.Pre_finite_inputs
import proofs.«127809_j47837345743091_1_alg».proof.Proof.KRun
import proofs.«127809_j47837345743091_1_alg».proof.Proof.ReadP
import proofs.«127809_j47837345743091_1_alg».proof.Proof.RunP
import proofs.«127809_j47837345743091_1_alg».proof.Proof.Finite
import proofs.«127809_j47837345743091_1_alg».proof.Proof.RefReal

/-! # The five claims, from the two runs and the equation between their results

The three frames are the programs' runs with the results forgotten; the idealization rewrote nothing, so `preserves`
is trivial. For the algebraic claim both programs are run from memories that agree on the fourteen arguments: the
kernel's result buffer ends at the last boundary's contents `W21`, the reference's at its last stage `val_main_v140`
of the arguments, and the two are equal as soon as the first two graph convolutions of real arguments are real —
which they are, because the precondition makes every entry of every float argument a real number. The equation
itself (`hchain`) is the business of the modules that read the nine regions; here it is a hypothesis. -/

noncomputable section

namespace Cert.Assemble

open Idealize.ShloMosaic Idealize.ShloMosaic.TcCoe Idealize.SL.Sem

/- "IsReal a": the extended real a is the image of some real number. -/
local notation "IsReal " a:max => ∃ r : ℝ, a = ((r : ℝ) : EReal)

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-! ## The two results are equal -/

/-- From the two facts about real entries and the equation between the kernel's last boundary and the reference's
    last stage: the algebraic claim. The kernel's run names its result `W21`; the reference's run names its own as
    its last stage of ITS arguments, which agree with the kernel's; under the precondition every float argument has
    real entries, so the two convolutions are real and the equation applies. -/
theorem algebraic_of_real
    (hconv0 : ∀ (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)), (∀ i, IsReal (x0 i)) → (∀ i, IsReal (x2 i)) → (∀ i, IsReal (x3 i)) →
      ∀ i, IsReal (Cert.ReferenceIdeal.ReadP.val_main_v48 (F := Ideal) x0 x1 x2 x3 i))
    (hconv1 : ∀ (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 x8 x9 : (⟨Cert.ReferenceIdeal.S64, .f32⟩ : BufTy).Contents (Elt Ideal)), (∀ i, IsReal (x0 i)) → (∀ i, IsReal (x2 i)) → (∀ i, IsReal (x3 i)) → (∀ i, IsReal (x4 i)) →
      (∀ i, IsReal (x5 i)) → (∀ i, IsReal (x8 i)) → (∀ i, IsReal (x9 i)) →
      ∀ i, IsReal (Cert.ReferenceIdeal.ReadP.val_main_v91 (F := Ideal) x0 x1 x2 x3 x4 x5 x8 x9 i))
    (hchain : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      (∀ i, IsReal (Cert.ReferenceIdeal.ReadP.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i)) →
      (∀ i, IsReal (Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i)) →
      Cert.KernelIdeal.Gen.W21 m ρ c (Proc.devRef .tc Cert.KernelIdeal.main_v112)
        = Cert.ReferenceIdeal.ReadP.val_main_v140 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.algebraic_KernelIdeal_ReferenceIdeal := by
  intro m ρ m' ρ' hpre hagree
  refine ⟨fun c => Cert.KernelIdeal.Gen.W21 m ρ c (Proc.devRef .tc Cert.KernelIdeal.main_v112), Cert.KernelIdeal.KRun.run_result (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨g0, g1, g2, g3, g4, g5, g6, g7, g8, g9, g10, g11, g12, g13⟩ := hagree c
  obtain ⟨r0, r2, r3, r4, r5, r8, r9⟩ := Cert.Finite.args_real _ _ _ _ _ _ _ _ _ _ _ _ _ _ (hpre c)
  rw [Cert.ReferenceIdeal.ReadP.val_main_v140_eq m' c, g0, g1, g2, g3, g4, g5, g6, g7, g8, g9, g10, g11, g12, g13]
  exact (hchain m ρ c (hconv0 _ _ _ _ r0 r2 r3) (hconv1 _ _ _ _ _ _ _ _ r0 r2 r3 r4 r5 r8 r9)).symm

/-- The algebraic claim from the equation alone: the two convolutions of real arguments are real. -/
theorem algebraic_of
    (hchain : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      (∀ i, IsReal (Cert.ReferenceIdeal.ReadP.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i)) →
      (∀ i, IsReal (Cert.ReferenceIdeal.ReadP.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) i)) →
      Cert.KernelIdeal.Gen.W21 m ρ c (Proc.devRef .tc Cert.KernelIdeal.main_v112)
        = Cert.ReferenceIdeal.ReadP.val_main_v140 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.algebraic_KernelIdeal_ReferenceIdeal :=
  algebraic_of_real (fun x0 x1 x2 x3 => Cert.RefReal.conv0_real x0 x1 x2 x3)
    (fun x0 x1 x2 x3 x4 x5 x8 x9 => Cert.RefReal.conv1_real x0 x1 x2 x3 x4 x5 x8 x9) hchain

end Cert.Assemble

end
-- ==== Proof.Lin0.lean ====
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The linear layer of region 0: `o = x · w + b`, entry by entry

The body of region 0 rounds a 5000-row tile of `x` and the whole of `w` to bf16, multiplies them into a zero
accumulator and adds the one-row `b` to every row. Read over the extended reals a change of float format is the
identity and the product into zero is the plain sum over the contraction index, so the tile the body leaves is, at
row `p` and column `q`, `∑ k, x p k * w k q + b 0 q`. Grid point `t` reads rows `5000 t … 5000 t + 4999` of `x`
(all of `w` and `b`) and writes back the same rows of `o`; the ten tiles cover the 50000 rows (row `r` lies in tile
`r / 5000`), so after the region the output array holds that sum at every entry. Everything is stated at an arbitrary
contents `V` of the buffers on entry. -/

noncomputable section

namespace Cert.KernelIdeal.Lin0

open Cert.KernelIdeal Cert.KernelIdeal.Gen Idealize.ShloMosaic Idealize.ShloMosaic.ValueIdx
open Idealize.ShloMosaic.TcCoe
open Idealize.ShloMosaic.Pipeline (Dat)

/-! ## The arrays the four windows stage -/

theorem arrRef_0 : Pipeline.arrRef spec0 0 = main_arg0 := rfl
theorem arrRef_1 : Pipeline.arrRef spec0 1 = main_arg2 := rfl
theorem arrRef_2 : Pipeline.arrRef spec0 2 = main_v33 := rfl
theorem arrRef_3 : Pipeline.arrRef spec0 3 = main_v34 := rfl

/-! ## One entry of `x · w + b` -/

/-- Row `p` of an `M`-row `x` against column `q` of `w`, plus entry `q` of the one-row `b`. -/
def lin {M : Nat} (x : (⟨2, ![M, 128]⟩ : Shape).Idx → EReal) (w : S128x64.Idx → EReal) (b : S1x64.Idx → EReal)
    (p : Fin M) (q : Fin 64) : EReal :=
  (∑ k : Fin 128, x (ix2 p k) * w (ix2 k q)) + b (ix2 (0 : Fin 1) q)

/-- The entry only depends on row `p` of `x`, column `q` of `w` and entry `q` of `b`. -/
theorem lin_congr {M M' : Nat} (x : (⟨2, ![M, 128]⟩ : Shape).Idx → EReal) (x' : (⟨2, ![M', 128]⟩ : Shape).Idx → EReal)
    (w w' : S128x64.Idx → EReal) (b b' : S1x64.Idx → EReal) (p : Fin M) (p' : Fin M') (q q' : Fin 64)
    (hx : ∀ k : Fin 128, x (ix2 p k) = x' (ix2 p' k)) (hw : ∀ k : Fin 128, w (ix2 k q) = w' (ix2 k q'))
    (hb : b (ix2 (0 : Fin 1) q) = b' (ix2 (0 : Fin 1) q')) : lin x w b p q = lin x' w' b' p' q' := by
  unfold lin
  rw [hb]
  exact congrArg (· + b' (ix2 (0 : Fin 1) q')) (Finset.sum_congr rfl fun k _ => by rw [hx k, hw k])

/-! ## The body's tile at an index -/

/-- Where the product's left operand is read: row of the output index, column the contraction index. -/
theorem lhs_row (i : S5000x64.Idx) (κ : dot_S5000x128_S128x64_S5000x64_1_0_0_1_n_n.contr.Idx) :
    (dot_S5000x128_S128x64_S5000x64_1_0_0_1_n_n.lhsIdx i κ 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- Where the product's right operand is read: row the contraction index, column of the output index. -/
theorem rhs_col (i : S5000x64.Idx) (κ : dot_S5000x128_S128x64_S5000x64_1_0_0_1_n_n.contr.Idx) :
    (dot_S5000x128_S128x64_S5000x64_1_0_0_1_n_n.rhsIdx i κ 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into the zero accumulator, at row `p` and column `q`, is the sum over the contraction index. -/
theorem mm_apply (x : FVec Ideal S5000x128 .bf16) (w : FVec Ideal S128x64 .bf16) (p : Fin 5000) (q : Fin 64) :
    (matmul dot_S5000x128_S128x64_S5000x64_1_0_0_1_n_n none x w (constant S5000x64 .f32 0x00000000#32) : FVec Ideal S5000x64 .f32) (ix2 p q)
      = ∑ k : Fin 128, x (ix2 p k) * w (ix2 k q) := by
  show FloatOps.matmul dot_S5000x128_S128x64_S5000x64_1_0_0_1_n_n none x w (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_row _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact rhs_col _ _)
  rw [el, er]

/-- The tile the body stores, at row `p` and column `q`: the rounding to bf16 is the identity on the extended reals,
    the product is the sum, and the broadcast of the one-row `b` reads its entry `q`. -/
theorem pay_apply (x : Vec Ideal S5000x128 .f32) (w : Vec Ideal S128x64 .f32) (b : Vec Ideal S1x64 .f32) (p : Fin 5000) (q : Fin 64) :
    k0_pay1 x w b (ix2 p q) = lin x w b p q := by
  have hm := mm_apply (truncf .bf16 x bitsLt_bf16_f32) (truncf .bf16 w bitsLt_bf16_f32) p q
  have hb : broadcastTo S5000x64 (shapeCast S1x64 b shapeCasts_S1x64_S1x64) broadcasts_S1x64_S5000x64 (ix2 p q) = b (ix2 (0 : Fin 1) q) := by
    rw [broadcastTo_1b_ab_apply, shapeCast_self]
  unfold k0_pay1 lin
  exact congrArg₂ (· + ·) hm hb

/-- The same at any index of the tile. -/
theorem pay_apply_idx (x : Vec Ideal S5000x128 .f32) (w : Vec Ideal S128x64 .f32) (b : Vec Ideal S1x64 .f32) (j : S5000x64.Idx) :
    k0_pay1 x w b j = lin x w b (⟨(j 0).val, (j 0).isLt⟩ : Fin 5000) (⟨(j 1).val, (j 1).isLt⟩ : Fin 64) := by
  obtain ⟨p, q, rfl⟩ : ∃ (p : Fin 5000) (q : Fin 64), j = ix2 p q := ⟨j 0, j 1, eq_ix2 j⟩
  exact pay_apply x w b p q

/-! ## The blocks of the three input windows, read off the arrays -/

variable (V : (c : Dev nD) → (b : Ref sig .tc) → Buf (Elt Ideal) ((c : Thread nD τ).loc b))

/-- The printed index maps over the grid: the tiled windows move one tile per point, the resident ones stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s tile of `x` is rows `5000 t …` of the array. -/
theorem blk_x (c : Dev nD) (t : Fin cfg0.N) (y : S5000x128.Idx) (i : S50000x128.Idx)
    (h0 : (i 0).val = t.val * 5000 + (y 0).val) (h1 : (i 1).val = (y 1).val) :
    iblk0 V c 0 t y = V c (Pipeline.arrRef spec0 0) i := by
  obtain ⟨e0, e1, -⟩ := idx_facts t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Every point's block of `w` is the whole array. -/
theorem blk_w (c : Dev nD) (t : Fin cfg0.N) (y i : S128x64.Idx)
    (h0 : (i 0).val = (y 0).val) (h1 : (i 1).val = (y 1).val) :
    iblk0 V c 1 t y = V c (Pipeline.arrRef spec0 1) i := by
  obtain ⟨-, -, e2, e3, -⟩ := idx_facts t
  show V c (Pipeline.arrRef spec0 1) (((cfg0.win 1).blk t).view.emb y) = V c (Pipeline.arrRef spec0 1) i
  refine congrArg _ (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- Every point's block of `b` is the whole array. -/
theorem blk_b (c : Dev nD) (t : Fin cfg0.N) (y i : S1x64.Idx)
    (h0 : (i 0).val = (y 0).val) (h1 : (i 1).val = (y 1).val) :
    iblk0 V c 2 t y = V c (Pipeline.arrRef spec0 2) i := by
  obtain ⟨-, -, -, -, e4, e5, -⟩ := idx_facts t
  show V c (Pipeline.arrRef spec0 2) (((cfg0.win 2).blk t).view.emb y) = V c (Pipeline.arrRef spec0 2) i
  refine congrArg _ (funext fun a => Fin.ext ?_)
  match a with
  | ⟨0, _⟩ => show win0_2.index t (0 : Fin 2) * 1 + 1 * (y 0).val = (i 0).val; rw [e4, h0]; omega
  | ⟨1, _⟩ => show win0_2.index t (1 : Fin 2) * 64 + 1 * (y 1).val = (i 1).val; rw [e5, h1]; omega

/-! ## What each point writes back, and the array after the region -/

theorem hz : (![0, 0] : Fin 2 → Nat) = fun _ => 0 := funext fun a => by fin_cases a <;> rfl

/-- The output array as one function of the three input arrays. -/
def G (a0 : S50000x128.Idx → EReal) (a1 : S128x64.Idx → EReal) (a2 : S1x64.Idx → EReal) : S50000x64.Idx → EReal :=
  fun i => lin a0 a1 a2 (⟨(i 0).val, (i 0).isLt⟩ : Fin 50000) (⟨(i 1).val, (i 1).isLt⟩ : Fin 64)

/-- WHAT POINT `t` WRITES BACK is its tile of `G` of the arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨-, -, -, -, -, -, e6, e7⟩ := idx_facts t
  funext j
  refine (pay_apply_idx (iblk0 V c 0 t) (iblk0 V c 1 t) (iblk0 V c 2 t) j).trans ?_
  show _ = G (V c (Pipeline.arrRef spec0 0)) (V c (Pipeline.arrRef spec0 1)) (V c (Pipeline.arrRef spec0 2)) (((cfg0.win 3).blk t).view.emb j)
  unfold G
  refine lin_congr _ _ _ _ _ _ _ _ _ _ (fun k => blk_x V c t _ _ ?_ rfl) (fun k => blk_w V c t _ _ rfl ?_) (blk_b V c t _ _ rfl ?_)
  · show win0_3.index t (0 : Fin 2) * 5000 + 1 * (j 0).val = t.val * 5000 + (j 0).val; rw [e6]; omega
  · show win0_3.index t (1 : Fin 2) * 64 + 1 * (j 1).val = (j 1).val; rw [e7]; omega
  · show win0_3.index t (1 : Fin 2) * 64 + 1 * (j 1).val = (j 1).val; rw [e7]; omega

/-- An index of the output array is in point `t`'s tile iff each coordinate is in the tile's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v34).slice (win0_3.rect t)).set ↔ _
  rw [View.set_slice_whole, Rect.mem_set_unit]
  exact Iff.rfl

/-- The ten tiles cover the array: row `r` lies in tile `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

/-- THE OUTPUT ARRAY after the region is `G` of the input arrays. -/
theorem final (c : Dev nD) : (dat0 V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) cover

/-- `lin` spelt out. -/
theorem lin_def {M : Nat} (x : (⟨2, ![M, 128]⟩ : Shape).Idx → EReal) (w : S128x64.Idx → EReal) (b : S1x64.Idx → EReal)
    (p : Fin M) (q : Fin 64) :
    lin x w b p q = (∑ k : Fin 128, x (ix2 p k) * w (ix2 k q)) + b (ix2 (0 : Fin 1) q) := rfl

/-- Entry `(p, q)` of the output array after the region: row `p` of `x` against column `q` of `w`, plus `b` at `q`. -/
theorem arr_apply_lin (V : (c : Dev nD) → (b : Ref sig .tc) → Buf (Elt Ideal) ((c : Thread nD τ).loc b)) (c : Dev nD) (p : Fin 50000) (q : Fin 64) :
    ((dat0 (F := Ideal) V c).arrAt 3 cfg0.N) (ix2 p q)
      = lin (V c (Pipeline.arrRef spec0 0)) (V c (Pipeline.arrRef spec0 1)) (V c (Pipeline.arrRef spec0 2)) p q := by
  rw [final V c]
  rfl

/-- The same with the three input arrays named: whatever the entry contents of the staged arrays are known to be. -/
theorem arr_apply_of (V : (c : Dev nD) → (b : Ref sig .tc) → Buf (Elt Ideal) ((c : Thread nD τ).loc b)) (c : Dev nD)
    (x : S50000x128.Idx → EReal) (w : S128x64.Idx → EReal) (b : S1x64.Idx → EReal)
    (hx : V c (Pipeline.arrRef spec0 0) = x) (hw : V c (Pipeline.arrRef spec0 1) = w) (hb : V c (Pipeline.arrRef spec0 2) = b)
    (p : Fin 50000) (q : Fin 64) :
    ((dat0 (F := Ideal) V c).arrAt 3 cfg0.N) (ix2 p q)
      = (∑ k : Fin 128, x (ix2 p k) * w (ix2 k q)) + b (ix2 (0 : Fin 1) q) := by
  subst hx hw hb
  exact arr_apply_lin V c p q

/-- The same over the entry contents themselves, the products and the sum taken in the extended reals. -/
theorem arr_apply (V : (c : Dev nD) → (b : Ref sig .tc) → Buf (Elt Ideal) ((c : Thread nD τ).loc b)) (c : Dev nD) (p : Fin 50000) (q : Fin 64) :
    ((dat0 (F := Ideal) V c).arrAt 3 cfg0.N) (ix2 p q)
      = @HAdd.hAdd EReal EReal EReal _ (∑ k : Fin 128, @HMul.hMul EReal EReal EReal _ ((V c (Pipeline.arrRef spec0 0)) (ix2 p k)) ((V c (Pipeline.arrRef spec0 1)) (ix2 k q)))
        ((V c (Pipeline.arrRef spec0 2)) (ix2 (0 : Fin 1) q)) :=
  arr_apply_lin V c p q

end Cert.KernelIdeal.Lin0

end
-- ==== Proof.Stats1.lean ====
/-
  The statistics pass of a normalisation layer: what its three outputs hold after the pass.

  The pass walks a 50000 x 64 array s in ten tiles of 5000 rows. At each tile it adds the bias row b
  (1 x 64, the same row for every tile) to every row of the tile and writes the result to the first output;
  it also keeps two 1 x 64 accumulators, set to zero at the first tile, into which it adds the column sums of
  the biased tile and of its entrywise square. After the last tile the accumulators are written out once.

  Three facts are proved here, entry by entry, for any contents of the arrays when the pass is entered:
  the first output is s + b; the second is the column sums of s + b over all 50000 rows; the third is the
  column sums of (s + b) * (s + b). The accumulators are followed tile by tile: after tile n they hold the sum
  of the tile sums of tiles 0 to n. Addition of extended reals is commutative and associative and 0 + x = x,
  so the ten tile sums regroup into one sum over the rows with no finiteness assumption.
-/
import proofs.«127809_j47837345743091_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Stats1

open Cert.KernelIdeal Cert.KernelIdeal.Gen Idealize.ShloMosaic Idealize.ShloMosaic.ValueIdx
open Idealize.ShloMosaic.TcCoe Idealize.SL.Sem
open Idealize.ShloMosaic.Pipeline (Dat)

/-! ## The five arrays -/

theorem arrRef_0 : Pipeline.arrRef spec1 0 = main_v47 := rfl
theorem arrRef_1 : Pipeline.arrRef spec1 1 = main_v48 := rfl
theorem arrRef_2 : Pipeline.arrRef spec1 2 = main_v49_0 := rfl
theorem arrRef_3 : Pipeline.arrRef spec1 3 = main_v49_1 := rfl
theorem arrRef_4 : Pipeline.arrRef spec1 4 = main_v49_2 := rfl

theorem hz : (![0, 0] : Fin 2 → Nat) = fun _ => 0 := funext fun a => by fin_cases a <;> rfl

/-! ## What one tile's step leaves, as terms of what it read (any float values) -/

section Pieces

variable {F : FTy → Type} [FloatOps F]

/-- At the first tile the first output's buffer is left holding the biased tile. -/
theorem out_A_2 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond1_0 i)
    (x0 : Vec F S5000x64 .f32) (x1 : Vec F S1x64 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  try sl_unfold_words
  rw [View.canon_unit_zero hz]
  simp only [View.readAt_eq_ld, h1.read_unread, h2.read_unread, View.ld_unit_zero (S := S5000x64) hz,
    View.ld_unit_zero (S := S1x64) hz]

/-- At the first tile the sum accumulator is zeroed, read back, and left holding zero plus the tile's column sums. -/
theorem out_A_3 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond1_0 i)
    (x0 : Vec F S5000x64 .f32) (x1 : Vec F S1x64 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  try sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- At the first tile the accumulator of squares likewise: zero plus the column sums of the squares. -/
theorem out_A_4 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond1_0 i)
    (x0 : Vec F S5000x64 .f32) (x1 : Vec F S1x64 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  try sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- At a later tile the first output's buffer is left holding the biased tile. -/
theorem out_B_2 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond1_0 i)
    (x0 : Vec F S5000x64 .f32) (x1 : Vec F S1x64 .f32) (xo3 xo4 : Vec F S1x64 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  try sl_unfold_words
  rw [View.canon_unit_zero hz]
  simp only [View.readAt_eq_ld, h1.read_unread, h2.read_unread, View.ld_unit_zero (S := S5000x64) hz,
    View.ld_unit_zero (S := S1x64) hz]

/-- At a later tile the sum accumulator is left holding what it held plus the tile's column sums. -/
theorem out_B_3 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond1_0 i)
    (x0 : Vec F S5000x64 .f32) (x1 : Vec F S1x64 .f32) (xo3 xo4 : Vec F S1x64 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  try sl_unfold_words
  rw [View.canon_unit_zero hz]
  simp only [View.readAt_eq_ld, h1.read_unread, h2.read_unread, h4.read_unread, View.ld_unit_zero (S := S5000x64) hz,
    View.ld_unit_zero (S := S1x64) hz]

/-- At a later tile the accumulator of squares likewise. -/
theorem out_B_4 (c : Dev nD) (i : grid1.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond1_0 i)
    (x0 : Vec F S5000x64 .f32) (x1 : Vec F S1x64 .f32) (xo3 xo4 : Vec F S1x64 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  try sl_unfold_words
  rw [View.canon_unit_zero hz]
  simp only [View.readAt_eq_ld, h1.read_unread, h2.read_unread, h5.read_unread, View.ld_unit_zero (S := S5000x64) hz,
    View.ld_unit_zero (S := S1x64) hz]

end Pieces

/-! ## The step's arithmetic at one entry, over the extended reals -/

section Arithmetic

/-- The zero the accumulators are reset to. -/
theorem pay1_apply (j : S1x64.Idx) : k1_pay1 (F := Ideal) j = 0 := by
  unfold k1_pay1
  exact Ideal.ofBits_zero_f32

theorem pay2_apply (j : S1x64.Idx) : k1_pay2 (F := Ideal) j = 0 := by
  unfold k1_pay2
  exact Ideal.ofBits_zero_f32

/-- The biased tile: row p, column q of the tile plus column q of the bias row. -/
theorem pay3_apply (x0 : Vec Ideal S5000x64 .f32) (x1 : Vec Ideal S1x64 .f32) (p : Fin 5000) (q : Fin 64) :
    k1_pay3 (F := Ideal) x0 x1 (ix2 p q) = x0 (ix2 p q) + x1 (ix2 (0 : Fin 1) q) := by
  unfold k1_pay3
  refine (addf_apply _ _ (ix2 p q)).trans ?_
  refine congrArg₂ (· + ·) (congrFun (shapeCast_self x0 _) (ix2 p q)) ?_
  refine (broadcastTo_1b_ab_apply _ _ p q).trans ?_
  exact congrFun (shapeCast_self x1 _) _

/-- A sum down the 5000 rows of a tile, at column q. -/
theorem colsum (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  refine Finset.sum_congr rfl fun p _ => congrArg src ?_
  funext a
  match a with
  | ⟨0, _⟩ => rfl
  | ⟨1, _⟩ => rfl

/-- The sum accumulator's step: what it held plus the column sum of the biased tile. -/
theorem pay4_apply (x0 : Vec Ideal S5000x64 .f32) (x1 acc : Vec Ideal S1x64 .f32) (q : Fin 64) :
    k1_pay4 (F := Ideal) x0 x1 acc (ix2 (0 : Fin 1) q)
      = acc (ix2 (0 : Fin 1) q) + ∑ p : Fin 5000, (x0 (ix2 p q) + x1 (ix2 (0 : Fin 1) q)) := by
  unfold k1_pay4
  refine (addf_apply _ _ (ix2 (0 : Fin 1) q)).trans ?_
  refine congrArg₂ (· + ·) (congrFun (shapeCast_self acc _) _) ?_
  refine (shapeCast_a_1a_apply _ _ (0 : Fin 1) q).trans ?_
  refine (colsum _ _ _ q).trans ?_
  exact Finset.sum_congr rfl fun p _ => pay3_apply x0 x1 p q

/-- The step of the accumulator of squares: what it held plus the column sum of the squared biased tile. -/
theorem pay5_apply (x0 : Vec Ideal S5000x64 .f32) (x1 acc : Vec Ideal S1x64 .f32) (q : Fin 64) :
    k1_pay5 (F := Ideal) x0 x1 acc (ix2 (0 : Fin 1) q)
      = acc (ix2 (0 : Fin 1) q)
        + ∑ p : Fin 5000, (x0 (ix2 p q) + x1 (ix2 (0 : Fin 1) q)) * (x0 (ix2 p q) + x1 (ix2 (0 : Fin 1) q)) := by
  unfold k1_pay5
  refine (addf_apply _ _ (ix2 (0 : Fin 1) q)).trans ?_
  refine congrArg₂ (· + ·) (congrFun (shapeCast_self acc _) _) ?_
  refine (shapeCast_a_1a_apply _ _ (0 : Fin 1) q).trans ?_
  refine (colsum _ _ _ q).trans ?_
  refine Finset.sum_congr rfl fun p _ => ?_
  refine (mulf_apply _ _ (ix2 p q)).trans ?_
  exact congrArg₂ (· * ·) (pay3_apply x0 x1 p q) (pay3_apply x0 x1 p q)

end Arithmetic

/-! ## The tiles as rows of the arrays -/

section Run

variable (V : (c : Dev nD) → (b : Ref sig .tc) → Buf (Elt Ideal) ((c : Thread nD τ).loc b)) (c : Dev nD)

/-- Where the tiles sit: tile t of the two tiled arrays is block (t, 0); the bias row is block (0, 0) at every tile. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt10 {n : ℕ} (h : n < cfg1.N) : n < 10 := lt_of_lt_of_eq h (show cfg1.N = 10 from N_1)

/-- Row p of tile n, as a row of the whole array. -/
def row (n : ℕ) (hn : n < 10) (p : Fin 5000) : Fin 50000 := ⟨5000 * n + p.val, by have := p.isLt; omega⟩

/-- Tile t of the first array, and the bias row as tile t reads it. -/
def sblk (t : Fin cfg1.N) : Vec Ideal S5000x64 .f32 := iblk1 (F := Ideal) V c 0 t
def bblk (t : Fin cfg1.N) : Vec Ideal S1x64 .f32 := iblk1 (F := Ideal) V c 1 t

section Rows

variable (s : S50000x64.Idx → EReal) (b : S1x64.Idx → EReal)

/-- Tile t of s: its row p is row 5000 t + p of s. -/
theorem sblk_apply (hs : V c (Pipeline.arrRef spec1 0) = s) (t : Fin cfg1.N) (p : Fin 5000) (q : Fin 64) :
    sblk V c t (ix2 p q) = s (ix2 (row t.val (lt10 t.isLt) p) q) := by
  obtain ⟨e0, e1, -⟩ := idx_facts t
  subst hs
  unfold sblk iblk1
  rw [View.read_apply]
  show (V c (Pipeline.arrRef spec1 0) : S50000x64.Idx → EReal) _ = _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- The bias row is read whole at every tile. -/
theorem bblk_apply (hb : V c (Pipeline.arrRef spec1 1) = b) (t : Fin cfg1.N) (q : Fin 64) :
    bblk V c t (ix2 (0 : Fin 1) q) = b (ix2 (0 : Fin 1) q) := by
  obtain ⟨-, -, e0, e1, -⟩ := idx_facts t
  subst hb
  unfold bblk iblk1
  rw [View.read_apply]
  show (V c (Pipeline.arrRef spec1 1) : S1x64.Idx → EReal) _ = _
  congr 1
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- Entry (i, q) of s + b. -/
def entry (q : Fin 64) (i : Fin 50000) : EReal := s (ix2 i q) + b (ix2 (0 : Fin 1) q)

/-- The sum down column q of tile n of s + b (zero past the last tile). -/
def tileSum (q : Fin 64) (n : ℕ) : EReal :=
  if hn : n < 10 then ∑ p : Fin 5000, entry s b q (row n hn p) else 0

/-- The sum down column q of tile n of the squares of s + b (zero past the last tile). -/
def tileSq (q : Fin 64) (n : ℕ) : EReal :=
  if hn : n < 10 then ∑ p : Fin 5000, entry s b q (row n hn p) * entry s b q (row n hn p) else 0

theorem tile_sum_eq (hs : V c (Pipeline.arrRef spec1 0) = s) (hb : V c (Pipeline.arrRef spec1 1) = b) (n : ℕ) (h : n < cfg1.N) (q : Fin 64) :
    ∑ p : Fin 5000, (sblk V c ⟨n, h⟩ (ix2 p q) + bblk V c ⟨n, h⟩ (ix2 (0 : Fin 1) q)) = tileSum s b q n := by
  unfold tileSum
  rw [dif_pos (lt10 h)]
  refine Finset.sum_congr rfl fun p _ => ?_
  rw [sblk_apply V c s hs ⟨n, h⟩ p q, bblk_apply V c b hb ⟨n, h⟩ q]
  rfl

theorem tile_sq_eq (hs : V c (Pipeline.arrRef spec1 0) = s) (hb : V c (Pipeline.arrRef spec1 1) = b) (n : ℕ) (h : n < cfg1.N) (q : Fin 64) :
    ∑ p : Fin 5000, (sblk V c ⟨n, h⟩ (ix2 p q) + bblk V c ⟨n, h⟩ (ix2 (0 : Fin 1) q))
      * (sblk V c ⟨n, h⟩ (ix2 p q) + bblk V c ⟨n, h⟩ (ix2 (0 : Fin 1) q)) = tileSq s b q n := by
  unfold tileSq
  rw [dif_pos (lt10 h)]
  refine Finset.sum_congr rfl fun p _ => ?_
  rw [sblk_apply V c s hs ⟨n, h⟩ p q, bblk_apply V c b hb ⟨n, h⟩ q]
  rfl

end Rows

/-! ## What the three buffers hold after each tile -/

/-- After any tile the first output's buffer holds that tile, biased. -/
theorem conv_at (t : Fin cfg1.N) :
    (outsAt1 (F := Ideal) V c t.val t.isLt).1 = k1_pay3 (sblk V c t) (bblk V c t) := by
  by_cases h0 : t.val % 10 = 0
  · rw [outsAt1_A V c t h0]
    dsimp only
    exact out_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact out_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2

/-- After the first tile the accumulators hold zero plus that tile's column sums. -/
theorem acc_first (h : 0 < cfg1.N) :
    (outsAt1 (F := Ideal) V c 0 h).2.1 = k1_pay4 (sblk V c ⟨0, h⟩) (bblk V c ⟨0, h⟩) (k1_pay1 (F := Ideal))
    ∧ (outsAt1 (F := Ideal) V c 0 h).2.2 = k1_pay5 (sblk V c ⟨0, h⟩) (bblk V c ⟨0, h⟩) (k1_pay2 (F := Ideal)) := by
  rw [outsAt1_A V c ⟨0, h⟩ rfl]
  dsimp only
  exact ⟨out_A_3 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩),
    out_A_4 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)⟩

/-- After a later tile the accumulators hold what they held after the tile before plus this tile's column sums. -/
theorem acc_next (n : ℕ) (h : n + 1 < cfg1.N) :
    (outsAt1 (F := Ideal) V c (n + 1) h).2.1
        = k1_pay4 (sblk V c ⟨n + 1, h⟩) (bblk V c ⟨n + 1, h⟩) (outsAt1 (F := Ideal) V c n (Nat.lt_of_succ_lt h)).2.1
    ∧ (outsAt1 (F := Ideal) V c (n + 1) h).2.2
        = k1_pay5 (sblk V c ⟨n + 1, h⟩) (bblk V c ⟨n + 1, h⟩) (outsAt1 (F := Ideal) V c n (Nat.lt_of_succ_lt h)).2.2 := by
  have hN : cfg1.N = 10 := N_1
  have hB : ¬(⟨n + 1, h⟩ : Fin cfg1.N).val % 10 = 0 := by dsimp only; omega
  rw [outsAt1_B V c ⟨n + 1, h⟩ hB]
  dsimp only
  exact ⟨out_B_3 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun h' => hB ((hcond1_0 ⟨n + 1, h⟩).mp h')) (iblk1 V c 0 ⟨n + 1, h⟩) (iblk1 V c 1 ⟨n + 1, h⟩)
      (outsAt1 V c n (Nat.lt_of_succ_lt h)).2.1 (outsAt1 V c n (Nat.lt_of_succ_lt h)).2.2,
    out_B_4 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun h' => hB ((hcond1_0 ⟨n + 1, h⟩).mp h')) (iblk1 V c 0 ⟨n + 1, h⟩) (iblk1 V c 1 ⟨n + 1, h⟩)
      (outsAt1 V c n (Nat.lt_of_succ_lt h)).2.1 (outsAt1 V c n (Nat.lt_of_succ_lt h)).2.2⟩

section Sums

variable (s : S50000x64.Idx → EReal) (b : S1x64.Idx → EReal)

/-- THE RUNNING SUMS. After tile n the accumulators hold, at column q, the sum of the column sums of tiles 0 to n:
    by induction on the tile. -/
theorem acc_eq (hs : V c (Pipeline.arrRef spec1 0) = s) (hb : V c (Pipeline.arrRef spec1 1) = b) (q : Fin 64) : ∀ (n : ℕ) (h : n < cfg1.N),
    (outsAt1 (F := Ideal) V c n h).2.1 (ix2 (0 : Fin 1) q) = ∑ r ∈ Finset.range (n + 1), tileSum s b q r
    ∧ (outsAt1 (F := Ideal) V c n h).2.2 (ix2 (0 : Fin 1) q) = ∑ r ∈ Finset.range (n + 1), tileSq s b q r
  | 0, h => by
    obtain ⟨e3, e4⟩ := acc_first V c h
    constructor
    · refine (congrFun e3 (ix2 (0 : Fin 1) q)).trans ?_
      refine (pay4_apply (sblk V c ⟨0, h⟩) (bblk V c ⟨0, h⟩) (k1_pay1 (F := Ideal)) q).trans ?_
      rw [pay1_apply, zero_add, Finset.sum_range_one]
      exact tile_sum_eq V c s b hs hb 0 h q
    · refine (congrFun e4 (ix2 (0 : Fin 1) q)).trans ?_
      refine (pay5_apply (sblk V c ⟨0, h⟩) (bblk V c ⟨0, h⟩) (k1_pay2 (F := Ideal)) q).trans ?_
      rw [pay2_apply, zero_add, Finset.sum_range_one]
      exact tile_sq_eq V c s b hs hb 0 h q
  | n + 1, h => by
    obtain ⟨e3, e4⟩ := acc_next V c n h
    obtain ⟨i3, i4⟩ := acc_eq hs hb q n (Nat.lt_of_succ_lt h)
    constructor
    · refine (congrFun e3 (ix2 (0 : Fin 1) q)).trans ?_
      refine (pay4_apply (sblk V c ⟨n + 1, h⟩) (bblk V c ⟨n + 1, h⟩)
        (outsAt1 (F := Ideal) V c n (Nat.lt_of_succ_lt h)).2.1 q).trans ?_
      rw [i3, Finset.sum_range_succ _ (n + 1), tile_sum_eq V c s b hs hb (n + 1) h q]
    · refine (congrFun e4 (ix2 (0 : Fin 1) q)).trans ?_
      refine (pay5_apply (sblk V c ⟨n + 1, h⟩) (bblk V c ⟨n + 1, h⟩)
        (outsAt1 (F := Ideal) V c n (Nat.lt_of_succ_lt h)).2.2 q).trans ?_
      rw [i4, Finset.sum_range_succ _ (n + 1), tile_sq_eq V c s b hs hb (n + 1) h q]

/-- The ten tile sums regroup into one sum over the 50000 rows: a row is (tile, row within the tile). -/
theorem sum_rows {M : Type*} [AddCommMonoid M] (f : Fin 50000 → M) :
    ∑ r ∈ Finset.range 10, (if hn : r < 10 then ∑ p : Fin 5000, f (row r hn p) else 0) = ∑ i, f i := by
  have e : ∑ x : Fin 10 × Fin 5000, f ((finProdFinEquiv : Fin 10 × Fin 5000 ≃ Fin 50000) x) = ∑ i, f i :=
    (finProdFinEquiv : Fin 10 × Fin 5000 ≃ Fin 50000).sum_comp f
  rw [← e, Fintype.sum_prod_type, Finset.sum_range]
  refine Finset.sum_congr rfl fun r _ => ?_
  rw [dif_pos r.isLt]
  refine Finset.sum_congr rfl fun p _ => congrArg f (Fin.ext ?_)
  show 5000 * r.val + p.val = p.val + 5000 * r.val
  omega

/-! ## The first output after the pass -/

/-- The first output as one array: s + b. -/
def conv : Buf (Elt Ideal) ((c : Thread nD τ).loc main_v49_0) := fun (i : S50000x64.Idx) =>
  s i + b (ix2 (0 : Fin 1) (i 1))

/-- Entry (p, q) of tile t of the first output sits at row 5000 t + p of the array. -/
theorem emb2 (t : Fin cfg1.N) (p : Fin 5000) (q : Fin 64) :
    ((cfg1.win 2).blk t).view.emb (ix2 p q) = (ix2 (row t.val (lt10 t.isLt) p) q : S50000x64.Idx) := by
  obtain ⟨-, -, -, -, e0, e1⟩ := idx_facts t
  funext a
  apply Fin.ext
  match a with
  | ⟨0, _⟩ => show win1_2.index t (0 : Fin 2) * 5000 + 1 * p.val = 5000 * t.val + p.val; rw [e0]; omega
  | ⟨1, _⟩ => show win1_2.index t (1 : Fin 2) * 64 + 1 * q.val = q.val; rw [e1]; omega

/-- What tile t writes back to the first output is tile t of s + b. -/
theorem flushed2_eq (hs : V c (Pipeline.arrRef spec1 0) = s) (hb : V c (Pipeline.arrRef spec1 1) = b) (t : Fin cfg1.N) :
    (dat1 (F := Ideal) V c).flushed 2 t = ((cfg1.win 2).blk t).view.read (Elt Ideal) (conv c s b) := by
  show (cfg1.win 2).cut (grid1.coords t) ((dat1 (F := Ideal) V c).after 2 t) = _
  rw [after1_2, conv_at]
  refine funext fun (j : S5000x64.Idx) => ?_
  obtain ⟨p, q, rfl⟩ : ∃ (p : Fin 5000) (q : Fin 64), j = ix2 p q := ⟨j 0, j 1, eq_ix2 j⟩
  rw [View.read_apply]
  show k1_pay3 (F := Ideal) (sblk V c t) (bblk V c t) (ix2 p q) = conv c s b (((cfg1.win 2).blk t).view.emb (ix2 p q))
  rw [emb2 t p q]
  refine (pay3_apply (sblk V c t) (bblk V c t) p q).trans ?_
  rw [sblk_apply V c s hs t p q, bblk_apply V c b hb t q]
  rfl

/-- A row of the array lies in tile t exactly when it is one of rows 5000 t to 5000 t + 4999. -/
theorem mem_blk2 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49_0).slice (win1_2.rect t)).set ↔ _
  rw [View.set_slice_whole, Rect.mem_set_unit]
  exact Iff.rfl

/-- Every row lies in a tile: row r in tile r / 5000. -/
theorem cover2 (i : S50000x64.Idx) :
    ∃ t : Fin cfg1.N, (cfg1.win 2).flush t = true ∧ i ∈ ((cfg1.win 2).blk t).view.set := by
  have hi0 : (i 0).val < 50000 := idx2_lt0 i
  have hi1 : (i 1).val < 64 := idx2_lt1 i
  have hN : cfg1.N = 10 := N_1
  have ht : (i 0).val / 5000 < cfg1.N := by rw [hN]; omega
  obtain ⟨-, -, -, -, e0, e1⟩ := idx_facts ⟨(i 0).val / 5000, ht⟩
  refine ⟨⟨(i 0).val / 5000, ht⟩, flush1_2 _, ?_⟩
  rw [mem_blk2]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e0]; dsimp only; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e1]; omega

/-- So the first output ends holding s + b. -/
theorem final2 (hs : V c (Pipeline.arrRef spec1 0) = s) (hb : V c (Pipeline.arrRef spec1 1) = b) : (dat1 (F := Ideal) V c).arrAt 2 cfg1.N = conv c s b :=
  (dat1 (F := Ideal) V c).arrAt_eq_of_cover 2 (conv c s b) (fun t _ => flushed2_eq V c s b hs hb t) cover2

end Sums

/-! ## The accumulators after the pass: written out once, after the last tile -/

/-- What the sum accumulator holds after the last tile. -/
def sumLast : Buf (Elt Ideal) ((c : Thread nD τ).loc main_v49_1) :=
  (outsAt1 (F := Ideal) V c 9 (by rw [show cfg1.N = 10 from N_1]; decide)).2.1

/-- What the accumulator of squares holds after the last tile. -/
def sqLast : Buf (Elt Ideal) ((c : Thread nD τ).loc main_v49_2) :=
  (outsAt1 (F := Ideal) V c 9 (by rw [show cfg1.N = 10 from N_1]; decide)).2.2

/-- The one write-back of the sum accumulator, after the last tile, writes the whole 1 x 64 array. -/
theorem flushed3_eq (t : Fin cfg1.N) (hf : (cfg1.win 3).flush t = true) :
    (dat1 (F := Ideal) V c).flushed 3 t = ((cfg1.win 3).blk t).view.read (Elt Ideal) (sumLast V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 (F := Ideal) V c).after 3 t1_9) = _
  rw [after1_3]
  have hz' : (fun a => win1_3.index t1_9 a * main_v49_1.ty.shape.size a) = fun _ => 0 :=
    funext fun a => by fin_cases a <;> decide
  exact (Memref.read_access_unit_zero (Elt Ideal) main_v49_1 hz' (fun a => by rw [congrFun hz' a]; simp) (sumLast V c)).symm

theorem flushed4_eq (t : Fin cfg1.N) (hf : (cfg1.win 4).flush t = true) :
    (dat1 (F := Ideal) V c).flushed 4 t = ((cfg1.win 4).blk t).view.read (Elt Ideal) (sqLast V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 (F := Ideal) V c).after 4 t1_9) = _
  rw [after1_4]
  have hz' : (fun a => win1_4.index t1_9 a * main_v49_2.ty.shape.size a) = fun _ => 0 :=
    funext fun a => by fin_cases a <;> decide
  exact (Memref.read_access_unit_zero (Elt Ideal) main_v49_2 hz' (fun a => by rw [congrFun hz' a]; simp) (sqLast V c)).symm

/-- So the second output ends holding what the sum accumulator held after the last tile. -/
theorem final3 : (dat1 (F := Ideal) V c).arrAt 3 cfg1.N = sumLast V c :=
  (dat1 (F := Ideal) V c).arrAt_eq_of_cover 3 (sumLast V c) (flushed3_eq V c) fun i =>
    ⟨t1_9, (flush1_3 t1_9).mpr rfl, by
      show i ∈ ((View.whole main_v49_1).slice (win1_3.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_3.index t1_9 0 * win1_3.size 0 ≤ (i 0 : Nat)
          ∧ (i 0 : Nat) < win1_3.index t1_9 0 * win1_3.size 0 + win1_3.xsize (grid1.coords t1_9) 0
        rw [show win1_3.index t1_9 0 * win1_3.size 0 = 0 from by decide +kernel,
          show win1_3.xsize (grid1.coords t1_9) 0 = 1 from by decide +kernel]; omega
      | ⟨1, _⟩ =>
        show win1_3.index t1_9 1 * win1_3.size 1 ≤ (i 1 : Nat)
          ∧ (i 1 : Nat) < win1_3.index t1_9 1 * win1_3.size 1 + win1_3.xsize (grid1.coords t1_9) 1
        rw [show win1_3.index t1_9 1 * win1_3.size 1 = 0 from by decide +kernel,
          show win1_3.xsize (grid1.coords t1_9) 1 = 64 from by decide +kernel]; omega⟩

/-- And the third what the accumulator of squares held. -/
theorem final4 : (dat1 (F := Ideal) V c).arrAt 4 cfg1.N = sqLast V c :=
  (dat1 (F := Ideal) V c).arrAt_eq_of_cover 4 (sqLast V c) (flushed4_eq V c) fun i =>
    ⟨t1_9, (flush1_4 t1_9).mpr rfl, by
      show i ∈ ((View.whole main_v49_2).slice (win1_4.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_4.index t1_9 0 * win1_4.size 0 ≤ (i 0 : Nat)
          ∧ (i 0 : Nat) < win1_4.index t1_9 0 * win1_4.size 0 + win1_4.xsize (grid1.coords t1_9) 0
        rw [show win1_4.index t1_9 0 * win1_4.size 0 = 0 from by decide +kernel,
          show win1_4.xsize (grid1.coords t1_9) 0 = 1 from by decide +kernel]; omega
      | ⟨1, _⟩ =>
        show win1_4.index t1_9 1 * win1_4.size 1 ≤ (i 1 : Nat)
          ∧ (i 1 : Nat) < win1_4.index t1_9 1 * win1_4.size 1 + win1_4.xsize (grid1.coords t1_9) 1
        rw [show win1_4.index t1_9 1 * win1_4.size 1 = 0 from by decide +kernel,
          show win1_4.xsize (grid1.coords t1_9) 1 = 64 from by decide +kernel]; omega⟩

end Run

/-! ## The three outputs, entry by entry

The arrays the pass reads are named s and b, each with the equation that says which array it is. -/

/-- The first output is s + b. -/
theorem conv_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec1 0) = s) (hb : V c (Pipeline.arrRef spec1 1) = b) (p : Fin 50000) (q : Fin 64) :
    ((dat1 (F := Ideal) V c).arrAt 2 cfg1.N) (ix2 p q) = s (ix2 p q) + b (ix2 (0 : Fin 1) q) :=
  congrFun (final2 V c s b hs hb) (ix2 p q)

/-- The second output is the column sums of s + b over all the rows. -/
theorem sum_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec1 0) = s) (hb : V c (Pipeline.arrRef spec1 1) = b) (q : Fin 64) :
    ((dat1 (F := Ideal) V c).arrAt 3 cfg1.N) (ix2 (0 : Fin 1) q) = ∑ p : Fin 50000, (s (ix2 p q) + b (ix2 (0 : Fin 1) q)) := by
  refine (congrFun (final3 V c) (ix2 (0 : Fin 1) q)).trans ?_
  refine ((acc_eq V c s b hs hb q 9 (by rw [show cfg1.N = 10 from N_1]; decide)).1).trans ?_
  exact sum_rows (entry s b q)

/-- The third output is the column sums of the squares of s + b over all the rows. -/
theorem sumsq_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec1 0) = s) (hb : V c (Pipeline.arrRef spec1 1) = b) (q : Fin 64) :
    ((dat1 (F := Ideal) V c).arrAt 4 cfg1.N) (ix2 (0 : Fin 1) q)
      = ∑ p : Fin 50000, (s (ix2 p q) + b (ix2 (0 : Fin 1) q)) * (s (ix2 p q) + b (ix2 (0 : Fin 1) q)) := by
  refine (congrFun (final4 V c) (ix2 (0 : Fin 1) q)).trans ?_
  refine ((acc_eq V c s b hs hb q 9 (by rw [show cfg1.N = 10 from N_1]; decide)).2).trans ?_
  exact sum_rows (fun i => entry s b q i * entry s b q i)

/-! ## The same three facts with the two arrays spelt as the pass finds them -/

theorem conv_apply (V : (c : Dev nD) → (b : Ref sig .tc) → Buf (Elt Ideal) ((c : Thread nD τ).loc b)) (c : Dev nD)
    (p : Fin 50000) (q : Fin 64) :
    ((dat1 (F := Ideal) V c).arrAt 2 cfg1.N) (ix2 p q)
      = (show S50000x64.Idx → EReal from V c (Pipeline.arrRef spec1 0)) (ix2 p q)
        + (show S1x64.Idx → EReal from V c (Pipeline.arrRef spec1 1)) (ix2 (0 : Fin 1) q) :=
  conv_apply_of V c _ _ rfl rfl p q

theorem sum_apply (V : (c : Dev nD) → (b : Ref sig .tc) → Buf (Elt Ideal) ((c : Thread nD τ).loc b)) (c : Dev nD)
    (q : Fin 64) :
    ((dat1 (F := Ideal) V c).arrAt 3 cfg1.N) (ix2 (0 : Fin 1) q)
      = ∑ p : Fin 50000, ((show S50000x64.Idx → EReal from V c (Pipeline.arrRef spec1 0)) (ix2 p q)
        + (show S1x64.Idx → EReal from V c (Pipeline.arrRef spec1 1)) (ix2 (0 : Fin 1) q)) :=
  sum_apply_of V c _ _ rfl rfl q

theorem sumsq_apply (V : (c : Dev nD) → (b : Ref sig .tc) → Buf (Elt Ideal) ((c : Thread nD τ).loc b)) (c : Dev nD)
    (q : Fin 64) :
    ((dat1 (F := Ideal) V c).arrAt 4 cfg1.N) (ix2 (0 : Fin 1) q)
      = ∑ p : Fin 50000, ((show S50000x64.Idx → EReal from V c (Pipeline.arrRef spec1 0)) (ix2 p q)
          + (show S1x64.Idx → EReal from V c (Pipeline.arrRef spec1 1)) (ix2 (0 : Fin 1) q))
        * ((show S50000x64.Idx → EReal from V c (Pipeline.arrRef spec1 0)) (ix2 p q)
          + (show S1x64.Idx → EReal from V c (Pipeline.arrRef spec1 1)) (ix2 (0 : Fin 1) q)) :=
  sumsq_apply_of V c _ _ rfl rfl q

end Cert.KernelIdeal.Stats1

end
-- ==== Proof.NormRelu2.lean ====
/-
  Region 2 of the idealized kernel: the normalization, scale, shift and rectifier of the first hidden layer.

  The region walks a 50000 × 64 array in ten row tiles of 5000 rows. Four 1 × 64 rows come with it: a mean, an
  inverse standard deviation, a scale and a shift, one entry per column. At each tile the body subtracts the mean
  row from every row of the tile, multiplies by the inverse standard deviation row, then by the scale row, adds the
  shift row, and takes the maximum with zero, entry by entry and in that order. The tiles are disjoint and together
  they are the whole array, so after the ten write-backs the output array holds, at row `p` and column `q`,
  `max (((x p q - mean 0 q) * invstd 0 q) * scale 0 q + shift 0 q) 0` over the extended reals, where the five
  arrays are as the region finds them. No law of arithmetic is used: the grouping is the body's own.

  The steps: the body's arithmetic read at one entry of a tile (`pay_apply`, `out_apply`); where an entry of a tile sits in its
  array (`iblk0_apply` … `iblk4_apply`, `emb5_apply`: row `p` of tile `t` is row `5000 t + p`, and each
  per-column row is the same at every tile); what a tile's write-back writes (`flushed_eq`); every row lies in the
  tile `row / 5000` (`cover`); hence the whole array (`final`) and one entry of it (`arr_apply`).
-/
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormRelu2

open Cert.KernelIdeal Cert.KernelIdeal.Gen Idealize.ShloMosaic Idealize.ShloMosaic.TcCoe Idealize.ShloMosaic.ValueIdx
open Idealize.ShloMosaic.Pipeline (Dat)

/-! ## The arrays the six windows stage -/

theorem arrRef_0 : Pipeline.arrRef spec2 0 = main_v49_0 := rfl
theorem arrRef_1 : Pipeline.arrRef spec2 1 = main_v51 := rfl
theorem arrRef_2 : Pipeline.arrRef spec2 2 = main_v58 := rfl
theorem arrRef_3 : Pipeline.arrRef spec2 3 = main_v59 := rfl
theorem arrRef_4 : Pipeline.arrRef spec2 4 = main_v60 := rfl
theorem arrRef_5 : Pipeline.arrRef spec2 5 = main_v61 := rfl

/-! ## The function the output array ends at -/

/-- The one row's entry of an index's column. -/
abbrev col (i : S50000x64.Idx) : S1x64.Idx := ix2 (0 : Fin 1) (⟨(i 1).val, idx2_lt1 i⟩ : Fin 64)

/-- Entry `(p, q)` of the result: the input's entry less the mean of column `q`, times that column's inverse standard
    deviation, times its scale, plus its shift, or zero if that is negative. -/
def G (a0 : S50000x64.Idx → EReal) (a1 a2 a3 a4 : S1x64.Idx → EReal) : S50000x64.Idx → EReal :=
  fun i => max ((((a0 i - a1 (col i)) * a2 (col i)) * a3 (col i)) + a4 (col i)) (0 : EReal)

theorem G_apply (a0 : S50000x64.Idx → EReal) (a1 a2 a3 a4 : S1x64.Idx → EReal) (p : Fin 50000) (q : Fin 64) :
    G a0 a1 a2 a3 a4 (ix2 p q)
      = max ((((a0 (ix2 p q) - a1 (ix2 (0 : Fin 1) q)) * a2 (ix2 (0 : Fin 1) q)) * a3 (ix2 (0 : Fin 1) q))
          + a4 (ix2 (0 : Fin 1) q)) (0 : EReal) := rfl

/-! ## The body's arithmetic at one entry of a tile -/

/-- The stored value at row `p`, column `q` of the tile. The casts to the same shape are the identity, each row
    broadcast reads its one row at column `q`, and the splat constant is the zero word. -/
theorem pay_apply (x0 : Vec Ideal S5000x64 .f32) (x1 x2 x3 x4 : Vec Ideal S1x64 .f32) (p : Fin 5000) (q : Fin 64) :
    k2_pay1 (F := Ideal) x0 x1 x2 x3 x4 (ix2 p q)
      = max ((((x0 (ix2 p q) - x1 (ix2 (0 : Fin 1) q)) * x2 (ix2 (0 : Fin 1) q)) * x3 (ix2 (0 : Fin 1) q))
          + x4 (ix2 (0 : Fin 1) q)) (0 : EReal) := by
  unfold k2_pay1
  rw [maximumf_apply, addf_apply, mulf_apply, mulf_apply, subf_apply, broadcast_apply,
    shapeCast_self, shapeCast_self, shapeCast_self, shapeCast_self, shapeCast_self,
    broadcastTo_1b_ab_apply, broadcastTo_1b_ab_apply, broadcastTo_1b_ab_apply, broadcastTo_1b_ab_apply]
  show max _ (Ideal.ofBits .f32 0x00000000#32) = _
  rw [Ideal.ofBits_zero_f32]

theorem hz : (![0, 0] : Fin 2 → Nat) = fun _ => 0 := funext fun a => by fin_cases a <;> rfl

/-- What the body leaves in the output's staging buffer, at one entry: its one store covers the buffer, and each load
    reads a whole block, so it is the stored value. -/
theorem out_apply (x0 : Vec Ideal S5000x64 .f32) (x1 x2 x3 x4 : Vec Ideal S1x64 .f32) (p : Fin 5000) (q : Fin 64) :
    out2_5 (F := Ideal) x0 x1 x2 x3 x4 (ix2 p q)
      = max ((((x0 (ix2 p q) - x1 (ix2 (0 : Fin 1) q)) * x2 (ix2 (0 : Fin 1) q)) * x3 (ix2 (0 : Fin 1) q))
          + x4 (ix2 (0 : Fin 1) q)) (0 : EReal) := by
  unfold out2_5
  rw [View.canon_unit_zero hz]
  simp only [View.ld_unit_zero (S := S5000x64) hz, View.ld_unit_zero (S := S1x64) hz]
  exact pay_apply x0 x1 x2 x3 x4 p q

/-- The same with the five entries it reads named: whatever they are, the stored value is that arithmetic of them. -/
theorem out_apply_of (x0 : Vec Ideal S5000x64 .f32) (x1 x2 x3 x4 : Vec Ideal S1x64 .f32) (p : Fin 5000) (q : Fin 64)
    (y0 y1 y2 y3 y4 : EReal) (h0 : x0 (ix2 p q) = y0) (h1 : x1 (ix2 (0 : Fin 1) q) = y1)
    (h2 : x2 (ix2 (0 : Fin 1) q) = y2) (h3 : x3 (ix2 (0 : Fin 1) q) = y3) (h4 : x4 (ix2 (0 : Fin 1) q) = y4) :
    out2_5 (F := Ideal) x0 x1 x2 x3 x4 (ix2 p q) = max ((((y0 - y1) * y2) * y3) + y4) (0 : EReal) := by
  subst h0 h1 h2 h3 h4
  exact out_apply x0 x1 x2 x3 x4 p q

/-! ## Where a tile's entry sits in its array -/

/-- The index maps over the ten points: the tiled windows' block index is the point itself on the rows and zero on
    the columns; each per-column row's window stays at block (0, 0). -/
theorem idx_in : ∀ t : Fin cfg2.N, win2_0.index t (0 : Fin 2) = t.val ∧ win2_0.index t (1 : Fin 2) = 0 :=
  (by decide +kernel : ∀ t : Fin grid2.N, _)
theorem idx_row1 : ∀ t : Fin cfg2.N, win2_1.index t (0 : Fin 2) = 0 ∧ win2_1.index t (1 : Fin 2) = 0 :=
  (by decide +kernel : ∀ t : Fin grid2.N, _)
theorem idx_row2 : ∀ t : Fin cfg2.N, win2_2.index t (0 : Fin 2) = 0 ∧ win2_2.index t (1 : Fin 2) = 0 :=
  (by decide +kernel : ∀ t : Fin grid2.N, _)
theorem idx_row3 : ∀ t : Fin cfg2.N, win2_3.index t (0 : Fin 2) = 0 ∧ win2_3.index t (1 : Fin 2) = 0 :=
  (by decide +kernel : ∀ t : Fin grid2.N, _)
theorem idx_row4 : ∀ t : Fin cfg2.N, win2_4.index t (0 : Fin 2) = 0 ∧ win2_4.index t (1 : Fin 2) = 0 :=
  (by decide +kernel : ∀ t : Fin grid2.N, _)
theorem idx_out : ∀ t : Fin cfg2.N, win2_5.index t (0 : Fin 2) = t.val ∧ win2_5.index t (1 : Fin 2) = 0 :=
  (by decide +kernel : ∀ t : Fin grid2.N, _)

theorem lt_ten (t : Fin cfg2.N) : t.val < 10 := by
  have h := t.isLt
  have hN : cfg2.N = 10 := N_2
  omega

/-- Row `p` of tile `t` is row `5000 t + p` of the array. -/
def row (t : Fin cfg2.N) (p : Fin 5000) : Fin 50000 :=
  ⟨5000 * t.val + p.val, by have := lt_ten t; have := p.isLt; omega⟩

variable (V : (c : Dev nD) → (b : Ref sig .tc) → Buf (Elt Ideal) ((c : Thread nD τ).loc b))

/-- The tiled input's block at point `t` reads rows `5000 t … 5000 t + 4999` of its array. -/
theorem iblk0_apply (c : Dev nD) (t : Fin cfg2.N) (p : Fin 5000) (q : Fin 64) :
    (iblk2 (F := Ideal) V c 0 t : Vec Ideal S5000x64 .f32) (ix2 p q)
      = (V c (Pipeline.arrRef spec2 0) : S50000x64.Idx → EReal) (ix2 (row t p) q) := by
  obtain ⟨e0, e1⟩ := idx_in t
  unfold iblk2
  rw [View.read_apply]
  show (V c main_v49_0 : S50000x64.Idx → EReal) _ = (V c main_v49_0 : S50000x64.Idx → EReal) _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * q.val = q.val; rw [e1]; omega

/-- The mean window's block is the one row of its array, at every point. -/
theorem iblk1_apply (c : Dev nD) (t : Fin cfg2.N) (q : Fin 64) :
    (iblk2 (F := Ideal) V c 1 t : Vec Ideal S1x64 .f32) (ix2 (0 : Fin 1) q)
      = (V c (Pipeline.arrRef spec2 1) : S1x64.Idx → EReal) (ix2 (0 : Fin 1) q) := by
  obtain ⟨e0, e1⟩ := idx_row1 t
  unfold iblk2
  rw [View.read_apply]
  show (V c main_v51 : S1x64.Idx → EReal) _ = (V c main_v51 : S1x64.Idx → EReal) _
  congr 1
  funext a
  apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega

/-- The inverse standard deviation window's block is the one row of its array, at every point. -/
theorem iblk2_apply (c : Dev nD) (t : Fin cfg2.N) (q : Fin 64) :
    (iblk2 (F := Ideal) V c 2 t : Vec Ideal S1x64 .f32) (ix2 (0 : Fin 1) q)
      = (V c (Pipeline.arrRef spec2 2) : S1x64.Idx → EReal) (ix2 (0 : Fin 1) q) := by
  obtain ⟨e0, e1⟩ := idx_row2 t
  unfold iblk2
  rw [View.read_apply]
  show (V c main_v58 : S1x64.Idx → EReal) _ = (V c main_v58 : S1x64.Idx → EReal) _
  congr 1
  funext a
  apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- The scale window's block is the one row of its array, at every point. -/
theorem iblk3_apply (c : Dev nD) (t : Fin cfg2.N) (q : Fin 64) :
    (iblk2 (F := Ideal) V c 3 t : Vec Ideal S1x64 .f32) (ix2 (0 : Fin 1) q)
      = (V c (Pipeline.arrRef spec2 3) : S1x64.Idx → EReal) (ix2 (0 : Fin 1) q) := by
  obtain ⟨e0, e1⟩ := idx_row3 t
  unfold iblk2
  rw [View.read_apply]
  show (V c main_v59 : S1x64.Idx → EReal) _ = (V c main_v59 : S1x64.Idx → EReal) _
  congr 1
  funext a
  apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- The shift window's block is the one row of its array, at every point. -/
theorem iblk4_apply (c : Dev nD) (t : Fin cfg2.N) (q : Fin 64) :
    (iblk2 (F := Ideal) V c 4 t : Vec Ideal S1x64 .f32) (ix2 (0 : Fin 1) q)
      = (V c (Pipeline.arrRef spec2 4) : S1x64.Idx → EReal) (ix2 (0 : Fin 1) q) := by
  obtain ⟨e0, e1⟩ := idx_row4 t
  unfold iblk2
  rw [View.read_apply]
  show (V c main_v60 : S1x64.Idx → EReal) _ = (V c main_v60 : S1x64.Idx → EReal) _
  congr 1
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-- Entry `(p, q)` of the output's block at point `t` is entry `(5000 t + p, q)` of the output array. -/
theorem emb5_apply (t : Fin cfg2.N) (p : Fin 5000) (q : Fin 64) :
    (((cfg2.win 5).blk t).view.emb (ix2 p q) : S50000x64.Idx) = ix2 (row t p) q := by
  obtain ⟨e0, e1⟩ := idx_out t
  funext a
  apply Fin.ext
  match a with
  | ⟨0, _⟩ => show win2_5.index t (0 : Fin 2) * 5000 + 1 * p.val = 5000 * t.val + p.val; rw [e0]; omega
  | ⟨1, _⟩ => show win2_5.index t (1 : Fin 2) * 64 + 1 * q.val = q.val; rw [e1]; omega

/-! ## What one point writes back, and the whole array -/

/-- Point `t` writes back tile `t` of `G` of the five input arrays. -/
theorem flushed_eq (c : Dev nD) (t : Fin cfg2.N) :
    (dat2 (F := Ideal) V c).flushed 5 t
      = ((cfg2.win 5).blk t).view.read (Elt Ideal)
          (G (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  funext j
  obtain ⟨p, q, rfl⟩ : ∃ (p : Fin 5000) (q : Fin 64), j = ix2 p q := ⟨j 0, j 1, eq_ix2 j⟩
  rw [View.read_apply]
  refine (out_apply_of (iblk2 V c 0 t) (iblk2 V c 1 t) (iblk2 V c 2 t) (iblk2 V c 3 t) (iblk2 V c 4 t) p q _ _ _ _ _
    (iblk0_apply V c t p q) (iblk1_apply V c t q) (iblk2_apply V c t q) (iblk3_apply V c t q) (iblk4_apply V c t q)).trans ?_
  exact ((congrArg (G (V c (Pipeline.arrRef spec2 0)) (V c (Pipeline.arrRef spec2 1)) (V c (Pipeline.arrRef spec2 2)) (V c (Pipeline.arrRef spec2 3)) (V c (Pipeline.arrRef spec2 4))) (emb5_apply t p q)).trans
    (G_apply _ _ _ _ _ (row t p) q)).symm

/-- An index of the output array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v61).slice (win2_5.rect t)).set ↔ _
  rw [View.set_slice_whole, Rect.mem_set_unit]
  exact Iff.rfl

/-- Every entry of the output array lies in the block of the point `row / 5000`, and every point writes back. -/
theorem cover (i : S50000x64.Idx) :
    ∃ t : Fin cfg2.N, (cfg2.win 5).flush t = true ∧ i ∈ ((cfg2.win 5).blk t).view.set := by
  have hi0 : (i 0).val < 50000 := idx2_lt0 i
  have hi1 : (i 1).val < 64 := idx2_lt1 i
  have hN : cfg2.N = 10 := N_2
  let t : Fin cfg2.N := ⟨(i 0).val / 5000, by rw [hN]; omega⟩
  have ht : t.val = (i 0).val / 5000 := rfl
  obtain ⟨e0, e1⟩ := idx_out t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

/-- The output array after the region: `G` of the five input arrays as the region finds them. -/
theorem final (c : Dev nD) :
    (dat2 (F := Ideal) V c).arrAt 5 cfg2.N
      = G (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5
    (G (V c (Pipeline.arrRef spec2 0)) (V c (Pipeline.arrRef spec2 1)) (V c (Pipeline.arrRef spec2 2)) (V c (Pipeline.arrRef spec2 3)) (V c (Pipeline.arrRef spec2 4)))
    (fun t _ => flushed_eq V c t) cover

/-- One entry of the output array after the region, with the five input arrays named: `A0` the tiled input, `A1`
    the mean row, `A2` the inverse standard deviation row, `A3` the scale row, `A4` the shift row, as the region
    finds them. -/
theorem arr_apply_of (V : (c : Dev nD) → (b : Ref sig .tc) → Buf (Elt Ideal) ((c : Thread nD τ).loc b)) (c : Dev nD)
    (A0 : S50000x64.Idx → EReal) (A1 A2 A3 A4 : S1x64.Idx → EReal)
    (h0 : V c (Pipeline.arrRef spec2 0) = A0) (h1 : V c (Pipeline.arrRef spec2 1) = A1)
    (h2 : V c (Pipeline.arrRef spec2 2) = A2) (h3 : V c (Pipeline.arrRef spec2 3) = A3)
    (h4 : V c (Pipeline.arrRef spec2 4) = A4) (p : Fin 50000) (q : Fin 64) :
    ((dat2 (F := Ideal) V c).arrAt 5 cfg2.N) (ix2 p q)
      = max ((((A0 (ix2 p q) - A1 (ix2 (0 : Fin 1) q)) * A2 (ix2 (0 : Fin 1) q)) * A3 (ix2 (0 : Fin 1) q))
          + A4 (ix2 (0 : Fin 1) q)) (0 : EReal) := by
  subst h0 h1 h2 h3 h4
  rw [final V c]
  exact G_apply _ _ _ _ _ p q

/-- One entry of the output array after the region, the arrays spelt out: the tiled input's entry less the mean row's
    entry of the same column, times the inverse standard deviation row's, times the scale row's, plus the shift row's,
    as extended reals and grouped in that order, or zero if that is negative. -/
theorem arr_apply (V : (c : Dev nD) → (b : Ref sig .tc) → Buf (Elt Ideal) ((c : Thread nD τ).loc b)) (c : Dev nD)
    (p : Fin 50000) (q : Fin 64) :
    ((dat2 (F := Ideal) V c).arrAt 5 cfg2.N) (ix2 p q)
      = max (HAdd.hAdd (α := EReal) (β := EReal) (γ := EReal)
          (HMul.hMul (α := EReal) (β := EReal) (γ := EReal)
            (HMul.hMul (α := EReal) (β := EReal) (γ := EReal)
              (HSub.hSub (α := EReal) (β := EReal) (γ := EReal)
                (V c (Pipeline.arrRef spec2 0) (ix2 p q)) (V c (Pipeline.arrRef spec2 1) (ix2 (0 : Fin 1) q)))
              (V c (Pipeline.arrRef spec2 2) (ix2 (0 : Fin 1) q)))
            (V c (Pipeline.arrRef spec2 3) (ix2 (0 : Fin 1) q)))
          (V c (Pipeline.arrRef spec2 4) (ix2 (0 : Fin 1) q))) (0 : EReal) :=
  arr_apply_of V c _ _ _ _ _ rfl rfl rfl rfl rfl p q

end Cert.KernelIdeal.NormRelu2

end
-- ==== Proof.Consts.lean ====
/-
  The float literals the two programs spell, read as extended reals: the zero word is 0, the word of 1.0 is 1, the
  word of 50000.0 (the number of rows every column mean divides by) is the real 50000, and the word of the
  batch-norm epsilon is a positive real. Only these facts about the words are ever used.
-/
import Idealize.ShloMosaic.PureOps.Ideal
import Mathlib.Tactic

noncomputable section

namespace Cert.Consts

open Idealize.ShloMosaic

/-- The zero word denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 50000.0 denotes the real 50000. -/
theorem ofBits_rows : Ideal.ofBits .f32 0x47435000#32 = ((50000 : ℝ) : EReal) := by
  simp [Ideal.ofBits, Ideal.ieee, -EReal.coe_mul]; norm_num

/-- The epsilon's word denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Consts

end
-- ==== Proof.VarLaw.lean ====
/-
  The one law that joins the two programs. For a column of REAL numbers z over n rows, with μ = (∑ z)/n,

      (∑ z²)/n − μ·μ  =  (∑ (z − μ)²)/n.

  The kernel accumulates ∑ z and ∑ z² tile by tile and forms the left side; the reference forms the right side.
  On the extended reals the law needs every z to be real: with an infinite entry the left side is ∞ − ∞.
  Division is the extended reals' `Ideal.div` by the real n; it is read through the reals.
-/
import proofs.«127809_j47837345743091_1_alg».proof.Proof.LibRealSums

noncomputable section

namespace Cert.VarLaw

open Idealize.ShloMosaic Cert.RealSums

/-- Mean of the squares minus the square of the mean is the mean of the squared deviations, for real entries;
    `c` is the number of terms. -/
theorem var_law {ι : Type*} [Fintype ι] (z : ι → EReal) (hz : ∀ i, ∃ r : ℝ, z i = (r : EReal))
    (c : ℝ) (hc : (Fintype.card ι : ℝ) = c) (hpos : 0 < c) :
    Ideal.div (∑ i, z i * z i) (c : EReal)
        - Ideal.div (∑ i, z i) (c : EReal) * Ideal.div (∑ i, z i) (c : EReal)
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  exact congrArg _ (real_var_law w c hc hc0)

end Cert.VarLaw

end
-- ==== Proof.Layer0.lean ====
/-
  The first convolution and its batch norm, followed through the idealized kernel's first three regions.

  At each boundary between segments of the program (host stretches and tiled regions alternate) the buffers that
  matter are identified with the reference's stages, as functions of the argument arrays:
  the edge source and destination lists with one self-loop per node, and the edge weights 1/sqrt(deg src · deg dst),
  computed by the same host operations in both programs; the first region's x·W0 (its zero bias adds nothing) against
  the reference's matrix product, both plain sums over the 128 features at the ideal instance; the gather by source,
  scaling and scatter-add by destination, again the same host operations; the second region's conv output s + b with
  its column sums and column sums of squares (ten tiles of 5000 rows regrouped into one sum over the 50000 rows);
  the mean row, and the inverse-deviation row, where the kernel's (∑c²)/n − μ² meets the reference's (∑(c−μ)²)/n on
  real entries; and the third region's max(((c − μ)·r)·g + β, 0), the first hidden layer.
-/
import proofs.«127809_j47837345743091_1_alg».proof.Proof.Lin0
import proofs.«127809_j47837345743091_1_alg».proof.Proof.Stats1
import proofs.«127809_j47837345743091_1_alg».proof.Proof.NormRelu2
import proofs.«127809_j47837345743091_1_alg».proof.Proof.Consts
import proofs.«127809_j47837345743091_1_alg».proof.Proof.VarLaw
import proofs.«127809_j47837345743091_1_alg».proof.Proof.Gen.KernelIdeal.Frame
import proofs.«127809_j47837345743091_1_alg».proof.Proof.ReadP
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.Chain

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false

local notation "𝔸0" => m ((c : Thread nD τ).loc main_arg0)
local notation "𝔸1" => m ((c : Thread nD τ).loc main_arg1)
local notation "𝔸2" => m ((c : Thread nD τ).loc main_arg2)
local notation "𝔸3" => m ((c : Thread nD τ).loc main_arg3)
local notation "𝔸4" => m ((c : Thread nD τ).loc main_arg4)
local notation "𝔸5" => m ((c : Thread nD τ).loc main_arg5)
local notation "𝔸6" => m ((c : Thread nD τ).loc main_arg6)
local notation "𝔸7" => m ((c : Thread nD τ).loc main_arg7)
local notation "𝔸8" => m ((c : Thread nD τ).loc main_arg8)
local notation "𝔸9" => m ((c : Thread nD τ).loc main_arg9)
local notation "𝔸10" => m ((c : Thread nD τ).loc main_arg10)
local notation "𝔸11" => m ((c : Thread nD τ).loc main_arg11)
local notation "𝔸12" => m ((c : Thread nD τ).loc main_arg12)
local notation "𝔸13" => m ((c : Thread nD τ).loc main_arg13)

/-- One boundary back: a buffer a region does not own is what it was at the region's entry; a buffer a host stretch
    does not write is what it was before the stretch (and one it writes is the operation's value). -/
macro "walk_step" : tactic => `(tactic| first
  | (rw [W20_of_ne]; rotate_left; decide) | (rw [W18_of_ne]; rotate_left; decide) | (rw [W16_of_ne]; rotate_left; decide)
  | (rw [W14_of_ne]; rotate_left; decide) | (rw [W12_of_ne]; rotate_left; decide) | (rw [W10_of_ne]; rotate_left; decide)
  | (rw [W8_of_ne]; rotate_left; decide) | (rw [W6_of_ne]; rotate_left; decide) | (rw [W4_of_ne]; rotate_left; decide)
  | after_results_simp)
/-- All the way back to the launch memory. -/
macro "walk_back" : tactic => `(tactic| ((repeat walk_step); try rfl))

/-- An index function of the reference read at literal coordinates: both sides have the same coordinates. -/
macro "idx_rfl" : tactic => `(tactic| (funext a; first | (match a with | ⟨0, _⟩ => rfl | ⟨1, _⟩ => rfl) | (match a with | ⟨0, _⟩ => rfl)))

/-! ## At the first region's entry: the edge lists, the edge weights, the arguments, the zero bias row

  The first three host stretches compute, from the edge list alone, the source and destination index lists (with one
  self-loop per node appended), each node's degree, its inverse square root, and each edge's weight. The reference does the same operations;
  the buffers are identified stretch by stretch, each earlier boundary's contents held as one opaque valuation. -/

theorem src_W1 : W1 m ρ c (Proc.devRef .tc main_v5) = val_main_v3 (F := Ideal) 𝔸1 := by
  after_results_simp; rfl
theorem dst_W1 : W1 m ρ c (Proc.devRef .tc main_v6) = val_main_v6 (F := Ideal) 𝔸1 := by
  after_results_simp; rfl
/-- The degree: one per edge ending at the node, self-loops included. -/
theorem deg_W1 : W1 m ρ c (Proc.devRef .tc main_v10) = val_main_v10 (F := Ideal) 𝔸1 := by
  after_results_simp
  rfl
theorem mask_W1 : W1 m ρ c (Proc.devRef .tc main_v12) = val_main_v12 (F := Ideal) 𝔸1 := by
  after_results_simp; rfl
theorem rs_W1 : W1 m ρ c (Proc.devRef .tc main_v15) = val_main_v15 (F := Ideal) 𝔸1 := by
  after_results_simp; rfl
theorem z3_W1 : W1 m ρ c (Proc.devRef .tc main_cst_3) = val_main_cst_3 (F := Ideal) := by
  after_results_simp; rfl

/-- The outlined select of the inverse-root stage, its typed-reference casts removed: over variables the casts are
    the identity. -/
theorem where_eq (a : (⟨S50000, .i1⟩ : BufTy).Contents (Elt Ideal)) (b : (⟨S50000, .f32⟩ : BufTy).Contents (Elt Ideal))
    (z : (⟨S_, .f32⟩ : BufTy).Contents (Elt Ideal)) :
    (TRef.of (sig := sig) (T := ⟨S50000, .f32⟩) main_v16).toBuf
      (select ((TRef.of (sig := sig) (T := ⟨S50000, .i1⟩) main_v12).ofBuf a) ((TRef.of (sig := sig) (T := ⟨S50000, .f32⟩) main_v15).ofBuf b)
        ((TRef.of (sig := sig) (T := ⟨S50000, .f32⟩) main_call0_v1).ofBuf ((TRef.of (sig := sig) (T := ⟨S50000, .f32⟩) main_call0_v1).toBuf
          (broadcastInDim S50000 ![] bcast_S_S50000
            ((TRef.of (sig := sig) (T := ⟨S_, .f32⟩) main_call0_v0).ofBuf ((TRef.of (sig := sig) (T := ⟨S_, .f32⟩) main_call0_v0).toBuf
              (id ((TRef.of (sig := sig) (T := ⟨S_, .f32⟩) main_cst_3).ofBuf z))))))))
      = select a b (broadcastInDim S50000 ![] bcast_S_S50000 z) := rfl

/-- The reference's inverse-root stage, spelt over this program's shapes. -/
theorem ref_dinv : val_main_v16 (F := Ideal) 𝔸1
    = (select (val_main_v12 (F := Ideal) 𝔸1) (val_main_v15 (F := Ideal) 𝔸1)
        (broadcastInDim S50000 ![] bcast_S_S50000 (val_main_cst_3 (F := Ideal))) : (⟨S50000, .f32⟩ : BufTy).Contents (Elt Ideal)) := rfl

theorem dinv_W2 : W2 m ρ c (Proc.devRef .tc main_v16) = val_main_v16 (F := Ideal) 𝔸1 := by
  show StableHlo.after hostOps0_1 (W1 m ρ c) (Proc.devRef .tc main_v16) = _
  have h12 := mask_W1 m ρ c; have h15 := rs_W1 m ρ c; have h3 := z3_W1 m ρ c
  generalize W1 m ρ c = X at h12 h15 h3 ⊢
  after_results_simp
  rw [h12, h15, h3]
  exact (where_eq _ _ _).trans (ref_dinv m c).symm
theorem src_W2 : W2 m ρ c (Proc.devRef .tc main_v5) = val_main_v3 (F := Ideal) 𝔸1 := by
  show StableHlo.after hostOps0_1 (W1 m ρ c) (Proc.devRef .tc main_v5) = _
  have h := src_W1 m ρ c
  generalize W1 m ρ c = X at h ⊢
  after_results_simp; exact h
theorem dst_W2 : W2 m ρ c (Proc.devRef .tc main_v6) = val_main_v6 (F := Ideal) 𝔸1 := by
  show StableHlo.after hostOps0_1 (W1 m ρ c) (Proc.devRef .tc main_v6) = _
  have h := dst_W1 m ρ c
  generalize W1 m ρ c = X at h ⊢
  after_results_simp; exact h

theorem src_W3 : W3 m ρ c (Proc.devRef .tc main_v5) = val_main_v3 (F := Ideal) 𝔸1 := by
  show StableHlo.after hostOps0_2 (W2 m ρ c) (Proc.devRef .tc main_v5) = _
  have h := src_W2 m ρ c
  generalize W2 m ρ c = X at h ⊢
  after_results_simp; exact h
theorem dst_W3 : W3 m ρ c (Proc.devRef .tc main_v6) = val_main_v6 (F := Ideal) 𝔸1 := by
  show StableHlo.after hostOps0_2 (W2 m ρ c) (Proc.devRef .tc main_v6) = _
  have h := dst_W2 m ρ c
  generalize W2 m ρ c = X at h ⊢
  after_results_simp; exact h
theorem norm_W3 : W3 m ρ c (Proc.devRef .tc main_v31) = val_main_v31 (F := Ideal) 𝔸1 := by
  show StableHlo.after hostOps0_2 (W2 m ρ c) (Proc.devRef .tc main_v31) = _
  have hs := src_W2 m ρ c; have hd := dst_W2 m ρ c; have hv := dinv_W2 m ρ c
  generalize W2 m ρ c = X at hs hd hv ⊢
  after_results_simp
  rw [hs, hd, hv]
  rfl

theorem arg0_W3 : W3 m ρ c (Proc.devRef .tc main_arg0) = 𝔸0 := by walk_back
theorem arg2_W3 : W3 m ρ c (Proc.devRef .tc main_arg2) = 𝔸2 := by walk_back
theorem zb0_W3 (i : S1x64.Idx) : (W3 m ρ c (Proc.devRef .tc main_v33) : S1x64.Idx → EReal) i = (0 : EReal) := by
  have h : W3 m ρ c (Proc.devRef .tc main_v33) = (fun i => shapeCast S1x64 (broadcastInDim S64 ![] bcast_S_S64 (constant (F := Ideal) S_ .f32 0x00000000#32)) shapeCasts_S64_S1x64 i) := by
    after_results_simp; rfl
  rw [h]; exact Cert.Consts.ofBits_zero

/-! ## After the first region: x·W0 -/

theorem t0_W4 : W4 m ρ c (Proc.devRef .tc main_v34) = val_main_v32 (F := Ideal) 𝔸0 𝔸2 := by
  refine (W4_arr m ρ c 3).trans ?_
  refine funext fun (i : S50000x64.Idx) => ?_
  obtain ⟨p, q, rfl⟩ : ∃ (p : Fin 50000) (q : Fin 64), i = ix2 p q := ⟨i 0, i 1, eq_ix2 i⟩
  rw [Cert.KernelIdeal.Lin0.arr_apply_of (V3 m ρ) c _ _ _ (arg0_W3 m ρ c) (arg2_W3 m ρ c) (funext (zb0_W3 m ρ c)) p q,
    val_main_v32_apply]
  show _ + (0 : EReal) = _
  rw [add_zero]
  refine Finset.sum_congr rfl fun k _ => ?_
  congr 2 <;> (funext a; match a with | ⟨0, _⟩ => rfl | ⟨1, _⟩ => rfl)

theorem src_W4 : W4 m ρ c (Proc.devRef .tc main_v5) = val_main_v3 (F := Ideal) 𝔸1 := by
  walk_step; exact src_W3 m ρ c
theorem dst_W4 : W4 m ρ c (Proc.devRef .tc main_v6) = val_main_v6 (F := Ideal) 𝔸1 := by
  walk_step; exact dst_W3 m ρ c
theorem norm_W4 : W4 m ρ c (Proc.devRef .tc main_v31) = val_main_v31 (F := Ideal) 𝔸1 := by
  walk_step; exact norm_W3 m ρ c
theorem arg3_W4 : W4 m ρ c (Proc.devRef .tc main_arg3) = 𝔸3 := by walk_back

/-! ## After the aggregation stretch: the normalised scatter-add of the gathered rows, and the bias row -/

theorem s0_W5 : W5 m ρ c (Proc.devRef .tc main_v47) = val_main_v45 (F := Ideal) 𝔸0 𝔸1 𝔸2 := by
  after_results_simp
  rw [dst_W4, t0_W4, src_W4, norm_W4]
  rfl
theorem b0_W5 (q : Fin 64) : (W5 m ρ c (Proc.devRef .tc main_v48) : S1x64.Idx → EReal) (ix2 (0 : Fin 1) q) = (𝔸3 : S64.Idx → EReal) (ix1 q) := by
  have h : W5 m ρ c (Proc.devRef .tc main_v48) = (fun i => shapeCast S1x64 (W4 m ρ c (Proc.devRef .tc main_arg3)) shapeCasts_S64_S1x64 i) := by
    after_results_simp; rfl
  rw [h, arg3_W4]; exact shapeCast_a_1a_apply _ _ _ _

/-! ## The reference's batch-norm stages at an index

  For column q: the conv entry c(p,q) = aggregate(p,q) + b(q); the column sum; the mean μ(q) = (∑ c)/n; the variance
  (∑ (c − μ)²)/n. All four read off the reference's stages one operation at a time. -/

theorem ref_c0 (p : Fin 50000) (q : Fin 64) :
    val_main_v48 (F := Ideal) 𝔸0 𝔸1 𝔸2 𝔸3 (ix2 p q)
      = val_main_v45 (F := Ideal) 𝔸0 𝔸1 𝔸2 (ix2 p q) + (𝔸3 : S64.Idx → EReal) (ix1 q) := by
  rw [val_main_v48_apply, val_main_v47_apply, val_main_v46_apply]
  show _ + _ = _ + _
  refine congrArg (_ + ·) (congrArg _ ?_)
  idx_rfl

theorem ref_sum0 (q : Fin 64) :
    val_main_v49 (F := Ideal) 𝔸0 𝔸1 𝔸2 𝔸3 (ix1 q) = ∑ p : Fin 50000, val_main_v48 (F := Ideal) 𝔸0 𝔸1 𝔸2 𝔸3 (ix2 p q) := by
  rw [val_main_v49_apply, val_main_cst_10_apply]
  show Ideal.ofBits .f32 0x00000000#32 + _ = _
  rw [Cert.Consts.ofBits_zero, zero_add]
  refine Finset.sum_congr rfl fun k _ => congrArg _ ?_
  idx_rfl

theorem ref_mean0 (q : Fin 64) :
    val_main_v51 (F := Ideal) 𝔸0 𝔸1 𝔸2 𝔸3 (ix1 q)
      = Ideal.div (∑ p : Fin 50000, val_main_v48 (F := Ideal) 𝔸0 𝔸1 𝔸2 𝔸3 (ix2 p q)) (((50000 : ℝ) : EReal)) := by
  rw [val_main_v51_apply, ref_sum0, val_main_v50_apply, val_main_cst_11_apply]
  show Ideal.div _ (Ideal.ofBits .f32 0x47435000#32) = _
  rw [Cert.Consts.ofBits_rows]

theorem ref_var0 (q : Fin 64) :
    val_main_v58 (F := Ideal) 𝔸0 𝔸1 𝔸2 𝔸3 (ix1 q)
      = Ideal.div (∑ p : Fin 50000,
          (val_main_v48 (F := Ideal) 𝔸0 𝔸1 𝔸2 𝔸3 (ix2 p q) - val_main_v51 (F := Ideal) 𝔸0 𝔸1 𝔸2 𝔸3 (ix1 q))
          * (val_main_v48 (F := Ideal) 𝔸0 𝔸1 𝔸2 𝔸3 (ix2 p q) - val_main_v51 (F := Ideal) 𝔸0 𝔸1 𝔸2 𝔸3 (ix1 q)))
          (((50000 : ℝ) : EReal)) := by
  rw [val_main_v58_apply, val_main_v56_apply, val_main_cst_12_apply, val_main_v57_apply, val_main_cst_13_apply]
  show Ideal.div (Ideal.ofBits .f32 0x00000000#32 + _) (Ideal.ofBits .f32 0x47435000#32) = _
  rw [Cert.Consts.ofBits_zero, zero_add, Cert.Consts.ofBits_rows]
  refine congrArg (fun s : EReal => Ideal.div s (((50000 : ℝ) : EReal))) ?_
  refine Finset.sum_congr rfl fun k _ => ?_
  rw [val_main_v55_apply, val_main_v54_apply, val_main_v53_apply, val_main_v52_apply]
  have e1 : idx_main_v56 (ix1 q) k = ix2 k q := by idx_rfl
  have e2 : idx_main_v52 (idx_main_v53 (ix2 k q)) = ix1 q := by idx_rfl
  rw [e1, e2]
  rfl

/-! ## After the statistics region: the conv output, its column sums and the column sums of its squares -/

/-- The bias row as the statistics region finds it, typed. -/
abbrev brow0 : S1x64.Idx → EReal := W5 m ρ c (Proc.devRef .tc main_v48)

theorem kc0 (p : Fin 50000) (q : Fin 64) :
    val_main_v45 (F := Ideal) 𝔸0 𝔸1 𝔸2 (ix2 p q) + brow0 m ρ c (ix2 (0 : Fin 1) q)
      = val_main_v48 (F := Ideal) 𝔸0 𝔸1 𝔸2 𝔸3 (ix2 p q) := by
  rw [ref_c0]; exact congrArg (_ + ·) (b0_W5 m ρ c q)

theorem conv0_W6 : W6 m ρ c (Proc.devRef .tc main_v49_0) = val_main_v48 (F := Ideal) 𝔸0 𝔸1 𝔸2 𝔸3 := by
  refine (W6_arr m ρ c 2).trans ?_
  refine funext fun (i : S50000x64.Idx) => ?_
  obtain ⟨p, q, rfl⟩ : ∃ (p : Fin 50000) (q : Fin 64), i = ix2 p q := ⟨i 0, i 1, eq_ix2 i⟩
  rw [Cert.KernelIdeal.Stats1.conv_apply_of (V5 m ρ) c _ (brow0 m ρ c) (s0_W5 m ρ c) rfl p q]
  exact kc0 m ρ c p q

theorem sum0_W6 (q : Fin 64) : @Eq EReal ((W6 m ρ c (Proc.devRef .tc main_v49_1) : S1x64.Idx → EReal) (ix2 (0 : Fin 1) q))
    (∑ p : Fin 50000, val_main_v48 (F := Ideal) 𝔸0 𝔸1 𝔸2 𝔸3 (ix2 p q)) := by
  rw [W6_arr m ρ c 3, Cert.KernelIdeal.Stats1.sum_apply_of (V5 m ρ) c _ (brow0 m ρ c) (s0_W5 m ρ c) rfl q]
  exact Finset.sum_congr rfl fun p _ => kc0 m ρ c p q

theorem sumsq0_W6 (q : Fin 64) : @Eq EReal ((W6 m ρ c (Proc.devRef .tc main_v49_2) : S1x64.Idx → EReal) (ix2 (0 : Fin 1) q))
    (∑ p : Fin 50000, val_main_v48 (F := Ideal) 𝔸0 𝔸1 𝔸2 𝔸3 (ix2 p q) * val_main_v48 (F := Ideal) 𝔸0 𝔸1 𝔸2 𝔸3 (ix2 p q)) := by
  rw [W6_arr m ρ c 4, Cert.KernelIdeal.Stats1.sumsq_apply_of (V5 m ρ) c _ (brow0 m ρ c) (s0_W5 m ρ c) rfl q]
  exact Finset.sum_congr rfl fun p _ => by rw [kc0 m ρ c p q]

theorem arg8_W6 : W6 m ρ c (Proc.devRef .tc main_arg8) = 𝔸8 := by walk_back
theorem arg9_W6 : W6 m ρ c (Proc.devRef .tc main_arg9) = 𝔸9 := by walk_back

/-! ## After the host stretch between statistics and normalisation: mean, inverse deviation, scale and shift rows -/

theorem conv0_W7 : W7 m ρ c (Proc.devRef .tc main_v49_0) = val_main_v48 (F := Ideal) 𝔸0 𝔸1 𝔸2 𝔸3 := by
  walk_step; exact conv0_W6 m ρ c

theorem mean0_W7 (q : Fin 64) : (W7 m ρ c (Proc.devRef .tc main_v51) : S1x64.Idx → EReal) (ix2 (0 : Fin 1) q)
    = val_main_v51 (F := Ideal) 𝔸0 𝔸1 𝔸2 𝔸3 (ix1 q) := by
  have h : W7 m ρ c (Proc.devRef .tc main_v51) = Host.divf (F := Ideal) (W6 m ρ c (Proc.devRef .tc main_v49_1)) (broadcastInDim S1x64 ![] bcast_S_S1x64 (constant (F := Ideal) S_ .f32 0x47435000#32)) := by
    after_results_simp
  rw [h, ref_mean0]
  show Ideal.div _ (Ideal.ofBits .f32 0x47435000#32) = _
  rw [sum0_W6, Cert.Consts.ofBits_rows]

/-- The one place the two programs differ: the kernel forms (∑c²)/n − μ·μ, the reference (∑(c−μ)²)/n; on real
    entries these are one number, and the same epsilon and the same inverse square root follow. -/
theorem inv0_W7 (hreal : ∀ i, ∃ r : ℝ, val_main_v48 (F := Ideal) 𝔸0 𝔸1 𝔸2 𝔸3 i = (r : EReal)) (q : Fin 64) :
    (W7 m ρ c (Proc.devRef .tc main_v58) : S1x64.Idx → EReal) (ix2 (0 : Fin 1) q)
      = val_main_v64 (F := Ideal) 𝔸0 𝔸1 𝔸2 𝔸3 (ix1 q) := by
  have h : W7 m ρ c (Proc.devRef .tc main_v58)
      = Host.rsqrt (F := Ideal) (addf
          (subf (Host.divf (F := Ideal) (W6 m ρ c (Proc.devRef .tc main_v49_2)) (broadcastInDim S1x64 ![] bcast_S_S1x64 (constant (F := Ideal) S_ .f32 0x47435000#32)))
            (mulf (Host.divf (F := Ideal) (W6 m ρ c (Proc.devRef .tc main_v49_1)) (broadcastInDim S1x64 ![] bcast_S_S1x64 (constant (F := Ideal) S_ .f32 0x47435000#32)))
              (Host.divf (F := Ideal) (W6 m ρ c (Proc.devRef .tc main_v49_1)) (broadcastInDim S1x64 ![] bcast_S_S1x64 (constant (F := Ideal) S_ .f32 0x47435000#32)))))
          (broadcastInDim S1x64 ![] bcast_S_S1x64 (constant (F := Ideal) S_ .f32 0x3727C5AC#32))) := by
    after_results_simp
  rw [h, val_main_v64_apply, val_main_v63_apply, val_main_v62_apply, val_main_cst_14_apply, ref_var0]
  show FloatOps.hostUnary (F := Ideal) .rsqrt
      ((Ideal.div ((W6 m ρ c (Proc.devRef .tc main_v49_2) : S1x64.Idx → EReal) (ix2 (0 : Fin 1) q)) (Ideal.ofBits .f32 0x47435000#32)
        - Ideal.div ((W6 m ρ c (Proc.devRef .tc main_v49_1) : S1x64.Idx → EReal) (ix2 (0 : Fin 1) q)) (Ideal.ofBits .f32 0x47435000#32)
          * Ideal.div ((W6 m ρ c (Proc.devRef .tc main_v49_1) : S1x64.Idx → EReal) (ix2 (0 : Fin 1) q)) (Ideal.ofBits .f32 0x47435000#32))
        + Ideal.ofBits .f32 0x3727C5AC#32)
    = FloatOps.hostUnary (F := Ideal) .rsqrt (_ + Ideal.ofBits .f32 0x3727C5AC#32)
  rw [sumsq0_W6, sum0_W6, Cert.Consts.ofBits_rows, ref_mean0]
  refine congrArg (fun v => FloatOps.hostUnary (F := Ideal) .rsqrt (v + _)) ?_
  exact Cert.VarLaw.var_law (fun p : Fin 50000 => val_main_v48 (F := Ideal) 𝔸0 𝔸1 𝔸2 𝔸3 (ix2 p q)) (fun p => hreal _) 50000
    (by simp) (by norm_num)

theorem g0_W7 (q : Fin 64) : (W7 m ρ c (Proc.devRef .tc main_v59) : S1x64.Idx → EReal) (ix2 (0 : Fin 1) q) = (𝔸8 : S64.Idx → EReal) (ix1 q) := by
  have h : W7 m ρ c (Proc.devRef .tc main_v59) = (fun i => shapeCast S1x64 (W6 m ρ c (Proc.devRef .tc main_arg8)) shapeCasts_S64_S1x64 i) := by
    after_results_simp; rfl
  rw [h, arg8_W6]; exact shapeCast_a_1a_apply _ _ _ _
theorem be0_W7 (q : Fin 64) : (W7 m ρ c (Proc.devRef .tc main_v60) : S1x64.Idx → EReal) (ix2 (0 : Fin 1) q) = (𝔸9 : S64.Idx → EReal) (ix1 q) := by
  have h : W7 m ρ c (Proc.devRef .tc main_v60) = (fun i => shapeCast S1x64 (W6 m ρ c (Proc.devRef .tc main_arg9)) shapeCasts_S64_S1x64 i) := by
    after_results_simp; rfl
  rw [h, arg9_W6]; exact shapeCast_a_1a_apply _ _ _ _

/-! ## After the normalisation region: the first hidden layer -/

theorem h1_W8 (hreal : ∀ i, ∃ r : ℝ, val_main_v48 (F := Ideal) 𝔸0 𝔸1 𝔸2 𝔸3 i = (r : EReal)) :
    W8 m ρ c (Proc.devRef .tc main_v61) = val_main_v74 (F := Ideal) 𝔸0 𝔸1 𝔸2 𝔸3 𝔸8 𝔸9 := by
  refine (W8_arr m ρ c 5).trans ?_
  refine funext fun (i : S50000x64.Idx) => ?_
  obtain ⟨p, q, rfl⟩ : ∃ (p : Fin 50000) (q : Fin 64), i = ix2 p q := ⟨i 0, i 1, eq_ix2 i⟩
  rw [Cert.KernelIdeal.NormRelu2.arr_apply_of (V7 m ρ) c _
      (W7 m ρ c (Proc.devRef .tc main_v51)) (W7 m ρ c (Proc.devRef .tc main_v58))
      (W7 m ρ c (Proc.devRef .tc main_v59)) (W7 m ρ c (Proc.devRef .tc main_v60))
      (conv0_W7 m ρ c) rfl rfl rfl rfl p q]
  rw [mean0_W7, inv0_W7 m ρ c hreal, g0_W7, be0_W7]
  rw [val_main_v74_apply, val_main_v73_apply, val_main_v72_apply, val_main_v71_apply, val_main_v70_apply,
    val_main_v69_apply, val_main_v68_apply, val_main_v67_apply, val_main_v66_apply, val_main_v65_apply,
    val_main_v61_apply, val_main_v60_apply, val_main_v59_apply, val_main_call1_v0_apply, val_main_call1_cst_apply]
  show max _ (0 : EReal) = max _ (Ideal.ofBits .f32 0x00000000#32)
  rw [Cert.Consts.ofBits_zero]
  have e1 : idx_main_v59 (idx_main_v60 (ix2 p q)) = ix1 q := by idx_rfl
  have e2 : idx_main_v65 (idx_main_v66 (ix2 p q)) = ix1 q := by idx_rfl
  have e3 : idx_main_v68 (idx_main_v69 (ix2 p q)) = ix1 q := by idx_rfl
  have e4 : idx_main_v71 (idx_main_v72 (ix2 p q)) = ix1 q := by idx_rfl
  rw [e1, e2, e3, e4]
  rfl

/-! ## The edge lists and weights, carried to the first normalisation region's exit -/

theorem src_W8 : W8 m ρ c (Proc.devRef .tc main_v5) = val_main_v3 (F := Ideal) 𝔸1 := by
  walk_step; walk_step; walk_step; walk_step; exact src_W4 m ρ c
theorem dst_W8 : W8 m ρ c (Proc.devRef .tc main_v6) = val_main_v6 (F := Ideal) 𝔸1 := by
  walk_step; walk_step; walk_step; walk_step; exact dst_W4 m ρ c
theorem norm_W8 : W8 m ρ c (Proc.devRef .tc main_v31) = val_main_v31 (F := Ideal) 𝔸1 := by
  walk_step; walk_step; walk_step; walk_step; exact norm_W4 m ρ c

end Cert.Chain
end
-- ==== Proof.Lin3.lean ====
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The linear layer of region 3: `o = x · w + b`, entry by entry

The body of region 3 rounds a 5000-row tile of `x` and the whole of `w` to bf16, multiplies them into a zero
accumulator and adds the one-row `b` to every row. Read over the extended reals a change of float format is the
identity and the product into zero is the plain sum over the contraction index, so the tile the body leaves is, at
row `p` and column `q`, `∑ k, x p k * w k q + b 0 q`. Grid point `t` reads rows `5000 t … 5000 t + 4999` of `x`
(all of `w` and `b`) and writes back the same rows of `o`; the ten tiles cover the 50000 rows (row `r` lies in tile
`r / 5000`), so after the region the output array holds that sum at every entry. Everything is stated at an arbitrary
contents `V` of the buffers on entry. -/

noncomputable section

namespace Cert.KernelIdeal.Lin3

open Cert.KernelIdeal Cert.KernelIdeal.Gen Idealize.ShloMosaic Idealize.ShloMosaic.ValueIdx
open Idealize.ShloMosaic.TcCoe
open Idealize.ShloMosaic.Pipeline (Dat)

/-! ## The arrays the four windows stage -/

theorem arrRef_0 : Pipeline.arrRef spec3 0 = main_v61 := rfl
theorem arrRef_1 : Pipeline.arrRef spec3 1 = main_arg4 := rfl
theorem arrRef_2 : Pipeline.arrRef spec3 2 = main_v63 := rfl
theorem arrRef_3 : Pipeline.arrRef spec3 3 = main_v64 := rfl

/-! ## One entry of `x · w + b` -/

/-- Row `p` of an `M`-row `x` against column `q` of `w`, plus entry `q` of the one-row `b`. -/
def lin {M : Nat} (x : (⟨2, ![M, 64]⟩ : Shape).Idx → EReal) (w : S64x64.Idx → EReal) (b : S1x64.Idx → EReal)
    (p : Fin M) (q : Fin 64) : EReal :=
  (∑ k : Fin 64, x (ix2 p k) * w (ix2 k q)) + b (ix2 (0 : Fin 1) q)

/-- The entry only depends on row `p` of `x`, column `q` of `w` and entry `q` of `b`. -/
theorem lin_congr {M M' : Nat} (x : (⟨2, ![M, 64]⟩ : Shape).Idx → EReal) (x' : (⟨2, ![M', 64]⟩ : Shape).Idx → EReal)
    (w w' : S64x64.Idx → EReal) (b b' : S1x64.Idx → EReal) (p : Fin M) (p' : Fin M') (q q' : Fin 64)
    (hx : ∀ k : Fin 64, x (ix2 p k) = x' (ix2 p' k)) (hw : ∀ k : Fin 64, w (ix2 k q) = w' (ix2 k q'))
    (hb : b (ix2 (0 : Fin 1) q) = b' (ix2 (0 : Fin 1) q')) : lin x w b p q = lin x' w' b' p' q' := by
  unfold lin
  rw [hb]
  exact congrArg (· + b' (ix2 (0 : Fin 1) q')) (Finset.sum_congr rfl fun k _ => by rw [hx k, hw k])

/-! ## The body's tile at an index -/

/-- Where the product's left operand is read: row of the output index, column the contraction index. -/
theorem lhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- Where the product's right operand is read: row the contraction index, column of the output index. -/
theorem rhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at row `p` and column `q`, is the sum over the contraction index. -/
theorem mm_apply (x : FVec Ideal S5000x64 .bf16) (w : FVec Ideal S64x64 .bf16) (p : Fin 5000) (q : Fin 64) :
    (matmul dot_S5000x64_S64x64_S5000x64_1_0_0_1_n_n none x w (constant S5000x64 .f32 0x00000000#32) : FVec Ideal S5000x64 .f32) (ix2 p q)
      = ∑ k : Fin 64, x (ix2 p k) * w (ix2 k q) := by
  show FloatOps.matmul dot_S5000x64_S64x64_S5000x64_1_0_0_1_n_n none x w (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]

/-- The tile the body stores, at row `p` and column `q`: the rounding to bf16 is the identity on the extended reals,
    the product is the sum, and the broadcast of the one-row `b` reads its entry `q`. -/
theorem pay_apply (x : Vec Ideal S5000x64 .f32) (w : Vec Ideal S64x64 .f32) (b : Vec Ideal S1x64 .f32) (p : Fin 5000) (q : Fin 64) :
    k3_pay1 x w b (ix2 p q) = lin x w b p q := by
  have hx : shapeCast S5000x64 x shapeCasts_S5000x64_S5000x64 = x := shapeCast_self x _
  have hm : (matmul dot_S5000x64_S64x64_S5000x64_1_0_0_1_n_n none (truncf .bf16 (shapeCast S5000x64 x shapeCasts_S5000x64_S5000x64) bitsLt_bf16_f32) (truncf .bf16 w bitsLt_bf16_f32) (constant S5000x64 .f32 0x00000000#32) : FVec Ideal S5000x64 .f32) (ix2 p q)
      = ∑ k : Fin 64, x (ix2 p k) * w (ix2 k q) := by
    rw [hx]; exact mm_apply (truncf .bf16 x bitsLt_bf16_f32) (truncf .bf16 w bitsLt_bf16_f32) p q
  have hb : broadcastTo S5000x64 (shapeCast S1x64 b shapeCasts_S1x64_S1x64) broadcasts_S1x64_S5000x64 (ix2 p q) = b (ix2 (0 : Fin 1) q) := by
    rw [broadcastTo_1b_ab_apply, shapeCast_self]
  unfold k3_pay1 lin
  exact congrArg₂ (· + ·) hm hb

/-- The same at any index of the tile. -/
theorem pay_apply_idx (x : Vec Ideal S5000x64 .f32) (w : Vec Ideal S64x64 .f32) (b : Vec Ideal S1x64 .f32) (j : S5000x64.Idx) :
    k3_pay1 x w b j = lin x w b (⟨(j 0).val, (j 0).isLt⟩ : Fin 5000) (⟨(j 1).val, (j 1).isLt⟩ : Fin 64) := by
  obtain ⟨p, q, rfl⟩ : ∃ (p : Fin 5000) (q : Fin 64), j = ix2 p q := ⟨j 0, j 1, eq_ix2 j⟩
  exact pay_apply x w b p q

/-! ## The blocks of the three input windows, read off the arrays -/

variable (V : (c : Dev nD) → (b : Ref sig .tc) → Buf (Elt Ideal) ((c : Thread nD τ).loc b))

/-- The printed index maps over the grid: the tiled windows move one tile per point, the resident ones stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point `t`'s tile of `x` is rows `5000 t …` of the array. -/
theorem blk_x (c : Dev nD) (t : Fin cfg3.N) (y : S5000x64.Idx) (i : S50000x64.Idx)
    (h0 : (i 0).val = t.val * 5000 + (y 0).val) (h1 : (i 1).val = (y 1).val) :
    iblk3 V c 0 t y = V c (Pipeline.arrRef spec3 0) i := by
  obtain ⟨e0, e1, -⟩ := idx_facts t
  show V c (Pipeline.arrRef spec3 0) (((cfg3.win 0).blk t).view.emb y) = V c (Pipeline.arrRef spec3 0) i
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- Every point's block of `w` is the whole array. -/
theorem blk_w (c : Dev nD) (t : Fin cfg3.N) (y i : S64x64.Idx)
    (h0 : (i 0).val = (y 0).val) (h1 : (i 1).val = (y 1).val) :
    iblk3 V c 1 t y = V c (Pipeline.arrRef spec3 1) i := by
  obtain ⟨-, -, e2, e3, -⟩ := idx_facts t
  show V c (Pipeline.arrRef spec3 1) (((cfg3.win 1).blk t).view.emb y) = V c (Pipeline.arrRef spec3 1) i
  refine congrArg _ (funext fun a => Fin.ext ?_)
  match a with
  | ⟨0, _⟩ => show win3_1.index t (0 : Fin 2) * 64 + 1 * (y 0).val = (i 0).val; rw [e2, h0]; omega
  | ⟨1, _⟩ => show win3_1.index t (1 : Fin 2) * 64 + 1 * (y 1).val = (i 1).val; rw [e3, h1]; omega

/-- Every point's block of `b` is the whole array. -/
theorem blk_b (c : Dev nD) (t : Fin cfg3.N) (y i : S1x64.Idx)
    (h0 : (i 0).val = (y 0).val) (h1 : (i 1).val = (y 1).val) :
    iblk3 V c 2 t y = V c (Pipeline.arrRef spec3 2) i := by
  obtain ⟨-, -, -, -, e4, e5, -⟩ := idx_facts t
  show V c (Pipeline.arrRef spec3 2) (((cfg3.win 2).blk t).view.emb y) = V c (Pipeline.arrRef spec3 2) i
  refine congrArg _ (funext fun a => Fin.ext ?_)
  match a with
  | ⟨0, _⟩ => show win3_2.index t (0 : Fin 2) * 1 + 1 * (y 0).val = (i 0).val; rw [e4, h0]; omega
  | ⟨1, _⟩ => show win3_2.index t (1 : Fin 2) * 64 + 1 * (y 1).val = (i 1).val; rw [e5, h1]; omega

/-! ## What each point writes back, and the array after the region -/

theorem hz : (![0, 0] : Fin 2 → Nat) = fun _ => 0 := funext fun a => by fin_cases a <;> rfl

/-- The output array as one function of the three input arrays. -/
def G (a0 : S50000x64.Idx → EReal) (a1 : S64x64.Idx → EReal) (a2 : S1x64.Idx → EReal) : S50000x64.Idx → EReal :=
  fun i => lin a0 a1 a2 (⟨(i 0).val, (i 0).isLt⟩ : Fin 50000) (⟨(i 1).val, (i 1).isLt⟩ : Fin 64)

/-- WHAT POINT `t` WRITES BACK is its tile of `G` of the arrays as the region finds them. -/
theorem flushed_eq (c : Dev nD) (t : Fin cfg3.N) :
    (dat3 V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  obtain ⟨-, -, -, -, -, -, e6, e7⟩ := idx_facts t
  funext j
  refine (pay_apply_idx (iblk3 V c 0 t) (iblk3 V c 1 t) (iblk3 V c 2 t) j).trans ?_
  show _ = G (V c (Pipeline.arrRef spec3 0)) (V c (Pipeline.arrRef spec3 1)) (V c (Pipeline.arrRef spec3 2)) (((cfg3.win 3).blk t).view.emb j)
  unfold G
  refine lin_congr _ _ _ _ _ _ _ _ _ _ (fun k => blk_x V c t _ _ ?_ rfl) (fun k => blk_w V c t _ _ rfl ?_) (blk_b V c t _ _ rfl ?_)
  · show win3_3.index t (0 : Fin 2) * 5000 + 1 * (j 0).val = t.val * 5000 + (j 0).val; rw [e6]; omega
  · show win3_3.index t (1 : Fin 2) * 64 + 1 * (j 1).val = (j 1).val; rw [e7]; omega
  · show win3_3.index t (1 : Fin 2) * 64 + 1 * (j 1).val = (j 1).val; rw [e7]; omega

/-- An index of the output array is in point `t`'s tile iff each coordinate is in the tile's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v64).slice (win3_3.rect t)).set ↔ _
  rw [View.set_slice_whole, Rect.mem_set_unit]
  exact Iff.rfl

/-- The ten tiles cover the array: row `r` lies in tile `r / 5000`. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e6, e7⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 64 ≤ (i 1).val ∧ (i 1).val < win3_3.index t (1 : Fin 2) * 64 + 64; rw [e7]; omega

/-- THE OUTPUT ARRAY after the region is `G` of the input arrays. -/
theorem final (c : Dev nD) : (dat3 V c).arrAt 3 cfg3.N
    = G (V c (Pipeline.arrRef spec3 0)) (V c (Pipeline.arrRef spec3 1)) (V c (Pipeline.arrRef spec3 2)) :=
  (dat3 V c).arrAt_eq_of_cover 3 _ (fun t _ => flushed_eq V c t) cover

/-- `lin` spelt out. -/
theorem lin_def {M : Nat} (x : (⟨2, ![M, 64]⟩ : Shape).Idx → EReal) (w : S64x64.Idx → EReal) (b : S1x64.Idx → EReal)
    (p : Fin M) (q : Fin 64) :
    lin x w b p q = (∑ k : Fin 64, x (ix2 p k) * w (ix2 k q)) + b (ix2 (0 : Fin 1) q) := rfl

/-- Entry `(p, q)` of the output array after the region: row `p` of `x` against column `q` of `w`, plus `b` at `q`. -/
theorem arr_apply_lin (V : (c : Dev nD) → (b : Ref sig .tc) → Buf (Elt Ideal) ((c : Thread nD τ).loc b)) (c : Dev nD) (p : Fin 50000) (q : Fin 64) :
    ((dat3 (F := Ideal) V c).arrAt 3 cfg3.N) (ix2 p q)
      = lin (V c (Pipeline.arrRef spec3 0)) (V c (Pipeline.arrRef spec3 1)) (V c (Pipeline.arrRef spec3 2)) p q := by
  rw [final V c]
  rfl

/-- The same with the three input arrays named: whatever the entry contents of the staged arrays are known to be. -/
theorem arr_apply_of (V : (c : Dev nD) → (b : Ref sig .tc) → Buf (Elt Ideal) ((c : Thread nD τ).loc b)) (c : Dev nD)
    (x : S50000x64.Idx → EReal) (w : S64x64.Idx → EReal) (b : S1x64.Idx → EReal)
    (hx : V c (Pipeline.arrRef spec3 0) = x) (hw : V c (Pipeline.arrRef spec3 1) = w) (hb : V c (Pipeline.arrRef spec3 2) = b)
    (p : Fin 50000) (q : Fin 64) :
    ((dat3 (F := Ideal) V c).arrAt 3 cfg3.N) (ix2 p q)
      = (∑ k : Fin 64, x (ix2 p k) * w (ix2 k q)) + b (ix2 (0 : Fin 1) q) := by
  subst hx hw hb
  exact arr_apply_lin V c p q

/-- The same over the entry contents themselves, the products and the sum taken in the extended reals. -/
theorem arr_apply (V : (c : Dev nD) → (b : Ref sig .tc) → Buf (Elt Ideal) ((c : Thread nD τ).loc b)) (c : Dev nD) (p : Fin 50000) (q : Fin 64) :
    ((dat3 (F := Ideal) V c).arrAt 3 cfg3.N) (ix2 p q)
      = @HAdd.hAdd EReal EReal EReal _ (∑ k : Fin 64, @HMul.hMul EReal EReal EReal _ ((V c (Pipeline.arrRef spec3 0)) (ix2 p k)) ((V c (Pipeline.arrRef spec3 1)) (ix2 k q)))
        ((V c (Pipeline.arrRef spec3 2)) (ix2 (0 : Fin 1) q)) :=
  arr_apply_lin V c p q

end Cert.KernelIdeal.Lin3

end
-- ==== Proof.Stats4.lean ====
/-
  The statistics pass of a normalisation layer: what its three outputs hold after the pass.

  The pass walks a 50000 x 64 array s in ten tiles of 5000 rows. At each tile it adds the bias row b
  (1 x 64, the same row for every tile) to every row of the tile and writes the result to the first output;
  it also keeps two 1 x 64 accumulators, set to zero at the first tile, into which it adds the column sums of
  the biased tile and of its entrywise square. After the last tile the accumulators are written out once.

  Three facts are proved here, entry by entry, for any contents of the arrays when the pass is entered:
  the first output is s + b; the second is the column sums of s + b over all 50000 rows; the third is the
  column sums of (s + b) * (s + b). The accumulators are followed tile by tile: after tile n they hold the sum
  of the tile sums of tiles 0 to n. Addition of extended reals is commutative and associative and 0 + x = x,
  so the ten tile sums regroup into one sum over the rows with no finiteness assumption.
-/
import proofs.«127809_j47837345743091_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Stats4

open Cert.KernelIdeal Cert.KernelIdeal.Gen Idealize.ShloMosaic Idealize.ShloMosaic.ValueIdx
open Idealize.ShloMosaic.TcCoe Idealize.SL.Sem
open Idealize.ShloMosaic.Pipeline (Dat)

/-! ## The five arrays -/

theorem arrRef_0 : Pipeline.arrRef spec4 0 = main_v77 := rfl
theorem arrRef_1 : Pipeline.arrRef spec4 1 = main_v78 := rfl
theorem arrRef_2 : Pipeline.arrRef spec4 2 = main_v79_0 := rfl
theorem arrRef_3 : Pipeline.arrRef spec4 3 = main_v79_1 := rfl
theorem arrRef_4 : Pipeline.arrRef spec4 4 = main_v79_2 := rfl

theorem hz : (![0, 0] : Fin 2 → Nat) = fun _ => 0 := funext fun a => by fin_cases a <;> rfl

/-! ## What one tile's step leaves, as terms of what it read (any float values) -/

section Pieces

variable {F : FTy → Type} [FloatOps F]

/-- At the first tile the first output's buffer is left holding the biased tile. -/
theorem out_A_2 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond4_0 i)
    (x0 : Vec F S5000x64 .f32) (x1 : Vec F S1x64 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  try sl_unfold_words
  rw [View.canon_unit_zero hz]
  simp only [View.readAt_eq_ld, h1.read_unread, h2.read_unread, View.ld_unit_zero (S := S5000x64) hz,
    View.ld_unit_zero (S := S1x64) hz]

/-- At the first tile the sum accumulator is zeroed, read back, and left holding zero plus the tile's column sums. -/
theorem out_A_3 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond4_0 i)
    (x0 : Vec F S5000x64 .f32) (x1 : Vec F S1x64 .f32) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  try sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- At the first tile the accumulator of squares likewise: zero plus the column sums of the squares. -/
theorem out_A_4 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : cond4_0 i)
    (x0 : Vec F S5000x64 .f32) (x1 : Vec F S1x64 .f32) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  try sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- At a later tile the first output's buffer is left holding the biased tile. -/
theorem out_B_2 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond4_0 i)
    (x0 : Vec F S5000x64 .f32) (x1 : Vec F S1x64 .f32) (xo3 xo4 : Vec F S1x64 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  try sl_unfold_words
  rw [View.canon_unit_zero hz]
  simp only [View.readAt_eq_ld, h1.read_unread, h2.read_unread, View.ld_unit_zero (S := S5000x64) hz,
    View.ld_unit_zero (S := S1x64) hz]

/-- At a later tile the sum accumulator is left holding what it held plus the tile's column sums. -/
theorem out_B_3 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond4_0 i)
    (x0 : Vec F S5000x64 .f32) (x1 : Vec F S1x64 .f32) (xo3 xo4 : Vec F S1x64 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  try sl_unfold_words
  rw [View.canon_unit_zero hz]
  simp only [View.readAt_eq_ld, h1.read_unread, h2.read_unread, h4.read_unread, View.ld_unit_zero (S := S5000x64) hz,
    View.ld_unit_zero (S := S1x64) hz]

/-- At a later tile the accumulator of squares likewise. -/
theorem out_B_4 (c : Dev nD) (i : grid4.Coords) (a1 : Memref sig .tc .vmem S5000x64 .f32) (h1 : a1.IsWhole)
    (a2 : Memref sig .tc .vmem S1x64 .f32) (h2 : a2.IsWhole) (a3 : Memref sig .tc .vmem S5000x64 .f32) (h3 : a3.IsWhole)
    (a4 : Memref sig .tc .vmem S1x64 .f32) (h4 : a4.IsWhole) (a5 : Memref sig .tc .vmem S1x64 .f32) (h5 : a5.IsWhole) (hc : ¬cond4_0 i)
    (x0 : Vec F S5000x64 .f32) (x1 : Vec F S1x64 .f32) (xo3 xo4 : Vec F S1x64 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  try sl_unfold_words
  rw [View.canon_unit_zero hz]
  simp only [View.readAt_eq_ld, h1.read_unread, h2.read_unread, h5.read_unread, View.ld_unit_zero (S := S5000x64) hz,
    View.ld_unit_zero (S := S1x64) hz]

end Pieces

/-! ## The step's arithmetic at one entry, over the extended reals -/

section Arithmetic

/-- The zero the accumulators are reset to. -/
theorem pay1_apply (j : S1x64.Idx) : k4_pay1 (F := Ideal) j = 0 := by
  unfold k4_pay1
  exact Ideal.ofBits_zero_f32

theorem pay2_apply (j : S1x64.Idx) : k4_pay2 (F := Ideal) j = 0 := by
  unfold k4_pay2
  exact Ideal.ofBits_zero_f32

/-- The biased tile: row p, column q of the tile plus column q of the bias row. -/
theorem pay3_apply (x0 : Vec Ideal S5000x64 .f32) (x1 : Vec Ideal S1x64 .f32) (p : Fin 5000) (q : Fin 64) :
    k4_pay3 (F := Ideal) x0 x1 (ix2 p q) = x0 (ix2 p q) + x1 (ix2 (0 : Fin 1) q) := by
  unfold k4_pay3
  refine (addf_apply _ _ (ix2 p q)).trans ?_
  refine congrArg₂ (· + ·) (congrFun (shapeCast_self x0 _) (ix2 p q)) ?_
  refine (broadcastTo_1b_ab_apply _ _ p q).trans ?_
  exact congrFun (shapeCast_self x1 _) _

/-- A sum down the 5000 rows of a tile, at column q. -/
theorem colsum (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ p : Fin 5000, src (ix2 p q) := by
  refine (Ideal.multiReduction_add_single src 0x00000000#32 reduces_S5000x64_S64 hφ hacc (ix1 q)).trans ?_
  refine Finset.sum_congr rfl fun p _ => congrArg src ?_
  funext a
  match a with
  | ⟨0, _⟩ => rfl
  | ⟨1, _⟩ => rfl

/-- The sum accumulator's step: what it held plus the column sum of the biased tile. -/
theorem pay4_apply (x0 : Vec Ideal S5000x64 .f32) (x1 acc : Vec Ideal S1x64 .f32) (q : Fin 64) :
    k4_pay4 (F := Ideal) x0 x1 acc (ix2 (0 : Fin 1) q)
      = acc (ix2 (0 : Fin 1) q) + ∑ p : Fin 5000, (x0 (ix2 p q) + x1 (ix2 (0 : Fin 1) q)) := by
  unfold k4_pay4
  refine (addf_apply _ _ (ix2 (0 : Fin 1) q)).trans ?_
  refine congrArg₂ (· + ·) (congrFun (shapeCast_self acc _) _) ?_
  refine (shapeCast_a_1a_apply _ _ (0 : Fin 1) q).trans ?_
  refine (colsum _ _ _ q).trans ?_
  exact Finset.sum_congr rfl fun p _ => pay3_apply x0 x1 p q

/-- The step of the accumulator of squares: what it held plus the column sum of the squared biased tile. -/
theorem pay5_apply (x0 : Vec Ideal S5000x64 .f32) (x1 acc : Vec Ideal S1x64 .f32) (q : Fin 64) :
    k4_pay5 (F := Ideal) x0 x1 acc (ix2 (0 : Fin 1) q)
      = acc (ix2 (0 : Fin 1) q)
        + ∑ p : Fin 5000, (x0 (ix2 p q) + x1 (ix2 (0 : Fin 1) q)) * (x0 (ix2 p q) + x1 (ix2 (0 : Fin 1) q)) := by
  unfold k4_pay5
  refine (addf_apply _ _ (ix2 (0 : Fin 1) q)).trans ?_
  refine congrArg₂ (· + ·) (congrFun (shapeCast_self acc _) _) ?_
  refine (shapeCast_a_1a_apply _ _ (0 : Fin 1) q).trans ?_
  refine (colsum _ _ _ q).trans ?_
  refine Finset.sum_congr rfl fun p _ => ?_
  refine (mulf_apply _ _ (ix2 p q)).trans ?_
  exact congrArg₂ (· * ·) (pay3_apply x0 x1 p q) (pay3_apply x0 x1 p q)

end Arithmetic

/-! ## The tiles as rows of the arrays -/

section Run

variable (V : (c : Dev nD) → (b : Ref sig .tc) → Buf (Elt Ideal) ((c : Thread nD τ).loc b)) (c : Dev nD)

/-- Where the tiles sit: tile t of the two tiled arrays is block (t, 0); the bias row is block (0, 0) at every tile. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt10 {n : ℕ} (h : n < cfg4.N) : n < 10 := lt_of_lt_of_eq h (show cfg4.N = 10 from N_4)

/-- Row p of tile n, as a row of the whole array. -/
def row (n : ℕ) (hn : n < 10) (p : Fin 5000) : Fin 50000 := ⟨5000 * n + p.val, by have := p.isLt; omega⟩

/-- Tile t of the first array, and the bias row as tile t reads it. -/
def sblk (t : Fin cfg4.N) : Vec Ideal S5000x64 .f32 := iblk4 (F := Ideal) V c 0 t
def bblk (t : Fin cfg4.N) : Vec Ideal S1x64 .f32 := iblk4 (F := Ideal) V c 1 t

section Rows

variable (s : S50000x64.Idx → EReal) (b : S1x64.Idx → EReal)

/-- Tile t of s: its row p is row 5000 t + p of s. -/
theorem sblk_apply (hs : V c (Pipeline.arrRef spec4 0) = s) (t : Fin cfg4.N) (p : Fin 5000) (q : Fin 64) :
    sblk V c t (ix2 p q) = s (ix2 (row t.val (lt10 t.isLt) p) q) := by
  obtain ⟨e0, e1, -⟩ := idx_facts t
  subst hs
  unfold sblk iblk4
  rw [View.read_apply]
  show (V c (Pipeline.arrRef spec4 0) : S50000x64.Idx → EReal) _ = _
  congr 1
  funext a
  apply Fin.ext
  match a with
  | ⟨0, _⟩ => show win4_0.index t (0 : Fin 2) * 5000 + 1 * p.val = 5000 * t.val + p.val; rw [e0]; omega
  | ⟨1, _⟩ => show win4_0.index t (1 : Fin 2) * 64 + 1 * q.val = q.val; rw [e1]; omega

/-- The bias row is read whole at every tile. -/
theorem bblk_apply (hb : V c (Pipeline.arrRef spec4 1) = b) (t : Fin cfg4.N) (q : Fin 64) :
    bblk V c t (ix2 (0 : Fin 1) q) = b (ix2 (0 : Fin 1) q) := by
  obtain ⟨-, -, e0, e1, -⟩ := idx_facts t
  subst hb
  unfold bblk iblk4
  rw [View.read_apply]
  show (V c (Pipeline.arrRef spec4 1) : S1x64.Idx → EReal) _ = _
  congr 1
  funext a
  apply Fin.ext
  match a with
  | ⟨0, _⟩ => show win4_1.index t (0 : Fin 2) * 1 + 1 * 0 = 0; rw [e0]
  | ⟨1, _⟩ => show win4_1.index t (1 : Fin 2) * 64 + 1 * q.val = q.val; rw [e1]; omega

/-- Entry (i, q) of s + b. -/
def entry (q : Fin 64) (i : Fin 50000) : EReal := s (ix2 i q) + b (ix2 (0 : Fin 1) q)

/-- The sum down column q of tile n of s + b (zero past the last tile). -/
def tileSum (q : Fin 64) (n : ℕ) : EReal :=
  if hn : n < 10 then ∑ p : Fin 5000, entry s b q (row n hn p) else 0

/-- The sum down column q of tile n of the squares of s + b (zero past the last tile). -/
def tileSq (q : Fin 64) (n : ℕ) : EReal :=
  if hn : n < 10 then ∑ p : Fin 5000, entry s b q (row n hn p) * entry s b q (row n hn p) else 0

theorem tile_sum_eq (hs : V c (Pipeline.arrRef spec4 0) = s) (hb : V c (Pipeline.arrRef spec4 1) = b) (n : ℕ) (h : n < cfg4.N) (q : Fin 64) :
    ∑ p : Fin 5000, (sblk V c ⟨n, h⟩ (ix2 p q) + bblk V c ⟨n, h⟩ (ix2 (0 : Fin 1) q)) = tileSum s b q n := by
  unfold tileSum
  rw [dif_pos (lt10 h)]
  refine Finset.sum_congr rfl fun p _ => ?_
  rw [sblk_apply V c s hs ⟨n, h⟩ p q, bblk_apply V c b hb ⟨n, h⟩ q]
  rfl

theorem tile_sq_eq (hs : V c (Pipeline.arrRef spec4 0) = s) (hb : V c (Pipeline.arrRef spec4 1) = b) (n : ℕ) (h : n < cfg4.N) (q : Fin 64) :
    ∑ p : Fin 5000, (sblk V c ⟨n, h⟩ (ix2 p q) + bblk V c ⟨n, h⟩ (ix2 (0 : Fin 1) q))
      * (sblk V c ⟨n, h⟩ (ix2 p q) + bblk V c ⟨n, h⟩ (ix2 (0 : Fin 1) q)) = tileSq s b q n := by
  unfold tileSq
  rw [dif_pos (lt10 h)]
  refine Finset.sum_congr rfl fun p _ => ?_
  rw [sblk_apply V c s hs ⟨n, h⟩ p q, bblk_apply V c b hb ⟨n, h⟩ q]
  rfl

end Rows

/-! ## What the three buffers hold after each tile -/

/-- After any tile the first output's buffer holds that tile, biased. -/
theorem conv_at (t : Fin cfg4.N) :
    (outsAt4 (F := Ideal) V c t.val t.isLt).1 = k4_pay3 (sblk V c t) (bblk V c t) := by
  by_cases h0 : t.val % 10 = 0
  · rw [outsAt4_A V c t h0]
    dsimp only
    exact out_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact out_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2

/-- After the first tile the accumulators hold zero plus that tile's column sums. -/
theorem acc_first (h : 0 < cfg4.N) :
    (outsAt4 (F := Ideal) V c 0 h).2.1 = k4_pay4 (sblk V c ⟨0, h⟩) (bblk V c ⟨0, h⟩) (k4_pay1 (F := Ideal))
    ∧ (outsAt4 (F := Ideal) V c 0 h).2.2 = k4_pay5 (sblk V c ⟨0, h⟩) (bblk V c ⟨0, h⟩) (k4_pay2 (F := Ideal)) := by
  rw [outsAt4_A V c ⟨0, h⟩ rfl]
  dsimp only
  exact ⟨out_A_3 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩),
    out_A_4 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) ((hcond4_0 ⟨0, h⟩).mpr rfl) (iblk4 V c 0 ⟨0, h⟩) (iblk4 V c 1 ⟨0, h⟩)⟩

/-- After a later tile the accumulators hold what they held after the tile before plus this tile's column sums. -/
theorem acc_next (n : ℕ) (h : n + 1 < cfg4.N) :
    (outsAt4 (F := Ideal) V c (n + 1) h).2.1
        = k4_pay4 (sblk V c ⟨n + 1, h⟩) (bblk V c ⟨n + 1, h⟩) (outsAt4 (F := Ideal) V c n (Nat.lt_of_succ_lt h)).2.1
    ∧ (outsAt4 (F := Ideal) V c (n + 1) h).2.2
        = k4_pay5 (sblk V c ⟨n + 1, h⟩) (bblk V c ⟨n + 1, h⟩) (outsAt4 (F := Ideal) V c n (Nat.lt_of_succ_lt h)).2.2 := by
  have hN : cfg4.N = 10 := N_4
  have hB : ¬(⟨n + 1, h⟩ : Fin cfg4.N).val % 10 = 0 := by dsimp only; omega
  rw [outsAt4_B V c ⟨n + 1, h⟩ hB]
  dsimp only
  exact ⟨out_B_3 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun h' => hB ((hcond4_0 ⟨n + 1, h⟩).mp h')) (iblk4 V c 0 ⟨n + 1, h⟩) (iblk4 V c 1 ⟨n + 1, h⟩)
      (outsAt4 V c n (Nat.lt_of_succ_lt h)).2.1 (outsAt4 V c n (Nat.lt_of_succ_lt h)).2.2,
    out_B_4 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (fun h' => hB ((hcond4_0 ⟨n + 1, h⟩).mp h')) (iblk4 V c 0 ⟨n + 1, h⟩) (iblk4 V c 1 ⟨n + 1, h⟩)
      (outsAt4 V c n (Nat.lt_of_succ_lt h)).2.1 (outsAt4 V c n (Nat.lt_of_succ_lt h)).2.2⟩

section Sums

variable (s : S50000x64.Idx → EReal) (b : S1x64.Idx → EReal)

/-- THE RUNNING SUMS. After tile n the accumulators hold, at column q, the sum of the column sums of tiles 0 to n:
    by induction on the tile. -/
theorem acc_eq (hs : V c (Pipeline.arrRef spec4 0) = s) (hb : V c (Pipeline.arrRef spec4 1) = b) (q : Fin 64) : ∀ (n : ℕ) (h : n < cfg4.N),
    (outsAt4 (F := Ideal) V c n h).2.1 (ix2 (0 : Fin 1) q) = ∑ r ∈ Finset.range (n + 1), tileSum s b q r
    ∧ (outsAt4 (F := Ideal) V c n h).2.2 (ix2 (0 : Fin 1) q) = ∑ r ∈ Finset.range (n + 1), tileSq s b q r
  | 0, h => by
    obtain ⟨e3, e4⟩ := acc_first V c h
    constructor
    · refine (congrFun e3 (ix2 (0 : Fin 1) q)).trans ?_
      refine (pay4_apply (sblk V c ⟨0, h⟩) (bblk V c ⟨0, h⟩) (k4_pay1 (F := Ideal)) q).trans ?_
      rw [pay1_apply, zero_add, Finset.sum_range_one]
      exact tile_sum_eq V c s b hs hb 0 h q
    · refine (congrFun e4 (ix2 (0 : Fin 1) q)).trans ?_
      refine (pay5_apply (sblk V c ⟨0, h⟩) (bblk V c ⟨0, h⟩) (k4_pay2 (F := Ideal)) q).trans ?_
      rw [pay2_apply, zero_add, Finset.sum_range_one]
      exact tile_sq_eq V c s b hs hb 0 h q
  | n + 1, h => by
    obtain ⟨e3, e4⟩ := acc_next V c n h
    obtain ⟨i3, i4⟩ := acc_eq hs hb q n (Nat.lt_of_succ_lt h)
    constructor
    · refine (congrFun e3 (ix2 (0 : Fin 1) q)).trans ?_
      refine (pay4_apply (sblk V c ⟨n + 1, h⟩) (bblk V c ⟨n + 1, h⟩)
        (outsAt4 (F := Ideal) V c n (Nat.lt_of_succ_lt h)).2.1 q).trans ?_
      rw [i3, Finset.sum_range_succ _ (n + 1), tile_sum_eq V c s b hs hb (n + 1) h q]
    · refine (congrFun e4 (ix2 (0 : Fin 1) q)).trans ?_
      refine (pay5_apply (sblk V c ⟨n + 1, h⟩) (bblk V c ⟨n + 1, h⟩)
        (outsAt4 (F := Ideal) V c n (Nat.lt_of_succ_lt h)).2.2 q).trans ?_
      rw [i4, Finset.sum_range_succ _ (n + 1), tile_sq_eq V c s b hs hb (n + 1) h q]

/-- The ten tile sums regroup into one sum over the 50000 rows: a row is (tile, row within the tile). -/
theorem sum_rows {M : Type*} [AddCommMonoid M] (f : Fin 50000 → M) :
    ∑ r ∈ Finset.range 10, (if hn : r < 10 then ∑ p : Fin 5000, f (row r hn p) else 0) = ∑ i, f i := by
  have e : ∑ x : Fin 10 × Fin 5000, f ((finProdFinEquiv : Fin 10 × Fin 5000 ≃ Fin 50000) x) = ∑ i, f i :=
    (finProdFinEquiv : Fin 10 × Fin 5000 ≃ Fin 50000).sum_comp f
  rw [← e, Fintype.sum_prod_type, Finset.sum_range]
  refine Finset.sum_congr rfl fun r _ => ?_
  rw [dif_pos r.isLt]
  refine Finset.sum_congr rfl fun p _ => congrArg f (Fin.ext ?_)
  show 5000 * r.val + p.val = p.val + 5000 * r.val
  omega

/-! ## The first output after the pass -/

/-- The first output as one array: s + b. -/
def conv : Buf (Elt Ideal) ((c : Thread nD τ).loc main_v79_0) := fun (i : S50000x64.Idx) =>
  s i + b (ix2 (0 : Fin 1) (i 1))

/-- Entry (p, q) of tile t of the first output sits at row 5000 t + p of the array. -/
theorem emb2 (t : Fin cfg4.N) (p : Fin 5000) (q : Fin 64) :
    ((cfg4.win 2).blk t).view.emb (ix2 p q) = (ix2 (row t.val (lt10 t.isLt) p) q : S50000x64.Idx) := by
  obtain ⟨-, -, -, -, e0, e1⟩ := idx_facts t
  funext a
  apply Fin.ext
  match a with
  | ⟨0, _⟩ => show win4_2.index t (0 : Fin 2) * 5000 + 1 * p.val = 5000 * t.val + p.val; rw [e0]; omega
  | ⟨1, _⟩ => show win4_2.index t (1 : Fin 2) * 64 + 1 * q.val = q.val; rw [e1]; omega

/-- What tile t writes back to the first output is tile t of s + b. -/
theorem flushed2_eq (hs : V c (Pipeline.arrRef spec4 0) = s) (hb : V c (Pipeline.arrRef spec4 1) = b) (t : Fin cfg4.N) :
    (dat4 (F := Ideal) V c).flushed 2 t = ((cfg4.win 2).blk t).view.read (Elt Ideal) (conv c s b) := by
  show (cfg4.win 2).cut (grid4.coords t) ((dat4 (F := Ideal) V c).after 2 t) = _
  rw [after4_2, conv_at]
  refine funext fun (j : S5000x64.Idx) => ?_
  obtain ⟨p, q, rfl⟩ : ∃ (p : Fin 5000) (q : Fin 64), j = ix2 p q := ⟨j 0, j 1, eq_ix2 j⟩
  rw [View.read_apply]
  show k4_pay3 (F := Ideal) (sblk V c t) (bblk V c t) (ix2 p q) = conv c s b (((cfg4.win 2).blk t).view.emb (ix2 p q))
  rw [emb2 t p q]
  refine (pay3_apply (sblk V c t) (bblk V c t) p q).trans ?_
  rw [sblk_apply V c s hs t p q, bblk_apply V c b hb t q]
  rfl

/-- A row of the array lies in tile t exactly when it is one of rows 5000 t to 5000 t + 4999. -/
theorem mem_blk2 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v79_0).slice (win4_2.rect t)).set ↔ _
  rw [View.set_slice_whole, Rect.mem_set_unit]
  exact Iff.rfl

/-- Every row lies in a tile: row r in tile r / 5000. -/
theorem cover2 (i : S50000x64.Idx) :
    ∃ t : Fin cfg4.N, (cfg4.win 2).flush t = true ∧ i ∈ ((cfg4.win 2).blk t).view.set := by
  have hi0 : (i 0).val < 50000 := idx2_lt0 i
  have hi1 : (i 1).val < 64 := idx2_lt1 i
  have hN : cfg4.N = 10 := N_4
  have ht : (i 0).val / 5000 < cfg4.N := by rw [hN]; omega
  obtain ⟨-, -, -, -, e0, e1⟩ := idx_facts ⟨(i 0).val / 5000, ht⟩
  refine ⟨⟨(i 0).val / 5000, ht⟩, flush4_2 _, ?_⟩
  rw [mem_blk2]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e0]; dsimp only; omega
  | ⟨1, _⟩ =>
    show win4_2.index ⟨(i 0).val / 5000, ht⟩ (1 : Fin 2) * 64 ≤ (i 1).val
      ∧ (i 1).val < win4_2.index ⟨(i 0).val / 5000, ht⟩ (1 : Fin 2) * 64 + 64
    rw [e1]; omega

/-- So the first output ends holding s + b. -/
theorem final2 (hs : V c (Pipeline.arrRef spec4 0) = s) (hb : V c (Pipeline.arrRef spec4 1) = b) : (dat4 (F := Ideal) V c).arrAt 2 cfg4.N = conv c s b :=
  (dat4 (F := Ideal) V c).arrAt_eq_of_cover 2 (conv c s b) (fun t _ => flushed2_eq V c s b hs hb t) cover2

end Sums

/-! ## The accumulators after the pass: written out once, after the last tile -/

/-- What the sum accumulator holds after the last tile. -/
def sumLast : Buf (Elt Ideal) ((c : Thread nD τ).loc main_v79_1) :=
  (outsAt4 (F := Ideal) V c 9 (by rw [show cfg4.N = 10 from N_4]; decide)).2.1

/-- What the accumulator of squares holds after the last tile. -/
def sqLast : Buf (Elt Ideal) ((c : Thread nD τ).loc main_v79_2) :=
  (outsAt4 (F := Ideal) V c 9 (by rw [show cfg4.N = 10 from N_4]; decide)).2.2

/-- The one write-back of the sum accumulator, after the last tile, writes the whole 1 x 64 array. -/
theorem flushed3_eq (t : Fin cfg4.N) (hf : (cfg4.win 3).flush t = true) :
    (dat4 (F := Ideal) V c).flushed 3 t = ((cfg4.win 3).blk t).view.read (Elt Ideal) (sumLast V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 (F := Ideal) V c).after 3 t4_9) = _
  rw [after4_3]
  have hz' : (fun a => win4_3.index t4_9 a * main_v79_1.ty.shape.size a) = fun _ => 0 :=
    funext fun a => by fin_cases a <;> decide
  exact (Memref.read_access_unit_zero (Elt Ideal) main_v79_1 hz' (fun a => by rw [congrFun hz' a]; simp) (sumLast V c)).symm

theorem flushed4_eq (t : Fin cfg4.N) (hf : (cfg4.win 4).flush t = true) :
    (dat4 (F := Ideal) V c).flushed 4 t = ((cfg4.win 4).blk t).view.read (Elt Ideal) (sqLast V c) := by
  have hN : cfg4.N = 10 := N_4
  have h9 : t.val = 9 := by have := (flush4_4 t).mp hf; have := t.isLt; omega
  obtain rfl : t = t4_9 := Fin.ext h9
  show (cfg4.win 4).cut (grid4.coords t4_9) ((dat4 (F := Ideal) V c).after 4 t4_9) = _
  rw [after4_4]
  have hz' : (fun a => win4_4.index t4_9 a * main_v79_2.ty.shape.size a) = fun _ => 0 :=
    funext fun a => by fin_cases a <;> decide
  exact (Memref.read_access_unit_zero (Elt Ideal) main_v79_2 hz' (fun a => by rw [congrFun hz' a]; simp) (sqLast V c)).symm

/-- So the second output ends holding what the sum accumulator held after the last tile. -/
theorem final3 : (dat4 (F := Ideal) V c).arrAt 3 cfg4.N = sumLast V c :=
  (dat4 (F := Ideal) V c).arrAt_eq_of_cover 3 (sumLast V c) (flushed3_eq V c) fun i =>
    ⟨t4_9, (flush4_3 t4_9).mpr rfl, by
      show i ∈ ((View.whole main_v79_1).slice (win4_3.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_3.index t4_9 0 * win4_3.size 0 ≤ (i 0 : Nat)
          ∧ (i 0 : Nat) < win4_3.index t4_9 0 * win4_3.size 0 + win4_3.xsize (grid4.coords t4_9) 0
        rw [show win4_3.index t4_9 0 * win4_3.size 0 = 0 from by decide +kernel,
          show win4_3.xsize (grid4.coords t4_9) 0 = 1 from by decide +kernel]; omega
      | ⟨1, _⟩ =>
        show win4_3.index t4_9 1 * win4_3.size 1 ≤ (i 1 : Nat)
          ∧ (i 1 : Nat) < win4_3.index t4_9 1 * win4_3.size 1 + win4_3.xsize (grid4.coords t4_9) 1
        rw [show win4_3.index t4_9 1 * win4_3.size 1 = 0 from by decide +kernel,
          show win4_3.xsize (grid4.coords t4_9) 1 = 64 from by decide +kernel]; omega⟩

/-- And the third what the accumulator of squares held. -/
theorem final4 : (dat4 (F := Ideal) V c).arrAt 4 cfg4.N = sqLast V c :=
  (dat4 (F := Ideal) V c).arrAt_eq_of_cover 4 (sqLast V c) (flushed4_eq V c) fun i =>
    ⟨t4_9, (flush4_4 t4_9).mpr rfl, by
      show i ∈ ((View.whole main_v79_2).slice (win4_4.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_4.index t4_9 0 * win4_4.size 0 ≤ (i 0 : Nat)
          ∧ (i 0 : Nat) < win4_4.index t4_9 0 * win4_4.size 0 + win4_4.xsize (grid4.coords t4_9) 0
        rw [show win4_4.index t4_9 0 * win4_4.size 0 = 0 from by decide +kernel,
          show win4_4.xsize (grid4.coords t4_9) 0 = 1 from by decide +kernel]; omega
      | ⟨1, _⟩ =>
        show win4_4.index t4_9 1 * win4_4.size 1 ≤ (i 1 : Nat)
          ∧ (i 1 : Nat) < win4_4.index t4_9 1 * win4_4.size 1 + win4_4.xsize (grid4.coords t4_9) 1
        rw [show win4_4.index t4_9 1 * win4_4.size 1 = 0 from by decide +kernel,
          show win4_4.xsize (grid4.coords t4_9) 1 = 64 from by decide +kernel]; omega⟩

end Run

/-! ## The three outputs, entry by entry

The arrays the pass reads are named s and b, each with the equation that says which array it is. -/

/-- The first output is s + b. -/
theorem conv_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec4 0) = s) (hb : V c (Pipeline.arrRef spec4 1) = b) (p : Fin 50000) (q : Fin 64) :
    ((dat4 (F := Ideal) V c).arrAt 2 cfg4.N) (ix2 p q) = s (ix2 p q) + b (ix2 (0 : Fin 1) q) :=
  congrFun (final2 V c s b hs hb) (ix2 p q)

/-- The second output is the column sums of s + b over all the rows. -/
theorem sum_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec4 0) = s) (hb : V c (Pipeline.arrRef spec4 1) = b) (q : Fin 64) :
    ((dat4 (F := Ideal) V c).arrAt 3 cfg4.N) (ix2 (0 : Fin 1) q) = ∑ p : Fin 50000, (s (ix2 p q) + b (ix2 (0 : Fin 1) q)) := by
  refine (congrFun (final3 V c) (ix2 (0 : Fin 1) q)).trans ?_
  refine ((acc_eq V c s b hs hb q 9 (by rw [show cfg4.N = 10 from N_4]; decide)).1).trans ?_
  exact sum_rows (entry s b q)

/-- The third output is the column sums of the squares of s + b over all the rows. -/
theorem sumsq_apply_of (V : (c : Dev nD) → (b : Ref sig .tc) → Buf (Elt Ideal) ((c : Thread nD τ).loc b)) (c : Dev nD)
    (s : S50000x64.Idx → EReal) (b : S1x64.Idx → EReal)
    (hs : V c (Pipeline.arrRef spec4 0) = s) (hb : V c (Pipeline.arrRef spec4 1) = b) (q : Fin 64) :
    ((dat4 (F := Ideal) V c).arrAt 4 cfg4.N) (ix2 (0 : Fin 1) q)
      = ∑ p : Fin 50000, (s (ix2 p q) + b (ix2 (0 : Fin 1) q)) * (s (ix2 p q) + b (ix2 (0 : Fin 1) q)) := by
  refine (congrFun (final4 V c) (ix2 (0 : Fin 1) q)).trans ?_
  refine ((acc_eq V c s b hs hb q 9 (by rw [show cfg4.N = 10 from N_4]; decide)).2).trans ?_
  exact sum_rows (fun i => entry s b q i * entry s b q i)

/-! ## The same three facts with the two arrays spelt as the pass finds them -/

theorem conv_apply (V : (c : Dev nD) → (b : Ref sig .tc) → Buf (Elt Ideal) ((c : Thread nD τ).loc b)) (c : Dev nD)
    (p : Fin 50000) (q : Fin 64) :
    ((dat4 (F := Ideal) V c).arrAt 2 cfg4.N) (ix2 p q)
      = (show S50000x64.Idx → EReal from V c (Pipeline.arrRef spec4 0)) (ix2 p q)
        + (show S1x64.Idx → EReal from V c (Pipeline.arrRef spec4 1)) (ix2 (0 : Fin 1) q) :=
  conv_apply_of V c _ _ rfl rfl p q

theorem sum_apply (V : (c : Dev nD) → (b : Ref sig .tc) → Buf (Elt Ideal) ((c : Thread nD τ).loc b)) (c : Dev nD)
    (q : Fin 64) :
    ((dat4 (F := Ideal) V c).arrAt 3 cfg4.N) (ix2 (0 : Fin 1) q)
      = ∑ p : Fin 50000, ((show S50000x64.Idx → EReal from V c (Pipeline.arrRef spec4 0)) (ix2 p q)
        + (show S1x64.Idx → EReal from V c (Pipeline.arrRef spec4 1)) (ix2 (0 : Fin 1) q)) :=
  sum_apply_of V c _ _ rfl rfl q

theorem sumsq_apply (V : (c : Dev nD) → (b : Ref sig .tc) → Buf (Elt Ideal) ((c : Thread nD τ).loc b)) (c : Dev nD)
    (q : Fin 64) :
    ((dat4 (F := Ideal) V c).arrAt 4 cfg4.N) (ix2 (0 : Fin 1) q)
      = ∑ p : Fin 50000, ((show S50000x64.Idx → EReal from V c (Pipeline.arrRef spec4 0)) (ix2 p q)
          + (show S1x64.Idx → EReal from V c (Pipeline.arrRef spec4 1)) (ix2 (0 : Fin 1) q))
        * ((show S50000x64.Idx → EReal from V c (Pipeline.arrRef spec4 0)) (ix2 p q)
          + (show S1x64.Idx → EReal from V c (Pipeline.arrRef spec4 1)) (ix2 (0 : Fin 1) q)) :=
  sumsq_apply_of V c _ _ rfl rfl q

end Cert.KernelIdeal.Stats4

end
-- ==== Proof.NormRelu5.lean ====
/-
  Region 5 of the idealized kernel: the normalization, scale, shift and rectifier of the second hidden layer.

  The region walks a 50000 × 64 array in ten row tiles of 5000 rows. Four 1 × 64 rows come with it: a mean, an
  inverse standard deviation, a scale and a shift, one entry per column. At each tile the body subtracts the mean
  row from every row of the tile, multiplies by the inverse standard deviation row, then by the scale row, adds the
  shift row, and takes the maximum with zero, entry by entry and in that order. The tiles are disjoint and together
  they are the whole array, so after the ten write-backs the output array holds, at row `p` and column `q`,
  `max (((x p q - mean 0 q) * invstd 0 q) * scale 0 q + shift 0 q) 0` over the extended reals, where the five
  arrays are as the region finds them. No law of arithmetic is used: the grouping is the body's own.

  The steps: the body's arithmetic read at one entry of a tile (`pay_apply`, `out_apply`); where an entry of a tile sits in its
  array (`iblk0_apply` … `iblk4_apply`, `emb5_apply`: row `p` of tile `t` is row `5000 t + p`, and each
  per-column row is the same at every tile); what a tile's write-back writes (`flushed_eq`); every row lies in the
  tile `row / 5000` (`cover`); hence the whole array (`final`) and one entry of it (`arr_apply`).
-/
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormRelu5

open Cert.KernelIdeal Cert.KernelIdeal.Gen Idealize.ShloMosaic Idealize.ShloMosaic.TcCoe Idealize.ShloMosaic.ValueIdx
open Idealize.ShloMosaic.Pipeline (Dat)

/-! ## The arrays the six windows stage -/

theorem arrRef_0 : Pipeline.arrRef spec5 0 = main_v79_0 := rfl
theorem arrRef_1 : Pipeline.arrRef spec5 1 = main_v81 := rfl
theorem arrRef_2 : Pipeline.arrRef spec5 2 = main_v88 := rfl
theorem arrRef_3 : Pipeline.arrRef spec5 3 = main_v89 := rfl
theorem arrRef_4 : Pipeline.arrRef spec5 4 = main_v90 := rfl
theorem arrRef_5 : Pipeline.arrRef spec5 5 = main_v91 := rfl

/-! ## The function the output array ends at -/

/-- The one row's entry of an index's column. -/
abbrev col (i : S50000x64.Idx) : S1x64.Idx := ix2 (0 : Fin 1) (⟨(i 1).val, idx2_lt1 i⟩ : Fin 64)

/-- Entry `(p, q)` of the result: the input's entry less the mean of column `q`, times that column's inverse standard
    deviation, times its scale, plus its shift, or zero if that is negative. -/
def G (a0 : S50000x64.Idx → EReal) (a1 a2 a3 a4 : S1x64.Idx → EReal) : S50000x64.Idx → EReal :=
  fun i => max ((((a0 i - a1 (col i)) * a2 (col i)) * a3 (col i)) + a4 (col i)) (0 : EReal)

theorem G_apply (a0 : S50000x64.Idx → EReal) (a1 a2 a3 a4 : S1x64.Idx → EReal) (p : Fin 50000) (q : Fin 64) :
    G a0 a1 a2 a3 a4 (ix2 p q)
      = max ((((a0 (ix2 p q) - a1 (ix2 (0 : Fin 1) q)) * a2 (ix2 (0 : Fin 1) q)) * a3 (ix2 (0 : Fin 1) q))
          + a4 (ix2 (0 : Fin 1) q)) (0 : EReal) := rfl

/-! ## The body's arithmetic at one entry of a tile -/

/-- The stored value at row `p`, column `q` of the tile. The casts to the same shape are the identity, each row
    broadcast reads its one row at column `q`, and the splat constant is the zero word. -/
theorem pay_apply (x0 : Vec Ideal S5000x64 .f32) (x1 x2 x3 x4 : Vec Ideal S1x64 .f32) (p : Fin 5000) (q : Fin 64) :
    k5_pay1 (F := Ideal) x0 x1 x2 x3 x4 (ix2 p q)
      = max ((((x0 (ix2 p q) - x1 (ix2 (0 : Fin 1) q)) * x2 (ix2 (0 : Fin 1) q)) * x3 (ix2 (0 : Fin 1) q))
          + x4 (ix2 (0 : Fin 1) q)) (0 : EReal) := by
  unfold k5_pay1
  rw [maximumf_apply, addf_apply, mulf_apply, mulf_apply, subf_apply, broadcast_apply,
    shapeCast_self, shapeCast_self, shapeCast_self, shapeCast_self, shapeCast_self,
    broadcastTo_1b_ab_apply, broadcastTo_1b_ab_apply, broadcastTo_1b_ab_apply, broadcastTo_1b_ab_apply]
  show max _ (Ideal.ofBits .f32 0x00000000#32) = _
  rw [Ideal.ofBits_zero_f32]

theorem hz : (![0, 0] : Fin 2 → Nat) = fun _ => 0 := funext fun a => by fin_cases a <;> rfl

/-- What the body leaves in the output's staging buffer, at one entry: its one store covers the buffer, and each load
    reads a whole block, so it is the stored value. -/
theorem out_apply (x0 : Vec Ideal S5000x64 .f32) (x1 x2 x3 x4 : Vec Ideal S1x64 .f32) (p : Fin 5000) (q : Fin 64) :
    out5_5 (F := Ideal) x0 x1 x2 x3 x4 (ix2 p q)
      = max ((((x0 (ix2 p q) - x1 (ix2 (0 : Fin 1) q)) * x2 (ix2 (0 : Fin 1) q)) * x3 (ix2 (0 : Fin 1) q))
          + x4 (ix2 (0 : Fin 1) q)) (0 : EReal) := by
  unfold out5_5
  rw [View.canon_unit_zero hz]
  simp only [View.ld_unit_zero (S := S5000x64) hz, View.ld_unit_zero (S := S1x64) hz]
  exact pay_apply x0 x1 x2 x3 x4 p q

/-- The same with the five entries it reads named: whatever they are, the stored value is that arithmetic of them. -/
theorem out_apply_of (x0 : Vec Ideal S5000x64 .f32) (x1 x2 x3 x4 : Vec Ideal S1x64 .f32) (p : Fin 5000) (q : Fin 64)
    (y0 y1 y2 y3 y4 : EReal) (h0 : x0 (ix2 p q) = y0) (h1 : x1 (ix2 (0 : Fin 1) q) = y1)
    (h2 : x2 (ix2 (0 : Fin 1) q) = y2) (h3 : x3 (ix2 (0 : Fin 1) q) = y3) (h4 : x4 (ix2 (0 : Fin 1) q) = y4) :
    out5_5 (F := Ideal) x0 x1 x2 x3 x4 (ix2 p q) = max ((((y0 - y1) * y2) * y3) + y4) (0 : EReal) := by
  subst h0 h1 h2 h3 h4
  exact out_apply x0 x1 x2 x3 x4 p q

/-! ## Where a tile's entry sits in its array -/

/-- The index maps over the ten points: the tiled windows' block index is the point itself on the rows and zero on
    the columns; each per-column row's window stays at block (0, 0). -/
theorem idx_in : ∀ t : Fin cfg5.N, win5_0.index t (0 : Fin 2) = t.val ∧ win5_0.index t (1 : Fin 2) = 0 :=
  (by decide +kernel : ∀ t : Fin grid5.N, _)
theorem idx_row1 : ∀ t : Fin cfg5.N, win5_1.index t (0 : Fin 2) = 0 ∧ win5_1.index t (1 : Fin 2) = 0 :=
  (by decide +kernel : ∀ t : Fin grid5.N, _)
theorem idx_row2 : ∀ t : Fin cfg5.N, win5_2.index t (0 : Fin 2) = 0 ∧ win5_2.index t (1 : Fin 2) = 0 :=
  (by decide +kernel : ∀ t : Fin grid5.N, _)
theorem idx_row3 : ∀ t : Fin cfg5.N, win5_3.index t (0 : Fin 2) = 0 ∧ win5_3.index t (1 : Fin 2) = 0 :=
  (by decide +kernel : ∀ t : Fin grid5.N, _)
theorem idx_row4 : ∀ t : Fin cfg5.N, win5_4.index t (0 : Fin 2) = 0 ∧ win5_4.index t (1 : Fin 2) = 0 :=
  (by decide +kernel : ∀ t : Fin grid5.N, _)
theorem idx_out : ∀ t : Fin cfg5.N, win5_5.index t (0 : Fin 2) = t.val ∧ win5_5.index t (1 : Fin 2) = 0 :=
  (by decide +kernel : ∀ t : Fin grid5.N, _)

theorem lt_ten (t : Fin cfg5.N) : t.val < 10 := by
  have h := t.isLt
  have hN : cfg5.N = 10 := N_5
  omega

/-- Row `p` of tile `t` is row `5000 t + p` of the array. -/
def row (t : Fin cfg5.N) (p : Fin 5000) : Fin 50000 :=
  ⟨5000 * t.val + p.val, by have := lt_ten t; have := p.isLt; omega⟩

variable (V : (c : Dev nD) → (b : Ref sig .tc) → Buf (Elt Ideal) ((c : Thread nD τ).loc b))

/-- The tiled input's block at point `t` reads rows `5000 t … 5000 t + 4999` of its array. -/
theorem iblk0_apply (c : Dev nD) (t : Fin cfg5.N) (p : Fin 5000) (q : Fin 64) :
    (iblk5 (F := Ideal) V c 0 t : Vec Ideal S5000x64 .f32) (ix2 p q)
      = (V c (Pipeline.arrRef spec5 0) : S50000x64.Idx → EReal) (ix2 (row t p) q) := by
  obtain ⟨e0, e1⟩ := idx_in t
  unfold iblk5
  rw [View.read_apply]
  show (V c main_v79_0 : S50000x64.Idx → EReal) _ = (V c main_v79_0 : S50000x64.Idx → EReal) _
  congr 1
  funext a
  apply Fin.ext
  match a with
  | ⟨0, _⟩ => show win5_0.index t (0 : Fin 2) * 5000 + 1 * p.val = 5000 * t.val + p.val; rw [e0]; omega
  | ⟨1, _⟩ => show win5_0.index t (1 : Fin 2) * 64 + 1 * q.val = q.val; rw [e1]; omega

/-- The mean window's block is the one row of its array, at every point. -/
theorem iblk1_apply (c : Dev nD) (t : Fin cfg5.N) (q : Fin 64) :
    (iblk5 (F := Ideal) V c 1 t : Vec Ideal S1x64 .f32) (ix2 (0 : Fin 1) q)
      = (V c (Pipeline.arrRef spec5 1) : S1x64.Idx → EReal) (ix2 (0 : Fin 1) q) := by
  obtain ⟨e0, e1⟩ := idx_row1 t
  unfold iblk5
  rw [View.read_apply]
  show (V c main_v81 : S1x64.Idx → EReal) _ = (V c main_v81 : S1x64.Idx → EReal) _
  congr 1
  funext a
  apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

/-- The inverse standard deviation window's block is the one row of its array, at every point. -/
theorem iblk2_apply (c : Dev nD) (t : Fin cfg5.N) (q : Fin 64) :
    (iblk5 (F := Ideal) V c 2 t : Vec Ideal S1x64 .f32) (ix2 (0 : Fin 1) q)
      = (V c (Pipeline.arrRef spec5 2) : S1x64.Idx → EReal) (ix2 (0 : Fin 1) q) := by
  obtain ⟨e0, e1⟩ := idx_row2 t
  unfold iblk5
  rw [View.read_apply]
  show (V c main_v88 : S1x64.Idx → EReal) _ = (V c main_v88 : S1x64.Idx → EReal) _
  congr 1
  funext a
  apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

/-- The scale window's block is the one row of its array, at every point. -/
theorem iblk3_apply (c : Dev nD) (t : Fin cfg5.N) (q : Fin 64) :
    (iblk5 (F := Ideal) V c 3 t : Vec Ideal S1x64 .f32) (ix2 (0 : Fin 1) q)
      = (V c (Pipeline.arrRef spec5 3) : S1x64.Idx → EReal) (ix2 (0 : Fin 1) q) := by
  obtain ⟨e0, e1⟩ := idx_row3 t
  unfold iblk5
  rw [View.read_apply]
  show (V c main_v89 : S1x64.Idx → EReal) _ = (V c main_v89 : S1x64.Idx → EReal) _
  congr 1
  funext a
  apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

/-- The shift window's block is the one row of its array, at every point. -/
theorem iblk4_apply (c : Dev nD) (t : Fin cfg5.N) (q : Fin 64) :
    (iblk5 (F := Ideal) V c 4 t : Vec Ideal S1x64 .f32) (ix2 (0 : Fin 1) q)
      = (V c (Pipeline.arrRef spec5 4) : S1x64.Idx → EReal) (ix2 (0 : Fin 1) q) := by
  obtain ⟨e0, e1⟩ := idx_row4 t
  unfold iblk5
  rw [View.read_apply]
  show (V c main_v90 : S1x64.Idx → EReal) _ = (V c main_v90 : S1x64.Idx → EReal) _
  congr 1
  funext a
  apply Fin.ext
  match a with
  | ⟨0, _⟩ => show win5_4.index t (0 : Fin 2) * 1 + 1 * 0 = 0; rw [e0]
  | ⟨1, _⟩ => show win5_4.index t (1 : Fin 2) * 64 + 1 * q.val = q.val; rw [e1]; omega

/-- Entry `(p, q)` of the output's block at point `t` is entry `(5000 t + p, q)` of the output array. -/
theorem emb5_apply (t : Fin cfg5.N) (p : Fin 5000) (q : Fin 64) :
    (((cfg5.win 5).blk t).view.emb (ix2 p q) : S50000x64.Idx) = ix2 (row t p) q := by
  obtain ⟨e0, e1⟩ := idx_out t
  funext a
  apply Fin.ext
  match a with
  | ⟨0, _⟩ => show win5_5.index t (0 : Fin 2) * 5000 + 1 * p.val = 5000 * t.val + p.val; rw [e0]; omega
  | ⟨1, _⟩ => show win5_5.index t (1 : Fin 2) * 64 + 1 * q.val = q.val; rw [e1]; omega

/-! ## What one point writes back, and the whole array -/

/-- Point `t` writes back tile `t` of `G` of the five input arrays. -/
theorem flushed_eq (c : Dev nD) (t : Fin cfg5.N) :
    (dat5 (F := Ideal) V c).flushed 5 t
      = ((cfg5.win 5).blk t).view.read (Elt Ideal)
          (G (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  funext j
  obtain ⟨p, q, rfl⟩ : ∃ (p : Fin 5000) (q : Fin 64), j = ix2 p q := ⟨j 0, j 1, eq_ix2 j⟩
  rw [View.read_apply]
  refine (out_apply_of (iblk5 V c 0 t) (iblk5 V c 1 t) (iblk5 V c 2 t) (iblk5 V c 3 t) (iblk5 V c 4 t) p q _ _ _ _ _
    (iblk0_apply V c t p q) (iblk1_apply V c t q) (iblk2_apply V c t q) (iblk3_apply V c t q) (iblk4_apply V c t q)).trans ?_
  exact ((congrArg (G (V c (Pipeline.arrRef spec5 0)) (V c (Pipeline.arrRef spec5 1)) (V c (Pipeline.arrRef spec5 2)) (V c (Pipeline.arrRef spec5 3)) (V c (Pipeline.arrRef spec5 4))) (emb5_apply t p q)).trans
    (G_apply _ _ _ _ _ (row t p) q)).symm

/-- An index of the output array is in point `t`'s block iff each coordinate is in the block's range on its axis. -/
theorem mem_blk (t : Fin cfg5.N) (i : S50000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v91).slice (win5_5.rect t)).set ↔ _
  rw [View.set_slice_whole, Rect.mem_set_unit]
  exact Iff.rfl

/-- Every entry of the output array lies in the block of the point `row / 5000`, and every point writes back. -/
theorem cover (i : S50000x64.Idx) :
    ∃ t : Fin cfg5.N, (cfg5.win 5).flush t = true ∧ i ∈ ((cfg5.win 5).blk t).view.set := by
  have hi0 : (i 0).val < 50000 := idx2_lt0 i
  have hi1 : (i 1).val < 64 := idx2_lt1 i
  have hN : cfg5.N = 10 := N_5
  let t : Fin cfg5.N := ⟨(i 0).val / 5000, by rw [hN]; omega⟩
  have ht : t.val = (i 0).val / 5000 := rfl
  obtain ⟨e0, e1⟩ := idx_out t
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 64 ≤ (i 1).val ∧ (i 1).val < win5_5.index t (1 : Fin 2) * 64 + 64
    rw [e1]; omega

/-- The output array after the region: `G` of the five input arrays as the region finds them. -/
theorem final (c : Dev nD) :
    (dat5 (F := Ideal) V c).arrAt 5 cfg5.N
      = G (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5
    (G (V c (Pipeline.arrRef spec5 0)) (V c (Pipeline.arrRef spec5 1)) (V c (Pipeline.arrRef spec5 2)) (V c (Pipeline.arrRef spec5 3)) (V c (Pipeline.arrRef spec5 4)))
    (fun t _ => flushed_eq V c t) cover

/-- One entry of the output array after the region, with the five input arrays named: `A0` the tiled input, `A1`
    the mean row, `A2` the inverse standard deviation row, `A3` the scale row, `A4` the shift row, as the region
    finds them. -/
theorem arr_apply_of (V : (c : Dev nD) → (b : Ref sig .tc) → Buf (Elt Ideal) ((c : Thread nD τ).loc b)) (c : Dev nD)
    (A0 : S50000x64.Idx → EReal) (A1 A2 A3 A4 : S1x64.Idx → EReal)
    (h0 : V c (Pipeline.arrRef spec5 0) = A0) (h1 : V c (Pipeline.arrRef spec5 1) = A1)
    (h2 : V c (Pipeline.arrRef spec5 2) = A2) (h3 : V c (Pipeline.arrRef spec5 3) = A3)
    (h4 : V c (Pipeline.arrRef spec5 4) = A4) (p : Fin 50000) (q : Fin 64) :
    ((dat5 (F := Ideal) V c).arrAt 5 cfg5.N) (ix2 p q)
      = max ((((A0 (ix2 p q) - A1 (ix2 (0 : Fin 1) q)) * A2 (ix2 (0 : Fin 1) q)) * A3 (ix2 (0 : Fin 1) q))
          + A4 (ix2 (0 : Fin 1) q)) (0 : EReal) := by
  subst h0 h1 h2 h3 h4
  rw [final V c]
  exact G_apply _ _ _ _ _ p q

/-- One entry of the output array after the region, the arrays spelt out: the tiled input's entry less the mean row's
    entry of the same column, times the inverse standard deviation row's, times the scale row's, plus the shift row's,
    as extended reals and grouped in that order, or zero if that is negative. -/
theorem arr_apply (V : (c : Dev nD) → (b : Ref sig .tc) → Buf (Elt Ideal) ((c : Thread nD τ).loc b)) (c : Dev nD)
    (p : Fin 50000) (q : Fin 64) :
    ((dat5 (F := Ideal) V c).arrAt 5 cfg5.N) (ix2 p q)
      = max (HAdd.hAdd (α := EReal) (β := EReal) (γ := EReal)
          (HMul.hMul (α := EReal) (β := EReal) (γ := EReal)
            (HMul.hMul (α := EReal) (β := EReal) (γ := EReal)
              (HSub.hSub (α := EReal) (β := EReal) (γ := EReal)
                (V c (Pipeline.arrRef spec5 0) (ix2 p q)) (V c (Pipeline.arrRef spec5 1) (ix2 (0 : Fin 1) q)))
              (V c (Pipeline.arrRef spec5 2) (ix2 (0 : Fin 1) q)))
            (V c (Pipeline.arrRef spec5 3) (ix2 (0 : Fin 1) q)))
          (V c (Pipeline.arrRef spec5 4) (ix2 (0 : Fin 1) q))) (0 : EReal) :=
  arr_apply_of V c _ _ _ _ _ rfl rfl rfl rfl rfl p q

end Cert.KernelIdeal.NormRelu5

end
-- ==== Proof.Layer1.lean ====
import proofs.«127809_j47837345743091_1_alg».proof.Proof.Layer0
import proofs.«127809_j47837345743091_1_alg».proof.Proof.Lin3
import proofs.«127809_j47837345743091_1_alg».proof.Proof.Stats4
import proofs.«127809_j47837345743091_1_alg».proof.Proof.NormRelu5
import proofs.«127809_j47837345743091_1_alg».proof.Proof.Consts
import proofs.«127809_j47837345743091_1_alg».proof.Proof.VarLaw
import proofs.«127809_j47837345743091_1_alg».proof.Proof.Gen.KernelIdeal.Frame
import proofs.«127809_j47837345743091_1_alg».proof.Proof.ReadP
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

/-! # The second layer of the chain: from the first hidden layer to the second

The second graph-convolution layer is the first one over again, one layer on: a linear region multiplies the first
hidden layer by the second weight matrix; a host stretch gathers its rows along the edges, scales them by the edge
weights and adds them up per destination node; a statistics region adds the bias and forms the column sums and the
column sums of squares; a host stretch turns those into the mean and the inverse deviation of every column; a
normalisation region subtracts the mean, scales, shifts and clamps at zero. Boundary by boundary the kernel's buffers
are identified with the reference's stages of the arguments. The two programs differ in one place only — the kernel
forms the variance as the mean of squares minus the squared mean, the reference as the mean of squared deviations —
and there the entries of this layer's convolution must be real numbers (`hr1`); the first hidden layer itself is
what the first layer's chain ends at, which needs the same of the first convolution (`hr0`). -/

set_option maxRecDepth 16384

noncomputable section

namespace Cert.Chain1

open Cert.Chain
open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false

local notation "𝔸0" => m ((c : Thread nD τ).loc main_arg0)
local notation "𝔸1" => m ((c : Thread nD τ).loc main_arg1)
local notation "𝔸2" => m ((c : Thread nD τ).loc main_arg2)
local notation "𝔸3" => m ((c : Thread nD τ).loc main_arg3)
local notation "𝔸4" => m ((c : Thread nD τ).loc main_arg4)
local notation "𝔸5" => m ((c : Thread nD τ).loc main_arg5)
local notation "𝔸6" => m ((c : Thread nD τ).loc main_arg6)
local notation "𝔸7" => m ((c : Thread nD τ).loc main_arg7)
local notation "𝔸8" => m ((c : Thread nD τ).loc main_arg8)
local notation "𝔸9" => m ((c : Thread nD τ).loc main_arg9)
local notation "𝔸10" => m ((c : Thread nD τ).loc main_arg10)
local notation "𝔸11" => m ((c : Thread nD τ).loc main_arg11)
local notation "𝔸12" => m ((c : Thread nD τ).loc main_arg12)
local notation "𝔸13" => m ((c : Thread nD τ).loc main_arg13)

/-! ## At the second linear region's entry: the first hidden layer, the weights, the zero bias row -/

/-- The first hidden layer, untouched by the three host operations that write the zero bias row. -/
theorem h1_W9 (hr0 : ∀ i, ∃ r : ℝ, val_main_v48 (F := Ideal) 𝔸0 𝔸1 𝔸2 𝔸3 i = (r : EReal)) :
    W9 m ρ c (Proc.devRef .tc main_v61) = val_main_v74 (F := Ideal) 𝔸0 𝔸1 𝔸2 𝔸3 𝔸8 𝔸9 := by
  walk_step; exact h1_W8 m ρ c hr0
theorem src_W9 : W9 m ρ c (Proc.devRef .tc main_v5) = val_main_v3 (F := Ideal) 𝔸1 := by
  walk_step; exact src_W8 m ρ c
theorem dst_W9 : W9 m ρ c (Proc.devRef .tc main_v6) = val_main_v6 (F := Ideal) 𝔸1 := by
  walk_step; exact dst_W8 m ρ c
theorem norm_W9 : W9 m ρ c (Proc.devRef .tc main_v31) = val_main_v31 (F := Ideal) 𝔸1 := by
  walk_step; exact norm_W8 m ρ c
theorem arg4_W9 : W9 m ρ c (Proc.devRef .tc main_arg4) = 𝔸4 := by walk_back
theorem zb1_W9 (i : S1x64.Idx) : (W9 m ρ c (Proc.devRef .tc main_v63) : S1x64.Idx → EReal) i = (0 : EReal) := by
  have h : W9 m ρ c (Proc.devRef .tc main_v63) = (fun i => shapeCast S1x64 (broadcastInDim S64 ![] bcast_S_S64 (constant (F := Ideal) S_ .f32 0x00000000#32)) shapeCasts_S64_S1x64 i) := by
    after_results_simp; rfl
  rw [h]; exact Cert.Consts.ofBits_zero

/-! ## After the second linear region: h₁·W1 -/

theorem t1_W10 (hr0 : ∀ i, ∃ r : ℝ, val_main_v48 (F := Ideal) 𝔸0 𝔸1 𝔸2 𝔸3 i = (r : EReal)) :
    W10 m ρ c (Proc.devRef .tc main_v64) = val_main_v75 (F := Ideal) 𝔸0 𝔸1 𝔸2 𝔸3 𝔸4 𝔸8 𝔸9 := by
  refine (W10_arr m ρ c 3).trans ?_
  refine funext fun (i : S50000x64.Idx) => ?_
  obtain ⟨p, q, rfl⟩ : ∃ (p : Fin 50000) (q : Fin 64), i = ix2 p q := ⟨i 0, i 1, eq_ix2 i⟩
  rw [Cert.KernelIdeal.Lin3.arr_apply_of (V9 m ρ) c _ _ _ (h1_W9 m ρ c hr0) (arg4_W9 m ρ c) (funext (zb1_W9 m ρ c)) p q,
    val_main_v75_apply]
  show _ + (0 : EReal) = _
  rw [add_zero]
  refine Finset.sum_congr rfl fun k _ => ?_
  congr 2 <;> (funext a; match a with | ⟨0, _⟩ => rfl | ⟨1, _⟩ => rfl)

theorem src_W10 : W10 m ρ c (Proc.devRef .tc main_v5) = val_main_v3 (F := Ideal) 𝔸1 := by
  walk_step; exact src_W9 m ρ c
theorem dst_W10 : W10 m ρ c (Proc.devRef .tc main_v6) = val_main_v6 (F := Ideal) 𝔸1 := by
  walk_step; exact dst_W9 m ρ c
theorem norm_W10 : W10 m ρ c (Proc.devRef .tc main_v31) = val_main_v31 (F := Ideal) 𝔸1 := by
  walk_step; exact norm_W9 m ρ c
theorem arg5_W10 : W10 m ρ c (Proc.devRef .tc main_arg5) = 𝔸5 := by walk_back

/-! ## After the aggregation stretch: the normalised scatter-add of the gathered rows, and the bias row -/

theorem s1_W11 (hr0 : ∀ i, ∃ r : ℝ, val_main_v48 (F := Ideal) 𝔸0 𝔸1 𝔸2 𝔸3 i = (r : EReal)) :
    W11 m ρ c (Proc.devRef .tc main_v77) = val_main_v88 (F := Ideal) 𝔸0 𝔸1 𝔸2 𝔸3 𝔸4 𝔸8 𝔸9 := by
  after_results_simp
  rw [dst_W10, t1_W10 m ρ c hr0, src_W10, norm_W10]
  rfl
theorem b1_W11 (q : Fin 64) : (W11 m ρ c (Proc.devRef .tc main_v78) : S1x64.Idx → EReal) (ix2 (0 : Fin 1) q) = (𝔸5 : S64.Idx → EReal) (ix1 q) := by
  have h : W11 m ρ c (Proc.devRef .tc main_v78) = (fun i => shapeCast S1x64 (W10 m ρ c (Proc.devRef .tc main_arg5)) shapeCasts_S64_S1x64 i) := by
    after_results_simp; rfl
  rw [h, arg5_W10]; exact shapeCast_a_1a_apply _ _ _ _

/-! ## The reference's batch-norm stages at an index

  For column q: the conv entry c(p,q) = aggregate(p,q) + b(q); the column sum; the mean μ(q) = (∑ c)/n; the variance
  (∑ (c − μ)²)/n. All four read off the reference's stages one operation at a time. -/

theorem ref_c1 (p : Fin 50000) (q : Fin 64) :
    val_main_v91 (F := Ideal) 𝔸0 𝔸1 𝔸2 𝔸3 𝔸4 𝔸5 𝔸8 𝔸9 (ix2 p q)
      = val_main_v88 (F := Ideal) 𝔸0 𝔸1 𝔸2 𝔸3 𝔸4 𝔸8 𝔸9 (ix2 p q) + (𝔸5 : S64.Idx → EReal) (ix1 q) := by
  rw [val_main_v91_apply, val_main_v90_apply, val_main_v89_apply]
  show _ + _ = _ + _
  refine congrArg (_ + ·) (congrArg _ ?_)
  idx_rfl

theorem ref_sum1 (q : Fin 64) :
    val_main_v92 (F := Ideal) 𝔸0 𝔸1 𝔸2 𝔸3 𝔸4 𝔸5 𝔸8 𝔸9 (ix1 q) = ∑ p : Fin 50000, val_main_v91 (F := Ideal) 𝔸0 𝔸1 𝔸2 𝔸3 𝔸4 𝔸5 𝔸8 𝔸9 (ix2 p q) := by
  rw [val_main_v92_apply, val_main_cst_18_apply]
  show Ideal.ofBits .f32 0x00000000#32 + _ = _
  rw [Cert.Consts.ofBits_zero, zero_add]
  refine Finset.sum_congr rfl fun k _ => congrArg _ ?_
  idx_rfl

theorem ref_mean1 (q : Fin 64) :
    val_main_v94 (F := Ideal) 𝔸0 𝔸1 𝔸2 𝔸3 𝔸4 𝔸5 𝔸8 𝔸9 (ix1 q)
      = Ideal.div (∑ p : Fin 50000, val_main_v91 (F := Ideal) 𝔸0 𝔸1 𝔸2 𝔸3 𝔸4 𝔸5 𝔸8 𝔸9 (ix2 p q)) (((50000 : ℝ) : EReal)) := by
  rw [val_main_v94_apply, ref_sum1, val_main_v93_apply, val_main_cst_19_apply]
  show Ideal.div _ (Ideal.ofBits .f32 0x47435000#32) = _
  rw [Cert.Consts.ofBits_rows]

theorem ref_var1 (q : Fin 64) :
    val_main_v101 (F := Ideal) 𝔸0 𝔸1 𝔸2 𝔸3 𝔸4 𝔸5 𝔸8 𝔸9 (ix1 q)
      = Ideal.div (∑ p : Fin 50000,
          (val_main_v91 (F := Ideal) 𝔸0 𝔸1 𝔸2 𝔸3 𝔸4 𝔸5 𝔸8 𝔸9 (ix2 p q) - val_main_v94 (F := Ideal) 𝔸0 𝔸1 𝔸2 𝔸3 𝔸4 𝔸5 𝔸8 𝔸9 (ix1 q))
          * (val_main_v91 (F := Ideal) 𝔸0 𝔸1 𝔸2 𝔸3 𝔸4 𝔸5 𝔸8 𝔸9 (ix2 p q) - val_main_v94 (F := Ideal) 𝔸0 𝔸1 𝔸2 𝔸3 𝔸4 𝔸5 𝔸8 𝔸9 (ix1 q)))
          (((50000 : ℝ) : EReal)) := by
  rw [val_main_v101_apply, val_main_v99_apply, val_main_cst_20_apply, val_main_v100_apply, val_main_cst_21_apply]
  show Ideal.div (Ideal.ofBits .f32 0x00000000#32 + _) (Ideal.ofBits .f32 0x47435000#32) = _
  rw [Cert.Consts.ofBits_zero, zero_add, Cert.Consts.ofBits_rows]
  refine congrArg (fun s : EReal => Ideal.div s (((50000 : ℝ) : EReal))) ?_
  refine Finset.sum_congr rfl fun k _ => ?_
  rw [val_main_v98_apply, val_main_v97_apply, val_main_v96_apply, val_main_v95_apply]
  have e1 : idx_main_v99 (ix1 q) k = ix2 k q := by idx_rfl
  have e2 : idx_main_v95 (idx_main_v96 (ix2 k q)) = ix1 q := by idx_rfl
  rw [e1, e2]
  rfl

/-! ## After the statistics region: the conv output, its column sums and the column sums of its squares -/

/-- The bias row as the statistics region finds it, typed. -/
abbrev brow1 : S1x64.Idx → EReal := W11 m ρ c (Proc.devRef .tc main_v78)

theorem kc1 (p : Fin 50000) (q : Fin 64) :
    val_main_v88 (F := Ideal) 𝔸0 𝔸1 𝔸2 𝔸3 𝔸4 𝔸8 𝔸9 (ix2 p q) + brow1 m ρ c (ix2 (0 : Fin 1) q)
      = val_main_v91 (F := Ideal) 𝔸0 𝔸1 𝔸2 𝔸3 𝔸4 𝔸5 𝔸8 𝔸9 (ix2 p q) := by
  rw [ref_c1]; exact congrArg (_ + ·) (b1_W11 m ρ c q)

theorem conv1_W12 (hr0 : ∀ i, ∃ r : ℝ, val_main_v48 (F := Ideal) 𝔸0 𝔸1 𝔸2 𝔸3 i = (r : EReal)) :
    W12 m ρ c (Proc.devRef .tc main_v79_0) = val_main_v91 (F := Ideal) 𝔸0 𝔸1 𝔸2 𝔸3 𝔸4 𝔸5 𝔸8 𝔸9 := by
  refine (W12_arr m ρ c 2).trans ?_
  refine funext fun (i : S50000x64.Idx) => ?_
  obtain ⟨p, q, rfl⟩ : ∃ (p : Fin 50000) (q : Fin 64), i = ix2 p q := ⟨i 0, i 1, eq_ix2 i⟩
  rw [Cert.KernelIdeal.Stats4.conv_apply_of (V11 m ρ) c _ (brow1 m ρ c) (s1_W11 m ρ c hr0) rfl p q]
  exact kc1 m ρ c p q

theorem sum1_W12 (hr0 : ∀ i, ∃ r : ℝ, val_main_v48 (F := Ideal) 𝔸0 𝔸1 𝔸2 𝔸3 i = (r : EReal)) (q : Fin 64) :
    @Eq EReal ((W12 m ρ c (Proc.devRef .tc main_v79_1) : S1x64.Idx → EReal) (ix2 (0 : Fin 1) q))
    (∑ p : Fin 50000, val_main_v91 (F := Ideal) 𝔸0 𝔸1 𝔸2 𝔸3 𝔸4 𝔸5 𝔸8 𝔸9 (ix2 p q)) := by
  rw [W12_arr m ρ c 3, Cert.KernelIdeal.Stats4.sum_apply_of (V11 m ρ) c _ (brow1 m ρ c) (s1_W11 m ρ c hr0) rfl q]
  exact Finset.sum_congr rfl fun p _ => kc1 m ρ c p q

theorem sumsq1_W12 (hr0 : ∀ i, ∃ r : ℝ, val_main_v48 (F := Ideal) 𝔸0 𝔸1 𝔸2 𝔸3 i = (r : EReal)) (q : Fin 64) :
    @Eq EReal ((W12 m ρ c (Proc.devRef .tc main_v79_2) : S1x64.Idx → EReal) (ix2 (0 : Fin 1) q))
    (∑ p : Fin 50000, val_main_v91 (F := Ideal) 𝔸0 𝔸1 𝔸2 𝔸3 𝔸4 𝔸5 𝔸8 𝔸9 (ix2 p q) * val_main_v91 (F := Ideal) 𝔸0 𝔸1 𝔸2 𝔸3 𝔸4 𝔸5 𝔸8 𝔸9 (ix2 p q)) := by
  rw [W12_arr m ρ c 4, Cert.KernelIdeal.Stats4.sumsq_apply_of (V11 m ρ) c _ (brow1 m ρ c) (s1_W11 m ρ c hr0) rfl q]
  exact Finset.sum_congr rfl fun p _ => by rw [kc1 m ρ c p q]

theorem arg10_W12 : W12 m ρ c (Proc.devRef .tc main_arg10) = 𝔸10 := by walk_back
theorem arg11_W12 : W12 m ρ c (Proc.devRef .tc main_arg11) = 𝔸11 := by walk_back

/-! ## After the host stretch between statistics and normalisation: mean, inverse deviation, scale and shift rows -/

theorem conv1_W13 (hr0 : ∀ i, ∃ r : ℝ, val_main_v48 (F := Ideal) 𝔸0 𝔸1 𝔸2 𝔸3 i = (r : EReal)) :
    W13 m ρ c (Proc.devRef .tc main_v79_0) = val_main_v91 (F := Ideal) 𝔸0 𝔸1 𝔸2 𝔸3 𝔸4 𝔸5 𝔸8 𝔸9 := by
  walk_step; exact conv1_W12 m ρ c hr0

theorem mean1_W13 (hr0 : ∀ i, ∃ r : ℝ, val_main_v48 (F := Ideal) 𝔸0 𝔸1 𝔸2 𝔸3 i = (r : EReal)) (q : Fin 64) :
    (W13 m ρ c (Proc.devRef .tc main_v81) : S1x64.Idx → EReal) (ix2 (0 : Fin 1) q)
    = val_main_v94 (F := Ideal) 𝔸0 𝔸1 𝔸2 𝔸3 𝔸4 𝔸5 𝔸8 𝔸9 (ix1 q) := by
  have h : W13 m ρ c (Proc.devRef .tc main_v81) = Host.divf (F := Ideal) (W12 m ρ c (Proc.devRef .tc main_v79_1)) (broadcastInDim S1x64 ![] bcast_S_S1x64 (constant (F := Ideal) S_ .f32 0x47435000#32)) := by
    after_results_simp
  rw [h, ref_mean1]
  show Ideal.div _ (Ideal.ofBits .f32 0x47435000#32) = _
  rw [sum1_W12 m ρ c hr0, Cert.Consts.ofBits_rows]

/-- The one place the two programs differ: the kernel forms (∑c²)/n − μ·μ, the reference (∑(c−μ)²)/n; on real
    entries these are one number, and the same epsilon and the same inverse square root follow. -/
theorem inv1_W13 (hr0 : ∀ i, ∃ r : ℝ, val_main_v48 (F := Ideal) 𝔸0 𝔸1 𝔸2 𝔸3 i = (r : EReal))
    (hr1 : ∀ i, ∃ r : ℝ, val_main_v91 (F := Ideal) 𝔸0 𝔸1 𝔸2 𝔸3 𝔸4 𝔸5 𝔸8 𝔸9 i = (r : EReal)) (q : Fin 64) :
    (W13 m ρ c (Proc.devRef .tc main_v88) : S1x64.Idx → EReal) (ix2 (0 : Fin 1) q)
      = val_main_v107 (F := Ideal) 𝔸0 𝔸1 𝔸2 𝔸3 𝔸4 𝔸5 𝔸8 𝔸9 (ix1 q) := by
  have h : W13 m ρ c (Proc.devRef .tc main_v88)
      = Host.rsqrt (F := Ideal) (addf
          (subf (Host.divf (F := Ideal) (W12 m ρ c (Proc.devRef .tc main_v79_2)) (broadcastInDim S1x64 ![] bcast_S_S1x64 (constant (F := Ideal) S_ .f32 0x47435000#32)))
            (mulf (Host.divf (F := Ideal) (W12 m ρ c (Proc.devRef .tc main_v79_1)) (broadcastInDim S1x64 ![] bcast_S_S1x64 (constant (F := Ideal) S_ .f32 0x47435000#32)))
              (Host.divf (F := Ideal) (W12 m ρ c (Proc.devRef .tc main_v79_1)) (broadcastInDim S1x64 ![] bcast_S_S1x64 (constant (F := Ideal) S_ .f32 0x47435000#32)))))
          (broadcastInDim S1x64 ![] bcast_S_S1x64 (constant (F := Ideal) S_ .f32 0x3727C5AC#32))) := by
    after_results_simp
  rw [h, val_main_v107_apply, val_main_v106_apply, val_main_v105_apply, val_main_cst_22_apply, ref_var1]
  show FloatOps.hostUnary (F := Ideal) .rsqrt
      ((Ideal.div ((W12 m ρ c (Proc.devRef .tc main_v79_2) : S1x64.Idx → EReal) (ix2 (0 : Fin 1) q)) (Ideal.ofBits .f32 0x47435000#32)
        - Ideal.div ((W12 m ρ c (Proc.devRef .tc main_v79_1) : S1x64.Idx → EReal) (ix2 (0 : Fin 1) q)) (Ideal.ofBits .f32 0x47435000#32)
          * Ideal.div ((W12 m ρ c (Proc.devRef .tc main_v79_1) : S1x64.Idx → EReal) (ix2 (0 : Fin 1) q)) (Ideal.ofBits .f32 0x47435000#32))
        + Ideal.ofBits .f32 0x3727C5AC#32)
    = FloatOps.hostUnary (F := Ideal) .rsqrt (_ + Ideal.ofBits .f32 0x3727C5AC#32)
  rw [sumsq1_W12 m ρ c hr0, sum1_W12 m ρ c hr0, Cert.Consts.ofBits_rows, ref_mean1]
  refine congrArg (fun v => FloatOps.hostUnary (F := Ideal) .rsqrt (v + _)) ?_
  exact Cert.VarLaw.var_law (fun p : Fin 50000 => val_main_v91 (F := Ideal) 𝔸0 𝔸1 𝔸2 𝔸3 𝔸4 𝔸5 𝔸8 𝔸9 (ix2 p q)) (fun p => hr1 _) 50000
    (by simp) (by norm_num)

theorem g1_W13 (q : Fin 64) : (W13 m ρ c (Proc.devRef .tc main_v89) : S1x64.Idx → EReal) (ix2 (0 : Fin 1) q) = (𝔸10 : S64.Idx → EReal) (ix1 q) := by
  have h : W13 m ρ c (Proc.devRef .tc main_v89) = (fun i => shapeCast S1x64 (W12 m ρ c (Proc.devRef .tc main_arg10)) shapeCasts_S64_S1x64 i) := by
    after_results_simp; rfl
  rw [h, arg10_W12]; exact shapeCast_a_1a_apply _ _ _ _
theorem be1_W13 (q : Fin 64) : (W13 m ρ c (Proc.devRef .tc main_v90) : S1x64.Idx → EReal) (ix2 (0 : Fin 1) q) = (𝔸11 : S64.Idx → EReal) (ix1 q) := by
  have h : W13 m ρ c (Proc.devRef .tc main_v90) = (fun i => shapeCast S1x64 (W12 m ρ c (Proc.devRef .tc main_arg11)) shapeCasts_S64_S1x64 i) := by
    after_results_simp; rfl
  rw [h, arg11_W12]; exact shapeCast_a_1a_apply _ _ _ _

/-! ## After the second normalisation region: the second hidden layer -/

theorem h2_W14 (hr0 : ∀ i, ∃ r : ℝ, val_main_v48 (F := Ideal) 𝔸0 𝔸1 𝔸2 𝔸3 i = (r : EReal))
    (hr1 : ∀ i, ∃ r : ℝ, val_main_v91 (F := Ideal) 𝔸0 𝔸1 𝔸2 𝔸3 𝔸4 𝔸5 𝔸8 𝔸9 i = (r : EReal)) :
    W14 m ρ c (Proc.devRef .tc main_v91) = val_main_v117 (F := Ideal) 𝔸0 𝔸1 𝔸2 𝔸3 𝔸4 𝔸5 𝔸8 𝔸9 𝔸10 𝔸11 := by
  refine (W14_arr m ρ c 5).trans ?_
  refine funext fun (i : S50000x64.Idx) => ?_
  obtain ⟨p, q, rfl⟩ : ∃ (p : Fin 50000) (q : Fin 64), i = ix2 p q := ⟨i 0, i 1, eq_ix2 i⟩
  rw [Cert.KernelIdeal.NormRelu5.arr_apply_of (V13 m ρ) c _
      (W13 m ρ c (Proc.devRef .tc main_v81)) (W13 m ρ c (Proc.devRef .tc main_v88))
      (W13 m ρ c (Proc.devRef .tc main_v89)) (W13 m ρ c (Proc.devRef .tc main_v90))
      (conv1_W13 m ρ c hr0) rfl rfl rfl rfl p q]
  rw [mean1_W13 m ρ c hr0, inv1_W13 m ρ c hr0 hr1, g1_W13, be1_W13]
  rw [val_main_v117_apply, val_main_v116_apply, val_main_v115_apply, val_main_v114_apply, val_main_v113_apply,
    val_main_v112_apply, val_main_v111_apply, val_main_v110_apply, val_main_v109_apply, val_main_v108_apply,
    val_main_v104_apply, val_main_v103_apply, val_main_v102_apply, val_main_call2_v0_apply, val_main_call2_cst_apply]
  show max _ (0 : EReal) = max _ (Ideal.ofBits .f32 0x00000000#32)
  rw [Cert.Consts.ofBits_zero]
  have e1 : idx_main_v102 (idx_main_v103 (ix2 p q)) = ix1 q := by idx_rfl
  have e2 : idx_main_v108 (idx_main_v109 (ix2 p q)) = ix1 q := by idx_rfl
  have e3 : idx_main_v111 (idx_main_v112 (ix2 p q)) = ix1 q := by idx_rfl
  have e4 : idx_main_v114 (idx_main_v115 (ix2 p q)) = ix1 q := by idx_rfl
  rw [e1, e2, e3, e4]
  rfl

/-! ## The edge lists and weights, carried to the second normalisation region's exit -/

theorem src_W14 : W14 m ρ c (Proc.devRef .tc main_v5) = val_main_v3 (F := Ideal) 𝔸1 := by
  walk_step; walk_step; walk_step; walk_step; exact src_W10 m ρ c
theorem dst_W14 : W14 m ρ c (Proc.devRef .tc main_v6) = val_main_v6 (F := Ideal) 𝔸1 := by
  walk_step; walk_step; walk_step; walk_step; exact dst_W10 m ρ c
theorem norm_W14 : W14 m ρ c (Proc.devRef .tc main_v31) = val_main_v31 (F := Ideal) 𝔸1 := by
  walk_step; walk_step; walk_step; walk_step; exact norm_W10 m ρ c

end Cert.Chain1
end
-- ==== Proof.Lin6.lean ====
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The linear layer of region 6: `o = x · w + b`, entry by entry

The body of region 6 rounds a 5000-row tile of `x` and the whole of `w` to bf16, multiplies them into a zero
accumulator and adds the one-row `b` to every row. Read over the extended reals a change of float format is the
identity and the product into zero is the plain sum over the contraction index, so the tile the body leaves is, at
row `p` and column `q`, `∑ k, x p k * w k q + b 0 q`. Grid point `t` reads rows `5000 t … 5000 t + 4999` of `x`
(all of `w` and `b`) and writes back the same rows of `o`; the ten tiles cover the 50000 rows (row `r` lies in tile
`r / 5000`), so after the region the output array holds that sum at every entry. Everything is stated at an arbitrary
contents `V` of the buffers on entry. -/

noncomputable section

namespace Cert.KernelIdeal.Lin6

open Cert.KernelIdeal Cert.KernelIdeal.Gen Idealize.ShloMosaic Idealize.ShloMosaic.ValueIdx
open Idealize.ShloMosaic.TcCoe
open Idealize.ShloMosaic.Pipeline (Dat)

/-! ## The arrays the four windows stage -/

theorem arrRef_0 : Pipeline.arrRef spec6 0 = main_v91 := rfl
theorem arrRef_1 : Pipeline.arrRef spec6 1 = main_arg6 := rfl
theorem arrRef_2 : Pipeline.arrRef spec6 2 = main_v93 := rfl
theorem arrRef_3 : Pipeline.arrRef spec6 3 = main_v94 := rfl

/-! ## One entry of `x · w + b` -/

/-- Row `p` of an `M`-row `x` against column `q` of `w`, plus entry `q` of the one-row `b`. -/
def lin {M : Nat} (x : (⟨2, ![M, 64]⟩ : Shape).Idx → EReal) (w : S64x64.Idx → EReal) (b : S1x64.Idx → EReal)
    (p : Fin M) (q : Fin 64) : EReal :=
  (∑ k : Fin 64, x (ix2 p k) * w (ix2 k q)) + b (ix2 (0 : Fin 1) q)

/-- The entry only depends on row `p` of `x`, column `q` of `w` and entry `q` of `b`. -/
theorem lin_congr {M M' : Nat} (x : (⟨2, ![M, 64]⟩ : Shape).Idx → EReal) (x' : (⟨2, ![M', 64]⟩ : Shape).Idx → EReal)
    (w w' : S64x64.Idx → EReal) (b b' : S1x64.Idx → EReal) (p : Fin M) (p' : Fin M') (q q' : Fin 64)
    (hx : ∀ k : Fin 64, x (ix2 p k) = x' (ix2 p' k)) (hw : ∀ k : Fin 64, w (ix2 k q) = w' (ix2 k q'))
    (hb : b (ix2 (0 : Fin 1) q) = b' (ix2 (0 : Fin 1) q')) : lin x w b p q = lin x' w' b' p' q' := by
  unfold lin
  rw [hb]
  exact congrArg (· + b' (ix2 (0 : Fin 1) q')) (Finset.sum_congr rfl fun k _ => by rw [hx k, hw k])

/-! ## The body's tile at an index -/

/-- Where the product's left operand is read: row of the output index, column the contraction index. -/
theorem lhs_row (i : S5000x64.Idx) (κ : dot_S5000x64_S64x64_S5000x64_1_0_0_1_n_n.contr.Idx) :
    (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- Where the product's right operand is read: row the contraction index, column of the output index. -/
theorem rhs_col (i : S5000x64.Idx) (κ : dot_S5000x64_S64x64_S5000x64_1_0_0_1_n_n.contr.Idx) :
    (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at row `p` and column `q`, is the sum over the contraction index. -/
theorem mm_apply (x : FVec Ideal S5000x64 .bf16) (w : FVec Ideal S64x64 .bf16) (p : Fin 5000) (q : Fin 64) :
    (matmul dot_S5000x64_S64x64_S5000x64_1_0_0_1_n_n none x w (constant S5000x64 .f32 0x00000000#32) : FVec Ideal S5000x64 .f32) (ix2 p q)
      = ∑ k : Fin 64, x (ix2 p k) * w (ix2 k q) := by
  show FloatOps.matmul dot_S5000x64_S64x64_S5000x64_1_0_0_1_n_n none x w (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]

/-- The tile the body stores, at row `p` and column `q`: the rounding to bf16 is the identity on the extended reals,
    the product is the sum, and the broadcast of the one-row `b` reads its entry `q`. -/
theorem pay_apply (x : Vec Ideal S5000x64 .f32) (w : Vec Ideal S64x64 .f32) (b : Vec Ideal S1x64 .f32) (p : Fin 5000) (q : Fin 64) :
    k6_pay1 x w b (ix2 p q) = lin x w b p q := by
  have hx : shapeCast S5000x64 x shapeCasts_S5000x64_S5000x64 = x := shapeCast_self x _
  have hm : (matmul dot_S5000x64_S64x64_S5000x64_1_0_0_1_n_n none (truncf .bf16 (shapeCast S5000x64 x shapeCasts_S5000x64_S5000x64) bitsLt_bf16_f32) (truncf .bf16 w bitsLt_bf16_f32) (constant S5000x64 .f32 0x00000000#32) : FVec Ideal S5000x64 .f32) (ix2 p q)
      = ∑ k : Fin 64, x (ix2 p k) * w (ix2 k q) := by
    rw [hx]; exact mm_apply (truncf .bf16 x bitsLt_bf16_f32) (truncf .bf16 w bitsLt_bf16_f32) p q
  have hb : broadcastTo S5000x64 (shapeCast S1x64 b shapeCasts_S1x64_S1x64) broadcasts_S1x64_S5000x64 (ix2 p q) = b (ix2 (0 : Fin 1) q) := by
    rw [broadcastTo_1b_ab_apply, shapeCast_self]
  unfold k6_pay1 lin
  exact congrArg₂ (· + ·) hm hb

/-- The same at any index of the tile. -/
theorem pay_apply_idx (x : Vec Ideal S5000x64 .f32) (w : Vec Ideal S64x64 .f32) (b : Vec Ideal S1x64 .f32) (j : S5000x64.Idx) :
    k6_pay1 x w b j = lin x w b (⟨(j 0).val, (j 0).isLt⟩ : Fin 5000) (⟨(j 1).val, (j 1).isLt⟩ : Fin 64) := by
  obtain ⟨p, q, rfl⟩ : ∃ (p : Fin 5000) (q : Fin 64), j = ix2 p q := ⟨j 0, j 1, eq_ix2 j⟩
  exact pay_apply x w b p q

/-! ## The blocks of the three input windows, read off the arrays -/

variable (V : (c : Dev nD) → (b : Ref sig .tc) → Buf (Elt Ideal) ((c : Thread nD τ).loc b))

/-- The printed index maps over the grid: the tiled windows move one tile per point, the resident ones stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Point `t`'s tile of `x` is rows `5000 t …` of the array. -/
theorem blk_x (c : Dev nD) (t : Fin cfg6.N) (y : S5000x64.Idx) (i : S50000x64.Idx)
    (h0 : (i 0).val = t.val * 5000 + (y 0).val) (h1 : (i 1).val = (y 1).val) :
    iblk6 V c 0 t y = V c (Pipeline.arrRef spec6 0) i := by
  obtain ⟨e0, e1, -⟩ := idx_facts t
  show V c (Pipeline.arrRef spec6 0) (((cfg6.win 0).blk t).view.emb y) = V c (Pipeline.arrRef spec6 0) i
  refine congrArg _ (funext fun a => Fin.ext ?_)
  match a with
  | ⟨0, _⟩ => show win6_0.index t (0 : Fin 2) * 5000 + 1 * (y 0).val = (i 0).val; rw [e0, h0]; omega
  | ⟨1, _⟩ => show win6_0.index t (1 : Fin 2) * 64 + 1 * (y 1).val = (i 1).val; rw [e1, h1]; omega

/-- Every point's block of `w` is the whole array. -/
theorem blk_w (c : Dev nD) (t : Fin cfg6.N) (y i : S64x64.Idx)
    (h0 : (i 0).val = (y 0).val) (h1 : (i 1).val = (y 1).val) :
    iblk6 V c 1 t y = V c (Pipeline.arrRef spec6 1) i := by
  obtain ⟨-, -, e2, e3, -⟩ := idx_facts t
  show V c (Pipeline.arrRef spec6 1) (((cfg6.win 1).blk t).view.emb y) = V c (Pipeline.arrRef spec6 1) i
  refine congrArg _ (funext fun a => Fin.ext ?_)
  match a with
  | ⟨0, _⟩ => show win6_1.index t (0 : Fin 2) * 64 + 1 * (y 0).val = (i 0).val; rw [e2, h0]; omega
  | ⟨1, _⟩ => show win6_1.index t (1 : Fin 2) * 64 + 1 * (y 1).val = (i 1).val; rw [e3, h1]; omega

/-- Every point's block of `b` is the whole array. -/
theorem blk_b (c : Dev nD) (t : Fin cfg6.N) (y i : S1x64.Idx)
    (h0 : (i 0).val = (y 0).val) (h1 : (i 1).val = (y 1).val) :
    iblk6 V c 2 t y = V c (Pipeline.arrRef spec6 2) i := by
  obtain ⟨-, -, -, -, e4, e5, -⟩ := idx_facts t
  show V c (Pipeline.arrRef spec6 2) (((cfg6.win 2).blk t).view.emb y) = V c (Pipeline.arrRef spec6 2) i
  refine congrArg _ (funext fun a => Fin.ext ?_)
  match a with
  | ⟨0, _⟩ => show win6_2.index t (0 : Fin 2) * 1 + 1 * (y 0).val = (i 0).val; rw [e4, h0]; omega
  | ⟨1, _⟩ => show win6_2.index t (1 : Fin 2) * 64 + 1 * (y 1).val = (i 1).val; rw [e5, h1]; omega

/-! ## What each point writes back, and the array after the region -/

theorem hz : (![0, 0] : Fin 2 → Nat) = fun _ => 0 := funext fun a => by fin_cases a <;> rfl

/-- The output array as one function of the three input arrays. -/
def G (a0 : S50000x64.Idx → EReal) (a1 : S64x64.Idx → EReal) (a2 : S1x64.Idx → EReal) : S50000x64.Idx → EReal :=
  fun i => lin a0 a1 a2 (⟨(i 0).val, (i 0).isLt⟩ : Fin 50000) (⟨(i 1).val, (i 1).isLt⟩ : Fin 64)

/-- WHAT POINT `t` WRITES BACK is its tile of `G` of the arrays as the region finds them. -/
theorem flushed_eq (c : Dev nD) (t : Fin cfg6.N) :
    (dat6 V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x64) hz, View.ld_unit_zero (S := S1x64) hz]
  obtain ⟨-, -, -, -, -, -, e6, e7⟩ := idx_facts t
  funext j
  refine (pay_apply_idx (iblk6 V c 0 t) (iblk6 V c 1 t) (iblk6 V c 2 t) j).trans ?_
  show _ = G (V c (Pipeline.arrRef spec6 0)) (V c (Pipeline.arrRef spec6 1)) (V c (Pipeline.arrRef spec6 2)) (((cfg6.win 3).blk t).view.emb j)
  unfold G
  refine lin_congr _ _ _ _ _ _ _ _ _ _ (fun k => blk_x V c t _ _ ?_ rfl) (fun k => blk_w V c t _ _ rfl ?_) (blk_b V c t _ _ rfl ?_)
  · show win6_3.index t (0 : Fin 2) * 5000 + 1 * (j 0).val = t.val * 5000 + (j 0).val; rw [e6]; omega
  · show win6_3.index t (1 : Fin 2) * 64 + 1 * (j 1).val = (j 1).val; rw [e7]; omega
  · show win6_3.index t (1 : Fin 2) * 64 + 1 * (j 1).val = (j 1).val; rw [e7]; omega

/-- An index of the output array is in point `t`'s tile iff each coordinate is in the tile's range on its axis. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v94).slice (win6_3.rect t)).set ↔ _
  rw [View.set_slice_whole, Rect.mem_set_unit]
  exact Iff.rfl

/-- The ten tiles cover the array: row `r` lies in tile `r / 5000`. -/
theorem cover (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, e6, e7⟩ := idx_facts t
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; rw [e6, ht]; omega
  | ⟨1, _⟩ => show win6_3.index t (1 : Fin 2) * 64 ≤ (i 1).val ∧ (i 1).val < win6_3.index t (1 : Fin 2) * 64 + 64; rw [e7]; omega

/-- THE OUTPUT ARRAY after the region is `G` of the input arrays. -/
theorem final (c : Dev nD) : (dat6 V c).arrAt 3 cfg6.N
    = G (V c (Pipeline.arrRef spec6 0)) (V c (Pipeline.arrRef spec6 1)) (V c (Pipeline.arrRef spec6 2)) :=
  (dat6 V c).arrAt_eq_of_cover 3 _ (fun t _ => flushed_eq V c t) cover

/-- `lin` spelt out. -/
theorem lin_def {M : Nat} (x : (⟨2, ![M, 64]⟩ : Shape).Idx → EReal) (w : S64x64.Idx → EReal) (b : S1x64.Idx → EReal)
    (p : Fin M) (q : Fin 64) :
    lin x w b p q = (∑ k : Fin 64, x (ix2 p k) * w (ix2 k q)) + b (ix2 (0 : Fin 1) q) := rfl

/-- Entry `(p, q)` of the output array after the region: row `p` of `x` against column `q` of `w`, plus `b` at `q`. -/
theorem arr_apply_lin (V : (c : Dev nD) → (b : Ref sig .tc) → Buf (Elt Ideal) ((c : Thread nD τ).loc b)) (c : Dev nD) (p : Fin 50000) (q : Fin 64) :
    ((dat6 (F := Ideal) V c).arrAt 3 cfg6.N) (ix2 p q)
      = lin (V c (Pipeline.arrRef spec6 0)) (V c (Pipeline.arrRef spec6 1)) (V c (Pipeline.arrRef spec6 2)) p q := by
  rw [final V c]
  rfl

/-- The same with the three input arrays named: whatever the entry contents of the staged arrays are known to be. -/
theorem arr_apply_of (V : (c : Dev nD) → (b : Ref sig .tc) → Buf (Elt Ideal) ((c : Thread nD τ).loc b)) (c : Dev nD)
    (x : S50000x64.Idx → EReal) (w : S64x64.Idx → EReal) (b : S1x64.Idx → EReal)
    (hx : V c (Pipeline.arrRef spec6 0) = x) (hw : V c (Pipeline.arrRef spec6 1) = w) (hb : V c (Pipeline.arrRef spec6 2) = b)
    (p : Fin 50000) (q : Fin 64) :
    ((dat6 (F := Ideal) V c).arrAt 3 cfg6.N) (ix2 p q)
      = (∑ k : Fin 64, x (ix2 p k) * w (ix2 k q)) + b (ix2 (0 : Fin 1) q) := by
  subst hx hw hb
  exact arr_apply_lin V c p q

/-- The same over the entry contents themselves, the products and the sum taken in the extended reals. -/
theorem arr_apply (V : (c : Dev nD) → (b : Ref sig .tc) → Buf (Elt Ideal) ((c : Thread nD τ).loc b)) (c : Dev nD) (p : Fin 50000) (q : Fin 64) :
    ((dat6 (F := Ideal) V c).arrAt 3 cfg6.N) (ix2 p q)
      = @HAdd.hAdd EReal EReal EReal _ (∑ k : Fin 64, @HMul.hMul EReal EReal EReal _ ((V c (Pipeline.arrRef spec6 0)) (ix2 p k)) ((V c (Pipeline.arrRef spec6 1)) (ix2 k q)))
        ((V c (Pipeline.arrRef spec6 2)) (ix2 (0 : Fin 1) q)) :=
  arr_apply_lin V c p q

end Cert.KernelIdeal.Lin6

end
-- ==== Proof.BiasRelu7.lean ====
/-
  Region 7 of the idealized kernel: the bias and the rectifier of the last hidden layer.

  The region walks a 50000 × 64 array in ten row tiles of 5000 rows. At each tile the body adds one 1 × 64 row,
  the bias, to every row of the tile and takes the maximum with zero, entry by entry. The tiles are disjoint and
  together they are the whole array, so after the ten write-backs the output array holds, at row `p` and column
  `q`, the number `max (s p q + b 0 q) 0`, where `s` and `b` are the two input arrays as the region finds them.

  The steps: the body's arithmetic read at one entry of a tile (`pay_apply`); where an entry of a tile sits in its
  array (`iblk0_apply`, `iblk1_apply`, `emb2_apply`: row `p` of tile `t` is row `5000 t + p`, and the bias row is
  the same at every tile); what a tile's write-back writes (`flushed_eq`); every row lies in the tile `row / 5000`
  (`cover`); hence the whole array (`final`) and one entry of it (`arr_apply`).
-/
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu7

open Cert.KernelIdeal Cert.KernelIdeal.Gen Idealize.ShloMosaic Idealize.ShloMosaic.TcCoe Idealize.ShloMosaic.ValueIdx
open Idealize.ShloMosaic.Pipeline (Dat)

/-! ## The arrays the three windows stage -/

theorem arrRef_0 : Pipeline.arrRef spec7 0 = main_v107 := rfl
theorem arrRef_1 : Pipeline.arrRef spec7 1 = main_v108 := rfl
theorem arrRef_2 : Pipeline.arrRef spec7 2 = main_v109 := rfl

/-! ## The function the output array ends at -/

/-- Entry `(p, q)` of the result: the input's entry plus the bias row's entry of the same column, or zero if that
    sum is negative. -/
def G (a0 : S50000x64.Idx → EReal) (a1 : S1x64.Idx → EReal) : S50000x64.Idx → EReal :=
  fun i => max (a0 i + a1 (ix2 (0 : Fin 1) (⟨(i 1).val, idx2_lt1 i⟩ : Fin 64))) (0 : EReal)

theorem G_apply (a0 : S50000x64.Idx → EReal) (a1 : S1x64.Idx → EReal) (p : Fin 50000) (q : Fin 64) :
    G a0 a1 (ix2 p q) = max (a0 (ix2 p q) + a1 (ix2 (0 : Fin 1) q)) (0 : EReal) := rfl

/-! ## The body's arithmetic at one entry of a tile -/

/-- The stored value at row `p`, column `q` of the tile: the tile's entry plus the bias row's entry of column `q`,
    clamped at zero from below. The casts to the same shape are the identity, the row broadcast reads its one row,
    and the splat constant is the zero word. -/
theorem pay_apply (x0 : Vec Ideal S5000x64 .f32) (x1 : Vec Ideal S1x64 .f32) (p : Fin 5000) (q : Fin 64) :
    k7_pay1 (F := Ideal) x0 x1 (ix2 p q) = max (x0 (ix2 p q) + x1 (ix2 (0 : Fin 1) q)) (0 : EReal) := by
  unfold k7_pay1
  rw [maximumf_apply, addf_apply, broadcast_apply, shapeCast_self, shapeCast_self, broadcastTo_1b_ab_apply]
  show max _ (Ideal.ofBits .f32 0x00000000#32) = _
  rw [Ideal.ofBits_zero_f32]

/-! ## Where a tile's entry sits in its array -/

theorem hz : (![0, 0] : Fin 2 → Nat) = fun _ => 0 := funext fun a => by fin_cases a <;> rfl

/-- The index maps over the ten points: the tiled windows' block index is the point itself on the rows and zero on
    the columns; the bias window stays at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem lt_ten (t : Fin cfg7.N) : t.val < 10 := by
  have h := t.isLt
  have hN : cfg7.N = 10 := N_7
  omega

/-- Row `p` of tile `t` is row `5000 t + p` of the array. -/
def row (t : Fin cfg7.N) (p : Fin 5000) : Fin 50000 :=
  ⟨5000 * t.val + p.val, by have := lt_ten t; have := p.isLt; omega⟩

variable (V : (c : Dev nD) → (b : Ref sig .tc) → Buf (Elt Ideal) ((c : Thread nD τ).loc b))

/-- The tiled input's block at point `t` reads rows `5000 t … 5000 t + 4999` of its array. -/
theorem iblk0_apply (c : Dev nD) (t : Fin cfg7.N) (p : Fin 5000) (q : Fin 64) :
    (iblk7 (F := Ideal) V c 0 t : Vec Ideal S5000x64 .f32) (ix2 p q)
      = (V c (Pipeline.arrRef spec7 0) : S50000x64.Idx → EReal) (ix2 (row t p) q) := by
  obtain ⟨e0, e1, -, -, -, -⟩ := idx_facts t
  unfold iblk7
  rw [View.read_apply]
  show (V c main_v107 : S50000x64.Idx → EReal) _ = (V c main_v107 : S50000x64.Idx → EReal) _
  congr 1
  funext a
  apply Fin.ext
  match a with
  | ⟨0, _⟩ => show win7_0.index t (0 : Fin 2) * 5000 + 1 * p.val = 5000 * t.val + p.val; rw [e0]; omega
  | ⟨1, _⟩ => show win7_0.index t (1 : Fin 2) * 64 + 1 * q.val = q.val; rw [e1]; omega

/-- The bias window's block is the one row of its array, at every point. -/
theorem iblk1_apply (c : Dev nD) (t : Fin cfg7.N) (q : Fin 64) :
    (iblk7 (F := Ideal) V c 1 t : Vec Ideal S1x64 .f32) (ix2 (0 : Fin 1) q)
      = (V c (Pipeline.arrRef spec7 1) : S1x64.Idx → EReal) (ix2 (0 : Fin 1) q) := by
  obtain ⟨-, -, e2, e3, -, -⟩ := idx_facts t
  unfold iblk7
  rw [View.read_apply]
  show (V c main_v108 : S1x64.Idx → EReal) _ = (V c main_v108 : S1x64.Idx → EReal) _
  congr 1
  funext a
  apply Fin.ext
  match a with
  | ⟨0, _⟩ => show win7_1.index t (0 : Fin 2) * 1 + 1 * 0 = 0; rw [e2]
  | ⟨1, _⟩ => show win7_1.index t (1 : Fin 2) * 64 + 1 * q.val = q.val; rw [e3]; omega

/-- Entry `(p, q)` of the output's block at point `t` is entry `(5000 t + p, q)` of the output array. -/
theorem emb2_apply (t : Fin cfg7.N) (p : Fin 5000) (q : Fin 64) :
    (((cfg7.win 2).blk t).view.emb (ix2 p q) : S50000x64.Idx) = ix2 (row t p) q := by
  obtain ⟨-, -, -, -, e4, e5⟩ := idx_facts t
  funext a
  apply Fin.ext
  match a with
  | ⟨0, _⟩ => show win7_2.index t (0 : Fin 2) * 5000 + 1 * p.val = 5000 * t.val + p.val; rw [e4]; omega
  | ⟨1, _⟩ => show win7_2.index t (1 : Fin 2) * 64 + 1 * q.val = q.val; rw [e5]; omega

/-! ## What one point writes back, and the whole array -/

/-- Point `t` writes back tile `t` of `G` of the two input arrays. -/
theorem flushed_eq (c : Dev nD) (t : Fin cfg7.N) :
    (dat7 (F := Ideal) V c).flushed 2 t
      = ((cfg7.win 2).blk t).view.read (Elt Ideal) (G (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  rw [View.read_apply]
  show k7_pay1 (F := Ideal) (iblk7 V c 0 t) (iblk7 V c 1 t) (ix2 p q)
    = G (V c (Pipeline.arrRef spec7 0)) (V c (Pipeline.arrRef spec7 1)) (((cfg7.win 2).blk t).view.emb (ix2 p q))
  rw [pay_apply, iblk0_apply V c t p q, iblk1_apply V c t q, emb2_apply t p q, G_apply]

/-- An index of the output array is in point `t`'s block iff each coordinate is in the block's range on its axis. -/
theorem mem_blk (t : Fin cfg7.N) (i : S50000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v109).slice (win7_2.rect t)).set ↔ _
  rw [View.set_slice_whole, Rect.mem_set_unit]
  exact Iff.rfl

/-- Every entry of the output array lies in the block of the point `row / 5000`, and every point writes back. -/
theorem cover (i : S50000x64.Idx) :
    ∃ t : Fin cfg7.N, (cfg7.win 2).flush t = true ∧ i ∈ ((cfg7.win 2).blk t).view.set := by
  have hi0 : (i 0).val < 50000 := idx2_lt0 i
  have hi1 : (i 1).val < 64 := idx2_lt1 i
  have hN : cfg7.N = 10 := N_7
  let t : Fin cfg7.N := ⟨(i 0).val / 5000, by rw [hN]; omega⟩
  have ht : t.val = (i 0).val / 5000 := rfl
  obtain ⟨-, -, -, -, e4, e5⟩ := idx_facts t
  refine ⟨t, flush7_2 t, ?_⟩
  rw [mem_blk]
  intro a
  match a with
  | ⟨0, _⟩ =>
    show win7_2.index t (0 : Fin 2) * 5000 ≤ (i 0).val ∧ (i 0).val < win7_2.index t (0 : Fin 2) * 5000 + 5000
    rw [e4, ht]; omega
  | ⟨1, _⟩ =>
    show win7_2.index t (1 : Fin 2) * 64 ≤ (i 1).val ∧ (i 1).val < win7_2.index t (1 : Fin 2) * 64 + 64
    rw [e5]; omega

/-- The output array after the region: `G` of the two input arrays as the region finds them. -/
theorem final (c : Dev nD) :
    (dat7 (F := Ideal) V c).arrAt 2 cfg7.N = G (V c (Pipeline.arrRef spec7 0)) (V c (Pipeline.arrRef spec7 1)) :=
  (dat7 (F := Ideal) V c).arrAt_eq_of_cover 2 (G (V c (Pipeline.arrRef spec7 0)) (V c (Pipeline.arrRef spec7 1)))
    (fun t _ => flushed_eq V c t) cover

/-- One entry of the output array after the region, with the two input arrays named: `A0` the tiled input and
    `A1` the bias row, as the region finds them. -/
theorem arr_apply_of (V : (c : Dev nD) → (b : Ref sig .tc) → Buf (Elt Ideal) ((c : Thread nD τ).loc b)) (c : Dev nD)
    (A0 : S50000x64.Idx → EReal) (A1 : S1x64.Idx → EReal)
    (h0 : V c (Pipeline.arrRef spec7 0) = A0) (h1 : V c (Pipeline.arrRef spec7 1) = A1)
    (p : Fin 50000) (q : Fin 64) :
    ((dat7 (F := Ideal) V c).arrAt 2 cfg7.N) (ix2 p q) = max (A0 (ix2 p q) + A1 (ix2 (0 : Fin 1) q)) (0 : EReal) := by
  subst h0 h1
  rw [final V c]
  exact G_apply _ _ p q

/-- One entry of the output array after the region: the sum of the tiled input's entry and the bias row's entry of
    the same column, as extended reals, or zero if that sum is negative. -/
theorem arr_apply (V : (c : Dev nD) → (b : Ref sig .tc) → Buf (Elt Ideal) ((c : Thread nD τ).loc b)) (c : Dev nD)
    (p : Fin 50000) (q : Fin 64) :
    ((dat7 (F := Ideal) V c).arrAt 2 cfg7.N) (ix2 p q)
      = max (HAdd.hAdd (α := EReal) (β := EReal) (γ := EReal)
          (V c (Pipeline.arrRef spec7 0) (ix2 p q)) (V c (Pipeline.arrRef spec7 1) (ix2 (0 : Fin 1) q))) (0 : EReal) :=
  arr_apply_of V c _ _ rfl rfl p q

end Cert.KernelIdeal.BiasRelu7

end
-- ==== Proof.Lin8.lean ====
import proofs.«127809_j47837345743091_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-! # The linear layer of region 8: `o = x · w + b`, entry by entry

The body of region 8 rounds a 5000-row tile of `x` and the whole of `w` to bf16, multiplies them into a zero
accumulator and adds the one-row `b` to every row. Read over the extended reals a change of float format is the
identity and the product into zero is the plain sum over the contraction index, so the tile the body leaves is, at
row `p` and column `q`, `∑ k, x p k * w k q + b 0 q`. Grid point `t` reads rows `5000 t … 5000 t + 4999` of `x`
(all of `w` and `b`) and writes back the same rows of `o`; the ten tiles cover the 50000 rows (row `r` lies in tile
`r / 5000`), so after the region the output array holds that sum at every entry. Everything is stated at an arbitrary
contents `V` of the buffers on entry. -/

noncomputable section

namespace Cert.KernelIdeal.Lin8

open Cert.KernelIdeal Cert.KernelIdeal.Gen Idealize.ShloMosaic Idealize.ShloMosaic.ValueIdx
open Idealize.ShloMosaic.TcCoe
open Idealize.ShloMosaic.Pipeline (Dat)

/-! ## The arrays the four windows stage -/

theorem arrRef_0 : Pipeline.arrRef spec8 0 = main_v109 := rfl
theorem arrRef_1 : Pipeline.arrRef spec8 1 = main_arg12 := rfl
theorem arrRef_2 : Pipeline.arrRef spec8 2 = main_v110 := rfl
theorem arrRef_3 : Pipeline.arrRef spec8 3 = main_v111 := rfl

/-! ## One entry of `x · w + b` -/

/-- Row `p` of an `M`-row `x` against column `q` of `w`, plus entry `q` of the one-row `b`. -/
def lin {M : Nat} (x : (⟨2, ![M, 64]⟩ : Shape).Idx → EReal) (w : S64x1.Idx → EReal) (b : S1x1.Idx → EReal)
    (p : Fin M) (q : Fin 1) : EReal :=
  (∑ k : Fin 64, x (ix2 p k) * w (ix2 k q)) + b (ix2 (0 : Fin 1) q)

/-- The entry only depends on row `p` of `x`, column `q` of `w` and entry `q` of `b`. -/
theorem lin_congr {M M' : Nat} (x : (⟨2, ![M, 64]⟩ : Shape).Idx → EReal) (x' : (⟨2, ![M', 64]⟩ : Shape).Idx → EReal)
    (w w' : S64x1.Idx → EReal) (b b' : S1x1.Idx → EReal) (p : Fin M) (p' : Fin M') (q q' : Fin 1)
    (hx : ∀ k : Fin 64, x (ix2 p k) = x' (ix2 p' k)) (hw : ∀ k : Fin 64, w (ix2 k q) = w' (ix2 k q'))
    (hb : b (ix2 (0 : Fin 1) q) = b' (ix2 (0 : Fin 1) q')) : lin x w b p q = lin x' w' b' p' q' := by
  unfold lin
  rw [hb]
  exact congrArg (· + b' (ix2 (0 : Fin 1) q')) (Finset.sum_congr rfl fun k _ => by rw [hx k, hw k])

/-! ## The body's tile at an index -/

/-- Where the product's left operand is read: row of the output index, column the contraction index. -/
theorem lhs_row (i : S5000x1.Idx) (κ : dot_S5000x64_S64x1_S5000x1_1_0_0_1_n_n.contr.Idx) :
    (dot_S5000x64_S64x1_S5000x1_1_0_0_1_n_n.lhsIdx i κ 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl

/-- Where the product's right operand is read: row the contraction index, column of the output index. -/
theorem rhs_col (i : S5000x1.Idx) (κ : dot_S5000x64_S64x1_S5000x1_1_0_0_1_n_n.contr.Idx) :
    (dot_S5000x64_S64x1_S5000x1_1_0_0_1_n_n.rhsIdx i κ 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The block product into the zero accumulator, at row `p` and column `q`, is the sum over the contraction index. -/
theorem mm_apply (x : FVec Ideal S5000x64 .bf16) (w : FVec Ideal S64x1 .bf16) (p : Fin 5000) (q : Fin 1) :
    (matmul dot_S5000x64_S64x1_S5000x1_1_0_0_1_n_n none x w (constant S5000x1 .f32 0x00000000#32) : FVec Ideal S5000x1 .f32) (ix2 p q)
      = ∑ k : Fin 64, x (ix2 p k) * w (ix2 k q) := by
  show FloatOps.matmul dot_S5000x64_S64x1_S5000x1_1_0_0_1_n_n none x w (constant S5000x1 .f32 0x00000000#32) (ix2 p q) = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lhs_row _ _
    | ⟨1, _⟩ => exact (dot_S5000x64_S64x1_S5000x1_1_0_0_1_n_n.lhsIdx_val_of_single rfl _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (dot_S5000x64_S64x1_S5000x1_1_0_0_1_n_n.rhsIdx_val_of_single rfl _ _).trans hk
    | ⟨1, _⟩ => exact rhs_col _ _)
  rw [el, er]

/-- The tile the body stores, at row `p` and column `q`: the rounding to bf16 is the identity on the extended reals,
    the product is the sum, and the broadcast of the one-row `b` reads its entry `q`. -/
theorem pay_apply (x : Vec Ideal S5000x64 .f32) (w : Vec Ideal S64x1 .f32) (b : Vec Ideal S1x1 .f32) (p : Fin 5000) (q : Fin 1) :
    k8_pay1 x w b (ix2 p q) = lin x w b p q := by
  have hx : shapeCast S5000x64 x shapeCasts_S5000x64_S5000x64 = x := shapeCast_self x _
  have hm : (matmul dot_S5000x64_S64x1_S5000x1_1_0_0_1_n_n none (truncf .bf16 (shapeCast S5000x64 x shapeCasts_S5000x64_S5000x64) bitsLt_bf16_f32) (truncf .bf16 w bitsLt_bf16_f32) (constant S5000x1 .f32 0x00000000#32) : FVec Ideal S5000x1 .f32) (ix2 p q)
      = ∑ k : Fin 64, x (ix2 p k) * w (ix2 k q) := by
    rw [hx]; exact mm_apply (truncf .bf16 x bitsLt_bf16_f32) (truncf .bf16 w bitsLt_bf16_f32) p q
  have hb : broadcastTo S5000x1 (shapeCast S1x1 b shapeCasts_S1x1_S1x1) broadcasts_S1x1_S5000x1 (ix2 p q) = b (ix2 (0 : Fin 1) q) := by
    rw [broadcastTo_1b_ab_apply, shapeCast_self]
  unfold k8_pay1 lin
  exact congrArg₂ (· + ·) hm hb

/-- The same at any index of the tile. -/
theorem pay_apply_idx (x : Vec Ideal S5000x64 .f32) (w : Vec Ideal S64x1 .f32) (b : Vec Ideal S1x1 .f32) (j : S5000x1.Idx) :
    k8_pay1 x w b j = lin x w b (⟨(j 0).val, (j 0).isLt⟩ : Fin 5000) (⟨(j 1).val, (j 1).isLt⟩ : Fin 1) := by
  obtain ⟨p, q, rfl⟩ : ∃ (p : Fin 5000) (q : Fin 1), j = ix2 p q := ⟨j 0, j 1, eq_ix2 j⟩
  exact pay_apply x w b p q

/-! ## The blocks of the three input windows, read off the arrays -/

variable (V : (c : Dev nD) → (b : Ref sig .tc) → Buf (Elt Ideal) ((c : Thread nD τ).loc b))

/-- The printed index maps over the grid: the tiled windows move one tile per point, the resident ones stay. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Point `t`'s tile of `x` is rows `5000 t …` of the array. -/
theorem blk_x (c : Dev nD) (t : Fin cfg8.N) (y : S5000x64.Idx) (i : S50000x64.Idx)
    (h0 : (i 0).val = t.val * 5000 + (y 0).val) (h1 : (i 1).val = (y 1).val) :
    iblk8 V c 0 t y = V c (Pipeline.arrRef spec8 0) i := by
  obtain ⟨e0, e1, -⟩ := idx_facts t
  show V c (Pipeline.arrRef spec8 0) (((cfg8.win 0).blk t).view.emb y) = V c (Pipeline.arrRef spec8 0) i
  refine congrArg _ (funext fun a => Fin.ext ?_)
  match a with
  | ⟨0, _⟩ => show win8_0.index t (0 : Fin 2) * 5000 + 1 * (y 0).val = (i 0).val; rw [e0, h0]; omega
  | ⟨1, _⟩ => show win8_0.index t (1 : Fin 2) * 64 + 1 * (y 1).val = (i 1).val; rw [e1, h1]; omega

/-- Every point's block of `w` is the whole array. -/
theorem blk_w (c : Dev nD) (t : Fin cfg8.N) (y i : S64x1.Idx)
    (h0 : (i 0).val = (y 0).val) (h1 : (i 1).val = (y 1).val) :
    iblk8 V c 1 t y = V c (Pipeline.arrRef spec8 1) i := by
  obtain ⟨-, -, e2, e3, -⟩ := idx_facts t
  show V c (Pipeline.arrRef spec8 1) (((cfg8.win 1).blk t).view.emb y) = V c (Pipeline.arrRef spec8 1) i
  refine congrArg _ (funext fun a => Fin.ext ?_)
  match a with
  | ⟨0, _⟩ => show win8_1.index t (0 : Fin 2) * 64 + 1 * (y 0).val = (i 0).val; rw [e2, h0]; omega
  | ⟨1, _⟩ => show win8_1.index t (1 : Fin 2) * 1 + 1 * (y 1).val = (i 1).val; rw [e3, h1]; omega

/-- Every point's block of `b` is the whole array. -/
theorem blk_b (c : Dev nD) (t : Fin cfg8.N) (y i : S1x1.Idx)
    (h0 : (i 0).val = (y 0).val) (h1 : (i 1).val = (y 1).val) :
    iblk8 V c 2 t y = V c (Pipeline.arrRef spec8 2) i := by
  obtain ⟨-, -, -, -, e4, e5, -⟩ := idx_facts t
  show V c (Pipeline.arrRef spec8 2) (((cfg8.win 2).blk t).view.emb y) = V c (Pipeline.arrRef spec8 2) i
  refine congrArg _ (funext fun a => Fin.ext ?_)
  match a with
  | ⟨0, _⟩ => show win8_2.index t (0 : Fin 2) * 1 + 1 * (y 0).val = (i 0).val; rw [e4, h0]; omega
  | ⟨1, _⟩ => show win8_2.index t (1 : Fin 2) * 1 + 1 * (y 1).val = (i 1).val; rw [e5, h1]; omega

/-! ## What each point writes back, and the array after the region -/

theorem hz : (![0, 0] : Fin 2 → Nat) = fun _ => 0 := funext fun a => by fin_cases a <;> rfl

/-- The output array as one function of the three input arrays. -/
def G (a0 : S50000x64.Idx → EReal) (a1 : S64x1.Idx → EReal) (a2 : S1x1.Idx → EReal) : S50000x1.Idx → EReal :=
  fun i => lin a0 a1 a2 (⟨(i 0).val, (i 0).isLt⟩ : Fin 50000) (⟨(i 1).val, (i 1).isLt⟩ : Fin 1)

/-- WHAT POINT `t` WRITES BACK is its tile of `G` of the arrays as the region finds them. -/
theorem flushed_eq (c : Dev nD) (t : Fin cfg8.N) :
    (dat8 V c).flushed 3 t = ((cfg8.win 3).blk t).view.read (Elt Ideal)
      (G (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz]
  simp only [View.ld_unit_zero (S := S5000x64) hz, View.ld_unit_zero (S := S64x1) hz, View.ld_unit_zero (S := S1x1) hz]
  obtain ⟨-, -, -, -, -, -, e6, e7⟩ := idx_facts t
  funext j
  refine (pay_apply_idx (iblk8 V c 0 t) (iblk8 V c 1 t) (iblk8 V c 2 t) j).trans ?_
  show _ = G (V c (Pipeline.arrRef spec8 0)) (V c (Pipeline.arrRef spec8 1)) (V c (Pipeline.arrRef spec8 2)) (((cfg8.win 3).blk t).view.emb j)
  unfold G
  refine lin_congr _ _ _ _ _ _ _ _ _ _ (fun k => blk_x V c t _ _ ?_ rfl) (fun k => blk_w V c t _ _ rfl ?_) (blk_b V c t _ _ rfl ?_)
  · show win8_3.index t (0 : Fin 2) * 5000 + 1 * (j 0).val = t.val * 5000 + (j 0).val; rw [e6]; omega
  · show win8_3.index t (1 : Fin 2) * 1 + 1 * (j 1).val = (j 1).val; rw [e7]; omega
  · show win8_3.index t (1 : Fin 2) * 1 + 1 * (j 1).val = (j 1).val; rw [e7]; omega

/-- An index of the output array is in point `t`'s tile iff each coordinate is in the tile's range on its axis. -/
theorem mem_blk (t : Fin cfg8.N) (i : S50000x1.Idx) :
    i ∈ ((cfg8.win 3).blk t).view.set ↔ ∀ a : Fin 2, win8_3.index t a * S5000x1.size a ≤ (i a).val ∧ (i a).val < win8_3.index t a * S5000x1.size a + S5000x1.size a := by
  show i ∈ ((View.whole main_v111).slice (win8_3.rect t)).set ↔ _
  rw [View.set_slice_whole, Rect.mem_set_unit]
  exact Iff.rfl

/-- The ten tiles cover the array: row `r` lies in tile `r / 5000`. -/
theorem cover (i : S50000x1.Idx) : ∃ t : Fin cfg8.N, (cfg8.win 3).flush t = true ∧ i ∈ ((cfg8.win 3).blk t).view.set := by
  have hi0 : (i 0).val < 50000 := (i 0).isLt
  have hi1 : (i 1).val < 1 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, e6, e7⟩ := idx_facts t
  refine ⟨t, flush8_3 t, ?_⟩
  rw [mem_blk]
  intro a
  match a with
  | ⟨0, _⟩ => show win8_3.index t (0 : Fin 2) * 5000 ≤ (i 0).val ∧ (i 0).val < win8_3.index t (0 : Fin 2) * 5000 + 5000; rw [e6, ht]; omega
  | ⟨1, _⟩ => show win8_3.index t (1 : Fin 2) * 1 ≤ (i 1).val ∧ (i 1).val < win8_3.index t (1 : Fin 2) * 1 + 1; rw [e7]; omega

/-- THE OUTPUT ARRAY after the region is `G` of the input arrays. -/
theorem final (c : Dev nD) : (dat8 V c).arrAt 3 cfg8.N
    = G (V c (Pipeline.arrRef spec8 0)) (V c (Pipeline.arrRef spec8 1)) (V c (Pipeline.arrRef spec8 2)) :=
  (dat8 V c).arrAt_eq_of_cover 3 _ (fun t _ => flushed_eq V c t) cover

/-- `lin` spelt out. -/
theorem lin_def {M : Nat} (x : (⟨2, ![M, 64]⟩ : Shape).Idx → EReal) (w : S64x1.Idx → EReal) (b : S1x1.Idx → EReal)
    (p : Fin M) (q : Fin 1) :
    lin x w b p q = (∑ k : Fin 64, x (ix2 p k) * w (ix2 k q)) + b (ix2 (0 : Fin 1) q) := rfl

/-- Entry `(p, q)` of the output array after the region: row `p` of `x` against column `q` of `w`, plus `b` at `q`. -/
theorem arr_apply_lin (V : (c : Dev nD) → (b : Ref sig .tc) → Buf (Elt Ideal) ((c : Thread nD τ).loc b)) (c : Dev nD) (p : Fin 50000) (q : Fin 1) :
    ((dat8 (F := Ideal) V c).arrAt 3 cfg8.N) (ix2 p q)
      = lin (V c (Pipeline.arrRef spec8 0)) (V c (Pipeline.arrRef spec8 1)) (V c (Pipeline.arrRef spec8 2)) p q := by
  rw [final V c]
  rfl

/-- The same with the three input arrays named: whatever the entry contents of the staged arrays are known to be. -/
theorem arr_apply_of (V : (c : Dev nD) → (b : Ref sig .tc) → Buf (Elt Ideal) ((c : Thread nD τ).loc b)) (c : Dev nD)
    (x : S50000x64.Idx → EReal) (w : S64x1.Idx → EReal) (b : S1x1.Idx → EReal)
    (hx : V c (Pipeline.arrRef spec8 0) = x) (hw : V c (Pipeline.arrRef spec8 1) = w) (hb : V c (Pipeline.arrRef spec8 2) = b)
    (p : Fin 50000) (q : Fin 1) :
    ((dat8 (F := Ideal) V c).arrAt 3 cfg8.N) (ix2 p q)
      = (∑ k : Fin 64, x (ix2 p k) * w (ix2 k q)) + b (ix2 (0 : Fin 1) q) := by
  subst hx hw hb
  exact arr_apply_lin V c p q

/-- The same over the entry contents themselves, the products and the sum taken in the extended reals. -/
theorem arr_apply (V : (c : Dev nD) → (b : Ref sig .tc) → Buf (Elt Ideal) ((c : Thread nD τ).loc b)) (c : Dev nD) (p : Fin 50000) (q : Fin 1) :
    ((dat8 (F := Ideal) V c).arrAt 3 cfg8.N) (ix2 p q)
      = @HAdd.hAdd EReal EReal EReal _ (∑ k : Fin 64, @HMul.hMul EReal EReal EReal _ ((V c (Pipeline.arrRef spec8 0)) (ix2 p k)) ((V c (Pipeline.arrRef spec8 1)) (ix2 k q)))
        ((V c (Pipeline.arrRef spec8 2)) (ix2 (0 : Fin 1) q)) :=
  arr_apply_lin V c p q

end Cert.KernelIdeal.Lin8

end
-- ==== Proof.Layer2.lean ====
/-
  The third convolution (no batch norm) and the output head, followed through the idealized kernel's last three
  regions.

  Given the second hidden layer and the edge lists and weights at the second normalisation region's exit: the
  seventh region's h·W2 (zero bias) is the reference's matrix product; the gather by source, scaling and scatter-add by
  destination are the same host operations; the eighth region's max(s + b, 0) is the reference's bias add and relu;
  the ninth region's h·w + fcb, a 50000×1 array, reshaped to 50000 entries, is the reference's result.
-/
import proofs.«127809_j47837345743091_1_alg».proof.Proof.Lin6
import proofs.«127809_j47837345743091_1_alg».proof.Proof.BiasRelu7
import proofs.«127809_j47837345743091_1_alg».proof.Proof.Lin8
import proofs.«127809_j47837345743091_1_alg».proof.Proof.Gen.KernelIdeal.Frame
import proofs.«127809_j47837345743091_1_alg».proof.Proof.ReadP
import Idealize.ShloMosaic.PureOps.Ideal
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.Chain2

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

set_option quotPrecheck false

local notation "𝔸0" => m ((c : Thread nD τ).loc main_arg0)
local notation "𝔸1" => m ((c : Thread nD τ).loc main_arg1)
local notation "𝔸2" => m ((c : Thread nD τ).loc main_arg2)
local notation "𝔸3" => m ((c : Thread nD τ).loc main_arg3)
local notation "𝔸4" => m ((c : Thread nD τ).loc main_arg4)
local notation "𝔸5" => m ((c : Thread nD τ).loc main_arg5)
local notation "𝔸6" => m ((c : Thread nD τ).loc main_arg6)
local notation "𝔸7" => m ((c : Thread nD τ).loc main_arg7)
local notation "𝔸8" => m ((c : Thread nD τ).loc main_arg8)
local notation "𝔸9" => m ((c : Thread nD τ).loc main_arg9)
local notation "𝔸10" => m ((c : Thread nD τ).loc main_arg10)
local notation "𝔸11" => m ((c : Thread nD τ).loc main_arg11)
local notation "𝔸12" => m ((c : Thread nD τ).loc main_arg12)
local notation "𝔸13" => m ((c : Thread nD τ).loc main_arg13)

/-- One boundary back: a buffer a region does not own is what it was at the region's entry; a buffer a host stretch
    does not write is what it was before the stretch (and one it writes is the operation's value). -/
macro "walk_step" : tactic => `(tactic| first
  | (rw [W20_of_ne]; rotate_left; decide) | (rw [W18_of_ne]; rotate_left; decide) | (rw [W16_of_ne]; rotate_left; decide)
  | (rw [W14_of_ne]; rotate_left; decide) | (rw [W12_of_ne]; rotate_left; decide) | (rw [W10_of_ne]; rotate_left; decide)
  | (rw [W8_of_ne]; rotate_left; decide) | (rw [W6_of_ne]; rotate_left; decide) | (rw [W4_of_ne]; rotate_left; decide)
  | after_results_simp)
/-- All the way back to the launch memory. -/
macro "walk_back" : tactic => `(tactic| ((repeat walk_step); try rfl))

/-- An index function of the reference read at literal coordinates: both sides have the same coordinates. -/
macro "idx_rfl" : tactic => `(tactic| (funext a; first | (match a with | ⟨0, _⟩ => rfl | ⟨1, _⟩ => rfl) | (match a with | ⟨0, _⟩ => rfl)))

/-! # The third convolution (no batch norm) and the output head -/

theorem arg6_W15 : W15 m ρ c (Proc.devRef .tc main_arg6) = 𝔸6 := by walk_back
theorem zb2_W15 : W15 m ρ c (Proc.devRef .tc main_v93) = (fun _ : S1x64.Idx => (0 : EReal)) := by
  after_results_simp
  funext i
  exact Ideal.ofBits_zero_f32

/-! ## From the second hidden layer to the result

Four facts are assumed at the boundary after the second normalisation: the second hidden layer, the edge source list, the
edge destination list and the edge weights there are the reference's. -/

theorem h2_W15
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W15 m ρ c (Proc.devRef .tc main_v91) = val_main_v117 (F := Ideal) 𝔸0 𝔸1 𝔸2 𝔸3 𝔸4 𝔸5 𝔸8 𝔸9 𝔸10 𝔸11 := by
  walk_step; exact H2

theorem t2_W16
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W16 m ρ c (Proc.devRef .tc main_v94) = val_main_v118 (F := Ideal) 𝔸0 𝔸1 𝔸2 𝔸3 𝔸4 𝔸5 𝔸6 𝔸8 𝔸9 𝔸10 𝔸11 := by
  refine (W16_arr m ρ c 3).trans ?_
  refine funext fun (i : S50000x64.Idx) => ?_
  obtain ⟨p, q, rfl⟩ : ∃ (p : Fin 50000) (q : Fin 64), i = ix2 p q := ⟨i 0, i 1, eq_ix2 i⟩
  rw [Cert.KernelIdeal.Lin6.arr_apply_of (V15 m ρ) c _ _ _ (h2_W15 m ρ c H2 Hsrc Hdst Hnorm) (arg6_W15 m ρ c) (zb2_W15 m ρ c) p q,
    val_main_v118_apply]
  show _ + (0 : EReal) = _
  rw [add_zero]
  refine Finset.sum_congr rfl fun k _ => ?_
  congr 2 <;> idx_rfl

theorem src_W16
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W16 m ρ c (Proc.devRef .tc main_v5) = val_main_v3 (F := Ideal) 𝔸1 := by
  walk_step; walk_step; exact Hsrc
theorem dst_W16
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W16 m ρ c (Proc.devRef .tc main_v6) = val_main_v6 (F := Ideal) 𝔸1 := by
  walk_step; walk_step; exact Hdst
theorem norm_W16
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W16 m ρ c (Proc.devRef .tc main_v31) = val_main_v31 (F := Ideal) 𝔸1 := by
  walk_step; walk_step; exact Hnorm
theorem arg7_W16 : W16 m ρ c (Proc.devRef .tc main_arg7) = 𝔸7 := by walk_back

theorem s2_W17
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W17 m ρ c (Proc.devRef .tc main_v107) = val_main_v131 (F := Ideal) 𝔸0 𝔸1 𝔸2 𝔸3 𝔸4 𝔸5 𝔸6 𝔸8 𝔸9 𝔸10 𝔸11 := by
  after_results_simp
  rw [dst_W16 m ρ c H2 Hsrc Hdst Hnorm, t2_W16 m ρ c H2 Hsrc Hdst Hnorm, src_W16 m ρ c H2 Hsrc Hdst Hnorm, norm_W16 m ρ c H2 Hsrc Hdst Hnorm]
  rfl
theorem b2_W17 (q : Fin 64) : (W17 m ρ c (Proc.devRef .tc main_v108) : S1x64.Idx → EReal) (ix2 (0 : Fin 1) q) = (𝔸7 : S64.Idx → EReal) (ix1 q) := by
  have h : W17 m ρ c (Proc.devRef .tc main_v108) = (fun i => shapeCast S1x64 (W16 m ρ c (Proc.devRef .tc main_arg7)) shapeCasts_S64_S1x64 i) := by
    after_results_simp; rfl
  rw [h, arg7_W16]; exact shapeCast_a_1a_apply _ _ _ _

theorem h3_W18
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W18 m ρ c (Proc.devRef .tc main_v109) = val_main_v135 (F := Ideal) 𝔸0 𝔸1 𝔸2 𝔸3 𝔸4 𝔸5 𝔸6 𝔸7 𝔸8 𝔸9 𝔸10 𝔸11 := by
  refine (W18_arr m ρ c 2).trans ?_
  refine funext fun (i : S50000x64.Idx) => ?_
  obtain ⟨p, q, rfl⟩ : ∃ (p : Fin 50000) (q : Fin 64), i = ix2 p q := ⟨i 0, i 1, eq_ix2 i⟩
  rw [Cert.KernelIdeal.BiasRelu7.arr_apply_of (V17 m ρ) c _ (W17 m ρ c (Proc.devRef .tc main_v108)) (s2_W17 m ρ c H2 Hsrc Hdst Hnorm) rfl p q,
    b2_W17, val_main_v135_apply, val_main_v134_apply, val_main_v133_apply, val_main_v132_apply, val_main_call3_v0_apply, val_main_call3_cst_apply]
  show max _ (0 : EReal) = max _ (Ideal.ofBits .f32 0x00000000#32)
  rw [Ideal.ofBits_zero_f32]
  have e1 : idx_main_v132 (idx_main_v133 (ix2 p q)) = ix1 q := by idx_rfl
  rw [e1]; rfl

theorem arg12_W19 : W19 m ρ c (Proc.devRef .tc main_arg12) = 𝔸12 := by walk_back
theorem arg13_W18 : W18 m ρ c (Proc.devRef .tc main_arg13) = 𝔸13 := by walk_back
theorem fcb_W19 : (W19 m ρ c (Proc.devRef .tc main_v110) : S1x1.Idx → EReal) (ix2 (0 : Fin 1) (0 : Fin 1)) = (𝔸13 : S1.Idx → EReal) (ix1 (0 : Fin 1)) := by
  have h : W19 m ρ c (Proc.devRef .tc main_v110) = (fun i => shapeCast S1x1 (W18 m ρ c (Proc.devRef .tc main_arg13)) shapeCasts_S1_S1x1 i) := by
    after_results_simp; rfl
  rw [h, arg13_W18]; exact shapeCast_a_1a_apply _ _ _ _
theorem h3_W19
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W19 m ρ c (Proc.devRef .tc main_v109) = val_main_v135 (F := Ideal) 𝔸0 𝔸1 𝔸2 𝔸3 𝔸4 𝔸5 𝔸6 𝔸7 𝔸8 𝔸9 𝔸10 𝔸11 := by
  walk_step; exact h3_W18 m ρ c H2 Hsrc Hdst Hnorm

theorem out1_W20
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W20 m ρ c (Proc.devRef .tc main_v111) = val_main_v139 (F := Ideal) 𝔸0 𝔸1 𝔸2 𝔸3 𝔸4 𝔸5 𝔸6 𝔸7 𝔸8 𝔸9 𝔸10 𝔸11 𝔸12 𝔸13 := by
  refine (W20_arr m ρ c 3).trans ?_
  refine funext fun (i : S50000x1.Idx) => ?_
  obtain ⟨p, q, rfl⟩ : ∃ (p : Fin 50000) (q : Fin 1), i = ix2 p q := ⟨i 0, i 1, eq_ix2 i⟩
  obtain rfl : q = 0 := Subsingleton.elim _ _
  rw [Cert.KernelIdeal.Lin8.arr_apply_of (V19 m ρ) c _ _ (W19 m ρ c (Proc.devRef .tc main_v110)) (h3_W19 m ρ c H2 Hsrc Hdst Hnorm) (arg12_W19 m ρ c) rfl p 0,
    fcb_W19, val_main_v139_apply, val_main_v138_apply, val_main_v137_apply, val_main_v136_apply]
  show _ + _ = _ + _
  have e1 : idx_main_v137 (idx_main_v138 (ix2 p (0 : Fin 1))) = ix1 (0 : Fin 1) := by idx_rfl
  rw [e1]
  refine congrArg₂ (· + ·) (Finset.sum_congr rfl fun k _ => ?_) rfl
  congr 2 <;> idx_rfl

/-- The result buffer at the last boundary is the reference's last stage. -/
theorem out_W21
    (H2 : W14 m ρ c (Proc.devRef .tc main_v91) = val_main_v117 (F := Ideal) 𝔸0 𝔸1 𝔸2 𝔸3 𝔸4 𝔸5 𝔸8 𝔸9 𝔸10 𝔸11)
    (Hsrc : W14 m ρ c (Proc.devRef .tc main_v5) = val_main_v3 (F := Ideal) 𝔸1)
    (Hdst : W14 m ρ c (Proc.devRef .tc main_v6) = val_main_v6 (F := Ideal) 𝔸1)
    (Hnorm : W14 m ρ c (Proc.devRef .tc main_v31) = val_main_v31 (F := Ideal) 𝔸1) : W21 m ρ c (Proc.devRef .tc main_v112) = val_main_v140 (F := Ideal) 𝔸0 𝔸1 𝔸2 𝔸3 𝔸4 𝔸5 𝔸6 𝔸7 𝔸8 𝔸9 𝔸10 𝔸11 𝔸12 𝔸13 := by
  after_results_simp
  rw [out1_W20 m ρ c H2 Hsrc Hdst Hnorm]
  rfl

end Cert.Chain2
end
-- ==== Proof.Chain.lean ====
/-
  The three layers joined. Given that the two batch-normalised convolution outputs have real entries, the idealized
  kernel's result buffer at its last segment boundary is the reference's last stage of the same arguments: the first
  layer hands the second its hidden layer and the edge lists and weights, the second hands the third its own, and the
  third ends at the output head.
-/
import proofs.«127809_j47837345743091_1_alg».proof.Proof.Layer0
import proofs.«127809_j47837345743091_1_alg».proof.Proof.Layer1
import proofs.«127809_j47837345743091_1_alg».proof.Proof.Layer2

set_option maxRecDepth 16384

noncomputable section

namespace Cert.Chain

open Cert.KernelIdeal Cert.KernelIdeal.Gen Cert.ReferenceIdeal.ReadP
open Idealize.ShloMosaic Idealize.ShloMosaic.TcCoe Idealize.SL.Sem

/-- The idealized kernel's result is the reference's, as functions of the argument arrays. -/
theorem out_eq (m : (ℓ : Loc nD τ sig) → Buf (Elt Ideal) ℓ) (ρ : Dev nD → PrngReg) (c : Dev nD)
    (hreal0 : ∀ i, ∃ r : ℝ, val_main_v48 (F := Ideal) (m ((c : Thread nD τ).loc main_arg0)) (m ((c : Thread nD τ).loc main_arg1))
      (m ((c : Thread nD τ).loc main_arg2)) (m ((c : Thread nD τ).loc main_arg3)) i = ((r : ℝ) : EReal))
    (hreal1 : ∀ i, ∃ r : ℝ, val_main_v91 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg8)) (m ((c : Thread nD τ).loc main_arg9)) i = ((r : ℝ) : EReal)) :
    W21 m ρ c (Proc.devRef .tc main_v112)
      = val_main_v140 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) :=
  Cert.Chain2.out_W21 m ρ c (Cert.Chain1.h2_W14 m ρ c hreal0 hreal1) (Cert.Chain1.src_W14 m ρ c) (Cert.Chain1.dst_W14 m ρ c)
    (Cert.Chain1.norm_W14 m ρ c)

end Cert.Chain

end
-- ==== Proof.lean ====
/-
  A three-layer graph convolution network with batch norm, as nine tiled kernels among host gather / scatter code,
  against the plain jnp reference: the five claims.

  The three frames are the generated runs. The idealization rewrote nothing, so `preserves` is trivial. The algebraic
  claim: under the precondition every float argument has real entries, hence so do the two batch-normalised
  convolution outputs; on real entries the kernel's variance (mean of squares minus square of mean, from column sums
  accumulated tile by tile) is the reference's (mean of squared deviations), and every other operation of the two
  programs is the same operation on the same values — the matrix products at the ideal instance are plain sums, the
  zero bias the kernel adds before aggregating adds nothing, and the gathers and scatter-adds are the same host
  operations applied to equal arrays. The result buffer is followed boundary by boundary through the kernel's nine
  regions (Layer0, Layer1, Layer2, joined in Chain) and set beside the reference's run (Assemble).
-/
import proofs.«127809_j47837345743091_1_alg».proof.Defs
import proofs.«127809_j47837345743091_1_alg».proof.Proof.Gen.Kernel
import proofs.«127809_j47837345743091_1_alg».proof.Proof.Gen.Kernel.Skeleton
import proofs.«127809_j47837345743091_1_alg».proof.Proof.Gen.Kernel.Launch
import proofs.«127809_j47837345743091_1_alg».proof.Proof.Gen.Kernel.Points
import proofs.«127809_j47837345743091_1_alg».proof.Proof.Gen.Kernel.Frame
import proofs.«127809_j47837345743091_1_alg».proof.Proof.Gen.KernelIdeal
import proofs.«127809_j47837345743091_1_alg».proof.Proof.Gen.KernelIdeal.Skeleton
import proofs.«127809_j47837345743091_1_alg».proof.Proof.Gen.KernelIdeal.Launch
import proofs.«127809_j47837345743091_1_alg».proof.Proof.Gen.KernelIdeal.Points
import proofs.«127809_j47837345743091_1_alg».proof.Proof.Gen.KernelIdeal.Frame
import proofs.«127809_j47837345743091_1_alg».proof.Proof.Gen.ReferenceIdeal
import proofs.«127809_j47837345743091_1_alg».proof.Proof.Gen.Pre_finite_inputs
import proofs.«127809_j47837345743091_1_alg».proof.Proof.Assemble
import proofs.«127809_j47837345743091_1_alg».proof.Proof.Chain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Assemble.frame_k, Cert.Assemble.frame_ki, Cert.Assemble.frame_ri, Cert.Assemble.preserves,
    Cert.Assemble.algebraic_of Cert.Chain.out_eq⟩

end Cert.Proof

end
